-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S1024x1x1 : Shape := ⟨3, ![1024, 1, 1]⟩
abbrev S1024x1 : Shape := ⟨2, ![1024, 1]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S1024x1x1 : S_.BroadcastsInDim S1024x1x1 (![] : Fin 0 → Fin S1024x1x1.rank)
  reducesTo_S1024x1x1_S_d0_1_2 : S1024x1x1.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S65536x1 .f32) (main_arg1 : FVec F S1024x1x1 .f32) (main_arg2 : FVec F S1024x1 .f32) : IVec S_ 1 :=
  let main_v0 : FVec F S65536x1 .f32 := Host.absf main_arg0
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S1024x1x1 .f32 := Host.absf main_arg1
  let main_cst_0 : FVec F S_ .f32 := constant S_ .f32 0x7F800000#32
  let main_v5 : FVec F S1024x1x1 .f32 := broadcastInDim S1024x1x1 ![] bcast_S_S1024x1x1 main_cst_0
  let main_v6 : IVec S1024x1x1 1 := cmpf .olt main_v4 main_v5
  let main_c_1 : IVec S_ 1 := constantI S_ 1 1#1
  let main_v7 : IVec S_ 1 := (fun x v => Host.reduce IntOp.andi x v reducesTo_S1024x1x1_S_d0_1_2 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  main_v13
-- ==== Kernel.lean ====
abbrev S65536x1 : Shape := ⟨2, ![65536, 1]⟩
abbrev S1024x1x1 : Shape := ⟨3, ![1024, 1, 1]⟩
abbrev S1024x1 : Shape := ⟨2, ![1024, 1]⟩
abbrev S1x1024 : Shape := ⟨2, ![1, 1024]⟩
abbrev S65536x2048 : Shape := ⟨2, ![65536, 2048]⟩
abbrev S256x1 : Shape := ⟨2, ![256, 1]⟩
abbrev S256x2048 : Shape := ⟨2, ![256, 2048]⟩
abbrev S1x1 : Shape := ⟨2, ![1, 1]⟩
abbrev S256x1x1 : Shape := ⟨3, ![256, 1, 1]⟩
abbrev S256x1x2 : Shape := ⟨3, ![256, 1, 2]⟩
abbrev S256x2 : Shape := ⟨2, ![256, 2]⟩
abbrev S1x2 : Shape := ⟨2, ![1, 2]⟩
abbrev S256x2x1 : Shape := ⟨3, ![256, 2, 1]⟩
abbrev S256x2x2 : Shape := ⟨3, ![256, 2, 2]⟩
abbrev S256x4 : Shape := ⟨2, ![256, 4]⟩
abbrev S1x4 : Shape := ⟨2, ![1, 4]⟩
abbrev S256x4x1 : Shape := ⟨3, ![256, 4, 1]⟩
abbrev S256x4x2 : Shape := ⟨3, ![256, 4, 2]⟩
abbrev S256x8 : Shape := ⟨2, ![256, 8]⟩
abbrev S1x8 : Shape := ⟨2, ![1, 8]⟩
abbrev S256x8x1 : Shape := ⟨3, ![256, 8, 1]⟩
abbrev S256x8x2 : Shape := ⟨3, ![256, 8, 2]⟩
abbrev S256x16 : Shape := ⟨2, ![256, 16]⟩
abbrev S1x16 : Shape := ⟨2, ![1, 16]⟩
abbrev S256x16x1 : Shape := ⟨3, ![256, 16, 1]⟩
abbrev S256x16x2 : Shape := ⟨3, ![256, 16, 2]⟩
abbrev S256x32 : Shape := ⟨2, ![256, 32]⟩
abbrev S1x32 : Shape := ⟨2, ![1, 32]⟩
abbrev S256x32x1 : Shape := ⟨3, ![256, 32, 1]⟩
abbrev S256x32x2 : Shape := ⟨3, ![256, 32, 2]⟩
abbrev S256x64 : Shape := ⟨2, ![256, 64]⟩
abbrev S1x64 : Shape := ⟨2, ![1, 64]⟩
abbrev S256x64x1 : Shape := ⟨3, ![256, 64, 1]⟩
abbrev S256x64x2 : Shape := ⟨3, ![256, 64, 2]⟩
abbrev S256x128 : Shape := ⟨2, ![256, 128]⟩
abbrev S1x128 : Shape := ⟨2, ![1, 128]⟩
abbrev S256x128x1 : Shape := ⟨3, ![256, 128, 1]⟩
abbrev S256x128x2 : Shape := ⟨3, ![256, 128, 2]⟩
abbrev S256x256 : Shape := ⟨2, ![256, 256]⟩
abbrev S1x256 : Shape := ⟨2, ![1, 256]⟩
abbrev S256x256x1 : Shape := ⟨3, ![256, 256, 1]⟩
abbrev S256x256x2 : Shape := ⟨3, ![256, 256, 2]⟩
abbrev S256x512 : Shape := ⟨2, ![256, 512]⟩
abbrev S1x512 : Shape := ⟨2, ![1, 512]⟩
abbrev S256x512x1 : Shape := ⟨3, ![256, 512, 1]⟩
abbrev S256x512x2 : Shape := ⟨3, ![256, 512, 2]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S65536x1, .f32⟩
  | .hbm, ⟨1, _⟩ => ⟨S1024x1x1, .f32⟩
  | .hbm, ⟨2, _⟩ => ⟨S1024x1, .f32⟩
  | .hbm, ⟨3, _⟩ => ⟨S1x1024, .f32⟩
  | .hbm, ⟨4, _⟩ => ⟨S1x1024, .f32⟩
  | .hbm, ⟨5, _⟩ => ⟨S65536x2048, .f32⟩
  | .local _ .vmem, ⟨0, _⟩ => ⟨S256x1, .f32⟩
  | .local _ .vmem, ⟨1, _⟩ => ⟨S256x1, .f32⟩
  | .local _ .vmem, ⟨2, _⟩ => ⟨S1x1024, .f32⟩
  | .local _ .vmem, ⟨3, _⟩ => ⟨S1x1024, .f32⟩
  | .local _ .vmem, ⟨4, _⟩ => ⟨S256x2048, .f32⟩
  | .local _ .vmem, ⟨5, _⟩ => ⟨S256x2048, .f32⟩
  | _, _ => ⟨S65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x1x1_S1x1024 : S1024x1x1.ShapeCasts S1x1024
  shapeCasts_S1024x1_S1x1024 : S1024x1.ShapeCasts S1x1024
  inb_S256x1_S256x1_0_0 : ∀ a, (![0, 0] : Fin 2 → Nat) a + S256x1.size a ≤ S256x1.size a
  h_S256x1 : 0 < S256x1.numel
  inb_S256x2048_S256x1_0_0 : ∀ a, (![0, 0] : Fin 2 → Nat) a + S256x1.size a ≤ S256x2048.size a
  inb_S256x2048_S256x1_0_1 : ∀ a, (![0, 1] : Fin 2 → Nat) a + S256x1.size a ≤ S256x2048.size a
  inb_S1x1024_S1x1_0_1 : ∀ a, (![0, 1] : Fin 2 → Nat) a + S1x1.size a ≤ S1x1024.size a
  h_S1x1 : 0 < S1x1.numel
  shapeCasts_S1x1_S1x1 : S1x1.ShapeCasts S1x1
  broadcasts_S1x1_S256x1 : S1x1.Broadcasts S256x1
  shapeCasts_S256x1_S256x1x1 : S256x1.ShapeCasts S256x1x1
  concatenates_S256x1x1_S256x1x1_S256x1x2_d2 : Shape.Concatenates [S256x1x1, S256x1x1] S256x1x2 2
  shapeCasts_S256x1x2_S256x2 : S256x1x2.ShapeCasts S256x2
  inb_S256x2048_S256x2_0_2 : ∀ a, (![0, 2] : Fin 2 → Nat) a + S256x2.size a ≤ S256x2048.size a
  h_S256x2 : 0 < S256x2.numel
  inb_S1x1024_S1x2_0_2 : ∀ a, (![0, 2] : Fin 2 → Nat) a + S1x2.size a ≤ S1x1024.size a
  h_S1x2 : 0 < S1x2.numel
  shapeCasts_S1x2_S1x2 : S1x2.ShapeCasts S1x2
  broadcasts_S256x1_S256x2 : S256x1.Broadcasts S256x2
  broadcasts_S1x2_S256x2 : S1x2.Broadcasts S256x2
  shapeCasts_S256x2_S256x2x1 : S256x2.ShapeCasts S256x2x1
  concatenates_S256x2x1_S256x2x1_S256x2x2_d2 : Shape.Concatenates [S256x2x1, S256x2x1] S256x2x2 2
  shapeCasts_S256x2x2_S256x4 : S256x2x2.ShapeCasts S256x4
  inb_S256x2048_S256x4_0_4 : ∀ a, (![0, 4] : Fin 2 → Nat) a + S256x4.size a ≤ S256x2048.size a
  h_S256x4 : 0 < S256x4.numel
  inb_S1x1024_S1x4_0_4 : ∀ a, (![0, 4] : Fin 2 → Nat) a + S1x4.size a ≤ S1x1024.size a
  h_S1x4 : 0 < S1x4.numel
  shapeCasts_S1x4_S1x4 : S1x4.ShapeCasts S1x4
  broadcasts_S256x1_S256x4 : S256x1.Broadcasts S256x4
  broadcasts_S1x4_S256x4 : S1x4.Broadcasts S256x4
  shapeCasts_S256x4_S256x4x1 : S256x4.ShapeCasts S256x4x1
  concatenates_S256x4x1_S256x4x1_S256x4x2_d2 : Shape.Concatenates [S256x4x1, S256x4x1] S256x4x2 2
  shapeCasts_S256x4x2_S256x8 : S256x4x2.ShapeCasts S256x8
  inb_S256x2048_S256x8_0_8 : ∀ a, (![0, 8] : Fin 2 → Nat) a + S256x8.size a ≤ S256x2048.size a
  h_S256x8 : 0 < S256x8.numel
  inb_S1x1024_S1x8_0_8 : ∀ a, (![0, 8] : Fin 2 → Nat) a + S1x8.size a ≤ S1x1024.size a
  h_S1x8 : 0 < S1x8.numel
  shapeCasts_S1x8_S1x8 : S1x8.ShapeCasts S1x8
  broadcasts_S256x1_S256x8 : S256x1.Broadcasts S256x8
  broadcasts_S1x8_S256x8 : S1x8.Broadcasts S256x8
  shapeCasts_S256x8_S256x8x1 : S256x8.ShapeCasts S256x8x1
  concatenates_S256x8x1_S256x8x1_S256x8x2_d2 : Shape.Concatenates [S256x8x1, S256x8x1] S256x8x2 2
  shapeCasts_S256x8x2_S256x16 : S256x8x2.ShapeCasts S256x16
  inb_S256x2048_S256x16_0_16 : ∀ a, (![0, 16] : Fin 2 → Nat) a + S256x16.size a ≤ S256x2048.size a
  h_S256x16 : 0 < S256x16.numel
  inb_S1x1024_S1x16_0_16 : ∀ a, (![0, 16] : Fin 2 → Nat) a + S1x16.size a ≤ S1x1024.size a
  h_S1x16 : 0 < S1x16.numel
  shapeCasts_S1x16_S1x16 : S1x16.ShapeCasts S1x16
  broadcasts_S256x1_S256x16 : S256x1.Broadcasts S256x16
  broadcasts_S1x16_S256x16 : S1x16.Broadcasts S256x16
  shapeCasts_S256x16_S256x16x1 : S256x16.ShapeCasts S256x16x1
  concatenates_S256x16x1_S256x16x1_S256x16x2_d2 : Shape.Concatenates [S256x16x1, S256x16x1] S256x16x2 2
  shapeCasts_S256x16x2_S256x32 : S256x16x2.ShapeCasts S256x32
  inb_S256x2048_S256x32_0_32 : ∀ a, (![0, 32] : Fin 2 → Nat) a + S256x32.size a ≤ S256x2048.size a
  h_S256x32 : 0 < S256x32.numel
  inb_S1x1024_S1x32_0_32 : ∀ a, (![0, 32] : Fin 2 → Nat) a + S1x32.size a ≤ S1x1024.size a
  h_S1x32 : 0 < S1x32.numel
  shapeCasts_S1x32_S1x32 : S1x32.ShapeCasts S1x32
  broadcasts_S256x1_S256x32 : S256x1.Broadcasts S256x32
  broadcasts_S1x32_S256x32 : S1x32.Broadcasts S256x32
  shapeCasts_S256x32_S256x32x1 : S256x32.ShapeCasts S256x32x1
  concatenates_S256x32x1_S256x32x1_S256x32x2_d2 : Shape.Concatenates [S256x32x1, S256x32x1] S256x32x2 2
  shapeCasts_S256x32x2_S256x64 : S256x32x2.ShapeCasts S256x64
  inb_S256x2048_S256x64_0_64 : ∀ a, (![0, 64] : Fin 2 → Nat) a + S256x64.size a ≤ S256x2048.size a
  h_S256x64 : 0 < S256x64.numel
  inb_S1x1024_S1x64_0_64 : ∀ a, (![0, 64] : Fin 2 → Nat) a + S1x64.size a ≤ S1x1024.size a
  h_S1x64 : 0 < S1x64.numel
  shapeCasts_S1x64_S1x64 : S1x64.ShapeCasts S1x64
  broadcasts_S256x1_S256x64 : S256x1.Broadcasts S256x64
  broadcasts_S1x64_S256x64 : S1x64.Broadcasts S256x64
  shapeCasts_S256x64_S256x64x1 : S256x64.ShapeCasts S256x64x1
  concatenates_S256x64x1_S256x64x1_S256x64x2_d2 : Shape.Concatenates [S256x64x1, S256x64x1] S256x64x2 2
  shapeCasts_S256x64x2_S256x128 : S256x64x2.ShapeCasts S256x128
  inb_S256x2048_S256x128_0_128 : ∀ a, (![0, 128] : Fin 2 → Nat) a + S256x128.size a ≤ S256x2048.size a
  h_S256x128 : 0 < S256x128.numel
  inb_S1x1024_S1x128_0_128 : ∀ a, (![0, 128] : Fin 2 → Nat) a + S1x128.size a ≤ S1x1024.size a
  h_S1x128 : 0 < S1x128.numel
  shapeCasts_S1x128_S1x128 : S1x128.ShapeCasts S1x128
  broadcasts_S256x1_S256x128 : S256x1.Broadcasts S256x128
  broadcasts_S1x128_S256x128 : S1x128.Broadcasts S256x128
  shapeCasts_S256x128_S256x128x1 : S256x128.ShapeCasts S256x128x1
  concatenates_S256x128x1_S256x128x1_S256x128x2_d2 : Shape.Concatenates [S256x128x1, S256x128x1] S256x128x2 2
  shapeCasts_S256x128x2_S256x256 : S256x128x2.ShapeCasts S256x256
  inb_S256x2048_S256x256_0_256 : ∀ a, (![0, 256] : Fin 2 → Nat) a + S256x256.size a ≤ S256x2048.size a
  h_S256x256 : 0 < S256x256.numel
  inb_S1x1024_S1x256_0_256 : ∀ a, (![0, 256] : Fin 2 → Nat) a + S1x256.size a ≤ S1x1024.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  shapeCasts_S256x256_S256x256x1 : S256x256.ShapeCasts S256x256x1
  concatenates_S256x256x1_S256x256x1_S256x256x2_d2 : Shape.Concatenates [S256x256x1, S256x256x1] S256x256x2 2
  shapeCasts_S256x256x2_S256x512 : S256x256x2.ShapeCasts S256x512
  inb_S256x2048_S256x512_0_512 : ∀ a, (![0, 512] : Fin 2 → Nat) a + S256x512.size a ≤ S256x2048.size a
  h_S256x512 : 0 < S256x512.numel
  inb_S1x1024_S1x512_0_512 : ∀ a, (![0, 512] : Fin 2 → Nat) a + S1x512.size a ≤ S1x1024.size a
  h_S1x512 : 0 < S1x512.numel
  shapeCasts_S1x512_S1x512 : S1x512.ShapeCasts S1x512
  broadcasts_S256x1_S256x512 : S256x1.Broadcasts S256x512
  broadcasts_S1x512_S256x512 : S1x512.Broadcasts S256x512
  shapeCasts_S256x512_S256x512x1 : S256x512.ShapeCasts S256x512x1
  concatenates_S256x512x1_S256x512x1_S256x512x2_d2 : Shape.Concatenates [S256x512x1, S256x512x1] S256x512x2 2
  shapeCasts_S256x512x2_S256x1024 : S256x512x2.ShapeCasts S256x1024
  inb_S256x2048_S256x1024_0_1024 : ∀ a, (![0, 1024] : Fin 2 → Nat) a + S256x1024.size a ≤ S256x2048.size a
  h_S256x1024 : 0 < S256x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S65536x1.size a
  hwx0_0 : ∀ i : grid0.Coords, EltTy.bits .f32 = 32 ∨ (Rect.block (s := S65536x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S65536x2048.size a
  hwx0_3 : ∀ i : grid0.Coords, EltTy.bits .f32 = 32 ∨ (Rect.block (s := S65536x2048) S256x2048.size (cc0_transform_3 i) (hinb0_3 i)).WholeWords (EltTy.packing .f32)

variable [Facts₀]

abbrev win0_0 : Pipeline.Window sig grid0 :=
  Pipeline.Window.ofSpec (Memref.whole main_arg0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1 : Shape := ⟨2, ![65536, 1]⟩
abbrev S1024x1x1 : Shape := ⟨3, ![1024, 1, 1]⟩
abbrev S1024x1 : Shape := ⟨2, ![1024, 1]⟩
abbrev S65536x1024x1 : Shape := ⟨3, ![65536, 1024, 1]⟩
abbrev S1x1024x1 : Shape := ⟨3, ![1, 1024, 1]⟩
abbrev S_ : Shape := ⟨0, ![]⟩
abbrev S65536x1024x2 : Shape := ⟨3, ![65536, 1024, 2]⟩
abbrev S65536x2 : Shape := ⟨2, ![65536, 2]⟩
abbrev S65536x1x1 : Shape := ⟨3, ![65536, 1, 1]⟩
abbrev S65536x1x2 : Shape := ⟨3, ![65536, 1, 2]⟩
abbrev S65536x4 : Shape := ⟨2, ![65536, 4]⟩
abbrev S65536x2x1 : Shape := ⟨3, ![65536, 2, 1]⟩
abbrev S65536x2x2 : Shape := ⟨3, ![65536, 2, 2]⟩
abbrev S65536x8 : Shape := ⟨2, ![65536, 8]⟩
abbrev S65536x4x1 : Shape := ⟨3, ![65536, 4, 1]⟩
abbrev S65536x4x2 : Shape := ⟨3, ![65536, 4, 2]⟩
abbrev S65536x16 : Shape := ⟨2, ![65536, 16]⟩
abbrev S65536x8x1 : Shape := ⟨3, ![65536, 8, 1]⟩
abbrev S65536x8x2 : Shape := ⟨3, ![65536, 8, 2]⟩
abbrev S65536x32 : Shape := ⟨2, ![65536, 32]⟩
abbrev S65536x16x1 : Shape := ⟨3, ![65536, 16, 1]⟩
abbrev S65536x16x2 : Shape := ⟨3, ![65536, 16, 2]⟩
abbrev S65536x64 : Shape := ⟨2, ![65536, 64]⟩
abbrev S65536x32x1 : Shape := ⟨3, ![65536, 32, 1]⟩
abbrev S65536x32x2 : Shape := ⟨3, ![65536, 32, 2]⟩
abbrev S65536x128 : Shape := ⟨2, ![65536, 128]⟩
abbrev S65536x64x1 : Shape := ⟨3, ![65536, 64, 1]⟩
abbrev S65536x64x2 : Shape := ⟨3, ![65536, 64, 2]⟩
abbrev S65536x256 : Shape := ⟨2, ![65536, 256]⟩
abbrev S65536x128x1 : Shape := ⟨3, ![65536, 128, 1]⟩
abbrev S65536x128x2 : Shape := ⟨3, ![65536, 128, 2]⟩
abbrev S65536x512 : Shape := ⟨2, ![65536, 512]⟩
abbrev S65536x256x1 : Shape := ⟨3, ![65536, 256, 1]⟩
abbrev S65536x256x2 : Shape := ⟨3, ![65536, 256, 2]⟩
abbrev S65536x1024 : Shape := ⟨2, ![65536, 1024]⟩
abbrev S65536x512x1 : Shape := ⟨3, ![65536, 512, 1]⟩
abbrev S65536x512x2 : Shape := ⟨3, ![65536, 512, 2]⟩
abbrev S65536x2048 : Shape := ⟨2, ![65536, 2048]⟩
abbrev S1 : Shape := ⟨1, ![1]⟩
abbrev S65536 : Shape := ⟨1, ![65536]⟩

abbrev nBuf : Space → Nat
  | .hbm => 96
  | .vmem => 0
  | .smem => 0
  | _ => 0

abbrev bufTy : (tb : Table) → Fin (tcTables nBuf tb) → BufTy
  | .hbm, ⟨0, _⟩ => ⟨S65536x1, .f32⟩
  | .hbm, ⟨1, _⟩ => ⟨S1024x1x1, .f32⟩
  | .hbm, ⟨2, _⟩ => ⟨S1024x1, .f32⟩
  | .hbm, ⟨3, _⟩ => ⟨S65536x1024x1, .f32⟩
  | .hbm, ⟨4, _⟩ => ⟨S1x1024x1, .f32⟩
  | .hbm, ⟨5, _⟩ => ⟨S65536x1024x1, .f32⟩
  | .hbm, ⟨6, _⟩ => ⟨S65536x1024x1, .f32⟩
  | .hbm, ⟨7, _⟩ => ⟨S65536x1024x1, .f32⟩
  | .hbm, ⟨8, _⟩ => ⟨S65536x1024x1, .f32⟩
  | .hbm, ⟨9, _⟩ => ⟨S_, .f32⟩
  | .hbm, ⟨10, _⟩ => ⟨S65536x1024x1, .f32⟩
  | .hbm, ⟨11, _⟩ => ⟨S65536x1024x1, .f32⟩
  | .hbm, ⟨12, _⟩ => ⟨S_, .f32⟩
  | .hbm, ⟨13, _⟩ => ⟨S65536x1024x1, .f32⟩
  | .hbm, ⟨14, _⟩ => ⟨S65536x1024x1, .f32⟩
  | .hbm, ⟨15, _⟩ => ⟨S_, .f32⟩
  | .hbm, ⟨16, _⟩ => ⟨S65536x1024x1, .f32⟩
  | .hbm, ⟨17, _⟩ => ⟨S65536x1024x1, .f32⟩
  | .hbm, ⟨18, _⟩ => ⟨S65536x1024x2, .f32⟩
  | .hbm, ⟨19, _⟩ => ⟨S_, .f32⟩
  | .hbm, ⟨20, _⟩ => ⟨S65536x2, .f32⟩
  | .hbm, ⟨21, _⟩ => ⟨S65536x1, .f32⟩
  | .hbm, ⟨22, _⟩ => ⟨S65536x1x1, .f32⟩
  | .hbm, ⟨23, _⟩ => ⟨S65536x1x2, .f32⟩
  | .hbm, ⟨24, _⟩ => ⟨S65536x1x2, .f32⟩
  | .hbm, ⟨25, _⟩ => ⟨S65536x1x2, .f32⟩
  | .hbm, ⟨26, _⟩ => ⟨S65536x2, .f32⟩
  | .hbm, ⟨27, _⟩ => ⟨S65536x4, .f32⟩
  | .hbm, ⟨28, _⟩ => ⟨S65536x2, .f32⟩
  | .hbm, ⟨29, _⟩ => ⟨S65536x2x1, .f32⟩
  | .hbm, ⟨30, _⟩ => ⟨S65536x2x2, .f32⟩
  | .hbm, ⟨31, _⟩ => ⟨S65536x2x2, .f32⟩
  | .hbm, ⟨32, _⟩ => ⟨S65536x2x2, .f32⟩
  | .hbm, ⟨33, _⟩ => ⟨S65536x4, .f32⟩
  | .hbm, ⟨34, _⟩ => ⟨S65536x8, .f32⟩
  | .hbm, ⟨35, _⟩ => ⟨S65536x4, .f32⟩
  | .hbm, ⟨36, _⟩ => ⟨S65536x4x1, .f32⟩
  | .hbm, ⟨37, _⟩ => ⟨S65536x4x2, .f32⟩
  | .hbm, ⟨38, _⟩ => ⟨S65536x4x2, .f32⟩
  | .hbm, ⟨39, _⟩ => ⟨S65536x4x2, .f32⟩
  | .hbm, ⟨40, _⟩ => ⟨S65536x8, .f32⟩
  | .hbm, ⟨41, _⟩ => ⟨S65536x16, .f32⟩
  | .hbm, ⟨42, _⟩ => ⟨S65536x8, .f32⟩
  | .hbm, ⟨43, _⟩ => ⟨S65536x8x1, .f32⟩
  | .hbm, ⟨44, _⟩ => ⟨S65536x8x2, .f32⟩
  | .hbm, ⟨45, _⟩ => ⟨S65536x8x2, .f32⟩
  | .hbm, ⟨46, _⟩ => ⟨S65536x8x2, .f32⟩
  | .hbm, ⟨47, _⟩ => ⟨S65536x16, .f32⟩
  | .hbm, ⟨48, _⟩ => ⟨S65536x32, .f32⟩
  | .hbm, ⟨49, _⟩ => ⟨S65536x16, .f32⟩
  | .hbm, ⟨50, _⟩ => ⟨S65536x16x1, .f32⟩
  | .hbm, ⟨51, _⟩ => ⟨S65536x16x2, .f32⟩
  | .hbm, ⟨52, _⟩ => ⟨S65536x16x2, .f32⟩
  | .hbm, ⟨53, _⟩ => ⟨S65536x16x2, .f32⟩
  | .hbm, ⟨54, _⟩ => ⟨S65536x32, .f32⟩
  | .hbm, ⟨55, _⟩ => ⟨S65536x64, .f32⟩
  | .hbm, ⟨56, _⟩ => ⟨S65536x32, .f32⟩
  | .hbm, ⟨57, _⟩ => ⟨S65536x32x1, .f32⟩
  | .hbm, ⟨58, _⟩ => ⟨S65536x32x2, .f32⟩
  | .hbm, ⟨59, _⟩ => ⟨S65536x32x2, .f32⟩
  | .hbm, ⟨60, _⟩ => ⟨S65536x32x2, .f32⟩
  | .hbm, ⟨61, _⟩ => ⟨S65536x64, .f32⟩
  | .hbm, ⟨62, _⟩ => ⟨S65536x128, .f32⟩
  | .hbm, ⟨63, _⟩ => ⟨S65536x64, .f32⟩
  | .hbm, ⟨64, _⟩ => ⟨S65536x64x1, .f32⟩
  | .hbm, ⟨65, _⟩ => ⟨S65536x64x2, .f32⟩
  | .hbm, ⟨66, _⟩ => ⟨S65536x64x2, .f32⟩
  | .hbm, ⟨67, _⟩ => ⟨S65536x64x2, .f32⟩
  | .hbm, ⟨68, _⟩ => ⟨S65536x128, .f32⟩
  | .hbm, ⟨69, _⟩ => ⟨S65536x256, .f32⟩
  | .hbm, ⟨70, _⟩ => ⟨S65536x128, .f32⟩
  | .hbm, ⟨71, _⟩ => ⟨S65536x128x1, .f32⟩
  | .hbm, ⟨72, _⟩ => ⟨S65536x128x2, .f32⟩
  | .hbm, ⟨73, _⟩ => ⟨S65536x128x2, .f32⟩
  | .hbm, ⟨74, _⟩ => ⟨S65536x128x2, .f32⟩
  | .hbm, ⟨75, _⟩ => ⟨S65536x256, .f32⟩
  | .hbm, ⟨76, _⟩ => ⟨S65536x512, .f32⟩
  | .hbm, ⟨77, _⟩ => ⟨S65536x256, .f32⟩
  | .hbm, ⟨78, _⟩ => ⟨S65536x256x1, .f32⟩
  | .hbm, ⟨79, _⟩ => ⟨S65536x256x2, .f32⟩
  | .hbm, ⟨80, _⟩ => ⟨S65536x256x2, .f32⟩
  | .hbm, ⟨81, _⟩ => ⟨S65536x256x2, .f32⟩
  | .hbm, ⟨82, _⟩ => ⟨S65536x512, .f32⟩
  | .hbm, ⟨83, _⟩ => ⟨S65536x1024, .f32⟩
  | .hbm, ⟨84, _⟩ => ⟨S65536x512, .f32⟩
  | .hbm, ⟨85, _⟩ => ⟨S65536x512x1, .f32⟩
  | .hbm, ⟨86, _⟩ => ⟨S65536x512x2, .f32⟩
  | .hbm, ⟨87, _⟩ => ⟨S65536x512x2, .f32⟩
  | .hbm, ⟨88, _⟩ => ⟨S65536x512x2, .f32⟩
  | .hbm, ⟨89, _⟩ => ⟨S65536x1024, .f32⟩
  | .hbm, ⟨90, _⟩ => ⟨S65536x2048, .f32⟩
  | .hbm, ⟨91, _⟩ => ⟨S_, .i32⟩
  | .hbm, ⟨92, _⟩ => ⟨S1, .i32⟩
  | .hbm, ⟨93, _⟩ => ⟨S_, .f32⟩
  | .hbm, ⟨94, _⟩ => ⟨S65536, .f32⟩
  | .hbm, ⟨95, _⟩ => ⟨S65536x2048, .f32⟩
  | _, _ => ⟨S65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_c : Ref sig .tc := ⟨.hbm, 91, rfl⟩
abbrev main_v84 : Ref sig .tc := ⟨.hbm, 92, rfl⟩
abbrev main_cst_3 : Ref sig .tc := ⟨.hbm, 93, rfl⟩
abbrev main_v85 : Ref sig .tc := ⟨.hbm, 94, rfl⟩
abbrev main_v86 : Ref sig .tc := ⟨.hbm, 95, rfl⟩

abbrev nD : Nat := 1
abbrev τ : Topo := Topo.v7x

variable {F : FTy → Type} [FloatOps F]

class Facts₀ : Prop where
  bcast_S1024x1_S1x1024x1_1_2 : S1024x1.BroadcastsInDim S1x1024x1 (![1, 2] : Fin 2 → Fin S1x1024x1.rank)
  bcast_S1x1024x1_S65536x1024x1_0_1_2 : S1x1024x1.BroadcastsInDim S65536x1024x1 (![0, 1, 2] : Fin 3 → Fin S65536x1024x1.rank)
  bcast_S_S65536x1024x1 : S_.BroadcastsInDim S65536x1024x1 (![] : Fin 0 → Fin S65536x1024x1.rank)
  concatenates_S65536x1024x1_S65536x1024x1_S65536x1024x2_d2 : Shape.Concatenates [S65536x1024x1, S65536x1024x1] S65536x1024x2 2
  bcast_S_S65536x2 : S_.BroadcastsInDim S65536x2 (![] : Fin 0 → Fin S65536x2.rank)
  slices_S65536x2_S65536x1_0_1 : S65536x2.Slices ![0, 1] S65536x1
  bcast_S65536x1_S65536x1x1_0_1 : S65536x1.BroadcastsInDim S65536x1x1 (![0, 1] : Fin 2 → Fin S65536x1x1.rank)
  slices_S65536x1024x2_S65536x1x2_0_1_0 : S65536x1024x2.Slices ![0, 1, 0] S65536x1x2
  bcast_S65536x1x1_S65536x1x2_0_1_2 : S65536x1x1.BroadcastsInDim S65536x1x2 (![0, 1, 2] : Fin 3 → Fin S65536x1x2.rank)
  shapeCasts_S65536x1x2_S65536x2 : S65536x1x2.ShapeCasts S65536x2
  concatenates_S65536x2_S65536x2_S65536x4_d1 : Shape.Concatenates [S65536x2, S65536x2] S65536x4 1
  slices_S65536x4_S65536x2_0_2 : S65536x4.Slices ![0, 2] S65536x2
  bcast_S65536x2_S65536x2x1_0_1 : S65536x2.BroadcastsInDim S65536x2x1 (![0, 1] : Fin 2 → Fin S65536x2x1.rank)
  slices_S65536x1024x2_S65536x2x2_0_2_0 : S65536x1024x2.Slices ![0, 2, 0] S65536x2x2
  bcast_S65536x2x1_S65536x2x2_0_1_2 : S65536x2x1.BroadcastsInDim S65536x2x2 (![0, 1, 2] : Fin 3 → Fin S65536x2x2.rank)
  shapeCasts_S65536x2x2_S65536x4 : S65536x2x2.ShapeCasts S65536x4
  concatenates_S65536x4_S65536x4_S65536x8_d1 : Shape.Concatenates [S65536x4, S65536x4] S65536x8 1
  slices_S65536x8_S65536x4_0_4 : S65536x8.Slices ![0, 4] S65536x4
  bcast_S65536x4_S65536x4x1_0_1 : S65536x4.BroadcastsInDim S65536x4x1 (![0, 1] : Fin 2 → Fin S65536x4x1.rank)
  slices_S65536x1024x2_S65536x4x2_0_4_0 : S65536x1024x2.Slices ![0, 4, 0] S65536x4x2
  bcast_S65536x4x1_S65536x4x2_0_1_2 : S65536x4x1.BroadcastsInDim S65536x4x2 (![0, 1, 2] : Fin 3 → Fin S65536x4x2.rank)
  shapeCasts_S65536x4x2_S65536x8 : S65536x4x2.ShapeCasts S65536x8
  concatenates_S65536x8_S65536x8_S65536x16_d1 : Shape.Concatenates [S65536x8, S65536x8] S65536x16 1
  slices_S65536x16_S65536x8_0_8 : S65536x16.Slices ![0, 8] S65536x8
  bcast_S65536x8_S65536x8x1_0_1 : S65536x8.BroadcastsInDim S65536x8x1 (![0, 1] : Fin 2 → Fin S65536x8x1.rank)
  slices_S65536x1024x2_S65536x8x2_0_8_0 : S65536x1024x2.Slices ![0, 8, 0] S65536x8x2
  bcast_S65536x8x1_S65536x8x2_0_1_2 : S65536x8x1.BroadcastsInDim S65536x8x2 (![0, 1, 2] : Fin 3 → Fin S65536x8x2.rank)
  shapeCasts_S65536x8x2_S65536x16 : S65536x8x2.ShapeCasts S65536x16
  concatenates_S65536x16_S65536x16_S65536x32_d1 : Shape.Concatenates [S65536x16, S65536x16] S65536x32 1
  slices_S65536x32_S65536x16_0_16 : S65536x32.Slices ![0, 16] S65536x16
  bcast_S65536x16_S65536x16x1_0_1 : S65536x16.BroadcastsInDim S65536x16x1 (![0, 1] : Fin 2 → Fin S65536x16x1.rank)
  slices_S65536x1024x2_S65536x16x2_0_16_0 : S65536x1024x2.Slices ![0, 16, 0] S65536x16x2
  bcast_S65536x16x1_S65536x16x2_0_1_2 : S65536x16x1.BroadcastsInDim S65536x16x2 (![0, 1, 2] : Fin 3 → Fin S65536x16x2.rank)
  shapeCasts_S65536x16x2_S65536x32 : S65536x16x2.ShapeCasts S65536x32
  concatenates_S65536x32_S65536x32_S65536x64_d1 : Shape.Concatenates [S65536x32, S65536x32] S65536x64 1
  slices_S65536x64_S65536x32_0_32 : S65536x64.Slices ![0, 32] S65536x32
  bcast_S65536x32_S65536x32x1_0_1 : S65536x32.BroadcastsInDim S65536x32x1 (![0, 1] : Fin 2 → Fin S65536x32x1.rank)
  slices_S65536x1024x2_S65536x32x2_0_32_0 : S65536x1024x2.Slices ![0, 32, 0] S65536x32x2
  bcast_S65536x32x1_S65536x32x2_0_1_2 : S65536x32x1.BroadcastsInDim S65536x32x2 (![0, 1, 2] : Fin 3 → Fin S65536x32x2.rank)
  shapeCasts_S65536x32x2_S65536x64 : S65536x32x2.ShapeCasts S65536x64
  concatenates_S65536x64_S65536x64_S65536x128_d1 : Shape.Concatenates [S65536x64, S65536x64] S65536x128 1
  slices_S65536x128_S65536x64_0_64 : S65536x128.Slices ![0, 64] S65536x64
  bcast_S65536x64_S65536x64x1_0_1 : S65536x64.BroadcastsInDim S65536x64x1 (![0, 1] : Fin 2 → Fin S65536x64x1.rank)
  slices_S65536x1024x2_S65536x64x2_0_64_0 : S65536x1024x2.Slices ![0, 64, 0] S65536x64x2
  bcast_S65536x64x1_S65536x64x2_0_1_2 : S65536x64x1.BroadcastsInDim S65536x64x2 (![0, 1, 2] : Fin 3 → Fin S65536x64x2.rank)
  shapeCasts_S65536x64x2_S65536x128 : S65536x64x2.ShapeCasts S65536x128
  concatenates_S65536x128_S65536x128_S65536x256_d1 : Shape.Concatenates [S65536x128, S65536x128] S65536x256 1
  slices_S65536x256_S65536x128_0_128 : S65536x256.Slices ![0, 128] S65536x128
  bcast_S65536x128_S65536x128x1_0_1 : S65536x128.BroadcastsInDim S65536x128x1 (![0, 1] : Fin 2 → Fin S65536x128x1.rank)
  slices_S65536x1024x2_S65536x128x2_0_128_0 : S65536x1024x2.Slices ![0, 128, 0] S65536x128x2
  bcast_S65536x128x1_S65536x128x2_0_1_2 : S65536x128x1.BroadcastsInDim S65536x128x2 (![0, 1, 2] : Fin 3 → Fin S65536x128x2.rank)
  shapeCasts_S65536x128x2_S65536x256 : S65536x128x2.ShapeCasts S65536x256
  concatenates_S65536x256_S65536x256_S65536x512_d1 : Shape.Concatenates [S65536x256, S65536x256] S65536x512 1
  slices_S65536x512_S65536x256_0_256 : S65536x512.Slices ![0, 256] S65536x256
  bcast_S65536x256_S65536x256x1_0_1 : S65536x256.BroadcastsInDim S65536x256x1 (![0, 1] : Fin 2 → Fin S65536x256x1.rank)
  slices_S65536x1024x2_S65536x256x2_0_256_0 : S65536x1024x2.Slices ![0, 256, 0] S65536x256x2
  bcast_S65536x256x1_S65536x256x2_0_1_2 : S65536x256x1.BroadcastsInDim S65536x256x2 (![0, 1, 2] : Fin 3 → Fin S65536x256x2.rank)
  shapeCasts_S65536x256x2_S65536x512 : S65536x256x2.ShapeCasts S65536x512
  concatenates_S65536x512_S65536x512_S65536x1024_d1 : Shape.Concatenates [S65536x512, S65536x512] S65536x1024 1
  slices_S65536x1024_S65536x512_0_512 : S65536x1024.Slices ![0, 512] S65536x512
  bcast_S65536x512_S65536x512x1_0_1 : S65536x512.BroadcastsInDim S65536x512x1 (![0, 1] : Fin 2 → Fin S65536x512x1.rank)
  slices_S65536x1024x2_S65536x512x2_0_512_0 : S65536x1024x2.Slices ![0, 512, 0] S65536x512x2
  bcast_S65536x512x1_S65536x512x2_0_1_2 : S65536x512x1.BroadcastsInDim S65536x512x2 (![0, 1, 2] : Fin 3 → Fin S65536x512x2.rank)
  shapeCasts_S65536x512x2_S65536x1024 : S65536x512x2.ShapeCasts S65536x1024
  concatenates_S65536x1024_S65536x1024_S65536x2048_d1 : Shape.Concatenates [S65536x1024, S65536x1024] S65536x2048 1
  bcast_S_S1 : S_.BroadcastsInDim S1 (![] : Fin 0 → Fin S1.rank)
  bcast_S_S65536 : S_.BroadcastsInDim S65536 (![] : Fin 0 → Fin S65536.rank)
  dot_S65536x1_S1024x1x1_S65536x1024x1_1_2_0_01_n_n_wf : DotDims.WF S65536x1 S1024x1x1 S65536x1024x1 [1] [2] [0] [0, 1] [] []
  scatter_S65536x2048_S1_S65536_0_1_1_0_wf : ScatterDims.WF S65536x2048 S1 S65536 [0] [1] [1] 0

variable [Facts₀]

def dot_S65536x1_S1024x1x1_S65536x1024x1_1_2_0_01_n_n : DotDims S65536x1 S1024x1x1 S65536x1024x1 where
  lhsContracting := [1]
  rhsContracting := [2]
  lhsNonContracting := [0]
  rhsNonContracting := [0, 1]
  lhsBatch := []
  rhsBatch := []
  wf := dot_S65536x1_S1024x1x1_S65536x1024x1_1_2_0_01_n_n_wf
def scatter_S65536x2048_S1_S65536_0_1_1_0 : ScatterDims S65536x2048 S1 S65536 where
  updateWindowDims := [0]
  insertedWindowDims := [1]
  scatterDimsToOperandDims := [1]
  indexVectorDim := 0
  wf := scatter_S65536x2048_S1_S65536_0_1_1_0_wf

class Facts : Prop extends Facts₀ where

variable [Facts]
-- ==== Proof.LibColumnCover.lean ====
/-
  Membership in a rectangle of whole rows: a general fact about unit-stride rectangles of a matrix.

  The rectangle of all `r` rows and the `w` columns from column `o` of an `[r, n]` matrix holds exactly the indices
  whose column lies in `[o, o + w)`; so a list of such rectangles whose column ranges fill `[0, n)` covers the matrix.
  The rectangle is any one with those offsets, sizes and unit strides (given as equations, so that it can be read off a
  store as it stands).
-/
import Idealize.ShloMosaic.Shape
import Idealize.ShloMosaic.Lib.ValueIdx

namespace Cert.ColumnCover

open Idealize.ShloMosaic Idealize.ShloMosaic.ValueIdx

/-- An index whose column lies in `[o, o + w)` is in the rectangle of all rows and those columns. -/
theorem mem_columns {r n o w : ℕ} (R : Rect (⟨2, ![r, n]⟩ : Shape)) (hoff : R.off = ![0, o]) (hsize : R.size = ![r, w])
    (hstride : ∀ a, R.stride a = 1) (y : (⟨2, ![r, n]⟩ : Shape).Idx) (h1 : o ≤ (y 1).val) (h2 : (y 1).val < o + w) :
    y ∈ R.set := by
  refine R.toLoadRect.mem_set.mpr fun a => ?_
  rw [hoff, hsize, hstride a]
  match a with
  | ⟨0, _⟩ =>
    refine ⟨(y 0).val, ?_, ?_⟩
    · show (y 0).val < r; exact idx2_lt0 y
    · show (y 0).val = 0 + 1 * (y 0).val; omega
  | ⟨1, _⟩ =>
    refine ⟨(y 1).val - o, ?_, ?_⟩
    · show (y 1).val - o < w; omega
    · show (y 1).val = o + 1 * ((y 1).val - o); omega

end Cert.ColumnCover
-- ==== Proof.KernelCover.lean ====
/-
  The twelve stores of the kernel body cover its output block.

  The body stores columns 0 and 1, then the column ranges [2, 4), [4, 8), …, [1024, 2048): every column of the
  `[256, 2048]` block lies in exactly one of them, all rows at a time. Stated of the run's list of stores as it stands
  (the stored values are not looked at), for any float instance.
-/
import proofs.«174314_j83193516523595_2_alg».proof.Proof.Gen.Kernel.Frame.RunA
import proofs.«174314_j83193516523595_2_alg».proof.Proof.LibColumnCover

set_option maxRecDepth 16384

noncomputable section

namespace Cert.Kernel.Cover

open Cert.Kernel Cert.Kernel.Gen Idealize.ShloMosaic Idealize.ShloMosaic.TcCoe Idealize.ShloMosaic.ValueIdx Cert.ColumnCover

variable {F : FTy → Type} [FloatOps F]

/-- Every index of the output block is in some store's rectangle: by its column. -/
theorem cover (c : Dev nD) (i : grid0.Coords) (arg1 : Memref sig .tc .vmem S256x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x2048 .f32) (harg4 : arg4.IsWhole)
    (x0 : Vec F S256x1 .f32) (x1 : Vec F S1x1024 .f32) (x2 : Vec F S1x1024 .f32) (y : S256x2048.Idx) :
    ∃ pc ∈ (kernelRun0_A c i arg1 harg1 arg2 harg2 arg3 harg3 arg4 harg4 x0 x1 x2).1, y ∈ pc.1.set := by
  unfold kernelRun0_A
  dsimp only
  have hy : (y 1).val < 2048 := idx2_lt1 y
  by_cases h1024 : 1024 ≤ (y 1).val
  · refine ⟨_, .head _, ?_⟩
    exact mem_columns _ rfl rfl (fun _ => rfl) y h1024 (by omega)
  by_cases h512 : 512 ≤ (y 1).val
  · refine ⟨_, .tail _ (.head _), ?_⟩
    exact mem_columns _ rfl rfl (fun _ => rfl) y h512 (by omega)
  by_cases h256 : 256 ≤ (y 1).val
  · refine ⟨_, .tail _ (.tail _ (.head _)), ?_⟩
    exact mem_columns _ rfl rfl (fun _ => rfl) y h256 (by omega)
  by_cases h128 : 128 ≤ (y 1).val
  · refine ⟨_, .tail _ (.tail _ (.tail _ (.head _))), ?_⟩
    exact mem_columns _ rfl rfl (fun _ => rfl) y h128 (by omega)
  by_cases h64 : 64 ≤ (y 1).val
  · refine ⟨_, .tail _ (.tail _ (.tail _ (.tail _ (.head _)))), ?_⟩
    exact mem_columns _ rfl rfl (fun _ => rfl) y h64 (by omega)
  by_cases h32 : 32 ≤ (y 1).val
  · refine ⟨_, .tail _ (.tail _ (.tail _ (.tail _ (.tail _ (.head _))))), ?_⟩
    exact mem_columns _ rfl rfl (fun _ => rfl) y h32 (by omega)
  by_cases h16 : 16 ≤ (y 1).val
  · refine ⟨_, .tail _ (.tail _ (.tail _ (.tail _ (.tail _ (.tail _ (.head _)))))), ?_⟩
    exact mem_columns _ rfl rfl (fun _ => rfl) y h16 (by omega)
  by_cases h8 : 8 ≤ (y 1).val
  · refine ⟨_, .tail _ (.tail _ (.tail _ (.tail _ (.tail _ (.tail _ (.tail _ (.head _))))))), ?_⟩
    exact mem_columns _ rfl rfl (fun _ => rfl) y h8 (by omega)
  by_cases h4 : 4 ≤ (y 1).val
  · refine ⟨_, .tail _ (.tail _ (.tail _ (.tail _ (.tail _ (.tail _ (.tail _ (.tail _ (.head _)))))))), ?_⟩
    exact mem_columns _ rfl rfl (fun _ => rfl) y h4 (by omega)
  by_cases h2 : 2 ≤ (y 1).val
  · refine ⟨_, .tail _ (.tail _ (.tail _ (.tail _ (.tail _ (.tail _ (.tail _ (.tail _ (.tail _ (.head _))))))))), ?_⟩
    exact mem_columns _ rfl rfl (fun _ => rfl) y h2 (by omega)
  by_cases h1 : 1 ≤ (y 1).val
  · refine ⟨_, .tail _ (.tail _ (.tail _ (.tail _ (.tail _ (.tail _ (.tail _ (.tail _ (.tail _ (.tail _ (.head _)))))))))), ?_⟩
    exact mem_columns _ rfl rfl (fun _ => rfl) y h1 (by omega)
  · refine ⟨_, .tail _ (.tail _ (.tail _ (.tail _ (.tail _ (.tail _ (.tail _ (.tail _ (.tail _ (.tail _ (.tail _ (.head _))))))))))), ?_⟩
    exact mem_columns _ rfl rfl (fun _ => rfl) y (Nat.zero_le _) (by omega)

end Cert.Kernel.Cover

end
-- ==== Proof.KernelIdealCover.lean ====
/-
  The twelve stores of the kernel body cover its output block.

  The body stores columns 0 and 1, then the column ranges [2, 4), [4, 8), …, [1024, 2048): every column of the
  `[256, 2048]` block lies in exactly one of them, all rows at a time. Stated of the run's list of stores as it stands
  (the stored values are not looked at), for any float instance.
-/
import proofs.«174314_j83193516523595_2_alg».proof.Proof.Gen.KernelIdeal.Frame.RunA
import proofs.«174314_j83193516523595_2_alg».proof.Proof.LibColumnCover

set_option maxRecDepth 16384

noncomputable section

namespace Cert.KernelIdeal.Cover

open Cert.KernelIdeal Cert.KernelIdeal.Gen Idealize.ShloMosaic Idealize.ShloMosaic.TcCoe Idealize.ShloMosaic.ValueIdx Cert.ColumnCover

variable {F : FTy → Type} [FloatOps F]

/-- Every index of the output block is in some store's rectangle: by its column. -/
theorem cover (c : Dev nD) (i : grid0.Coords) (arg1 : Memref sig .tc .vmem S256x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x2048 .f32) (harg4 : arg4.IsWhole)
    (x0 : Vec F S256x1 .f32) (x1 : Vec F S1x1024 .f32) (x2 : Vec F S1x1024 .f32) (y : S256x2048.Idx) :
    ∃ pc ∈ (kernelRun0_A c i arg1 harg1 arg2 harg2 arg3 harg3 arg4 harg4 x0 x1 x2).1, y ∈ pc.1.set := by
  unfold kernelRun0_A
  dsimp only
  have hy : (y 1).val < 2048 := idx2_lt1 y
  by_cases h1024 : 1024 ≤ (y 1).val
  · refine ⟨_, .head _, ?_⟩
    exact mem_columns _ rfl rfl (fun _ => rfl) y h1024 (by omega)
  by_cases h512 : 512 ≤ (y 1).val
  · refine ⟨_, .tail _ (.head _), ?_⟩
    exact mem_columns _ rfl rfl (fun _ => rfl) y h512 (by omega)
  by_cases h256 : 256 ≤ (y 1).val
  · refine ⟨_, .tail _ (.tail _ (.head _)), ?_⟩
    exact mem_columns _ rfl rfl (fun _ => rfl) y h256 (by omega)
  by_cases h128 : 128 ≤ (y 1).val
  · refine ⟨_, .tail _ (.tail _ (.tail _ (.head _))), ?_⟩
    exact mem_columns _ rfl rfl (fun _ => rfl) y h128 (by omega)
  by_cases h64 : 64 ≤ (y 1).val
  · refine ⟨_, .tail _ (.tail _ (.tail _ (.tail _ (.head _)))), ?_⟩
    exact mem_columns _ rfl rfl (fun _ => rfl) y h64 (by omega)
  by_cases h32 : 32 ≤ (y 1).val
  · refine ⟨_, .tail _ (.tail _ (.tail _ (.tail _ (.tail _ (.head _))))), ?_⟩
    exact mem_columns _ rfl rfl (fun _ => rfl) y h32 (by omega)
  by_cases h16 : 16 ≤ (y 1).val
  · refine ⟨_, .tail _ (.tail _ (.tail _ (.tail _ (.tail _ (.tail _ (.head _)))))), ?_⟩
    exact mem_columns _ rfl rfl (fun _ => rfl) y h16 (by omega)
  by_cases h8 : 8 ≤ (y 1).val
  · refine ⟨_, .tail _ (.tail _ (.tail _ (.tail _ (.tail _ (.tail _ (.tail _ (.head _))))))), ?_⟩
    exact mem_columns _ rfl rfl (fun _ => rfl) y h8 (by omega)
  by_cases h4 : 4 ≤ (y 1).val
  · refine ⟨_, .tail _ (.tail _ (.tail _ (.tail _ (.tail _ (.tail _ (.tail _ (.tail _ (.head _)))))))), ?_⟩
    exact mem_columns _ rfl rfl (fun _ => rfl) y h4 (by omega)
  by_cases h2 : 2 ≤ (y 1).val
  · refine ⟨_, .tail _ (.tail _ (.tail _ (.tail _ (.tail _ (.tail _ (.tail _ (.tail _ (.tail _ (.head _))))))))), ?_⟩
    exact mem_columns _ rfl rfl (fun _ => rfl) y h2 (by omega)
  by_cases h1 : 1 ≤ (y 1).val
  · refine ⟨_, .tail _ (.tail _ (.tail _ (.tail _ (.tail _ (.tail _ (.tail _ (.tail _ (.tail _ (.tail _ (.head _)))))))))), ?_⟩
    exact mem_columns _ rfl rfl (fun _ => rfl) y h1 (by omega)
  · refine ⟨_, .tail _ (.tail _ (.tail _ (.tail _ (.tail _ (.tail _ (.tail _ (.tail _ (.tail _ (.tail _ (.tail _ (.head _))))))))))), ?_⟩
    exact mem_columns _ rfl rfl (fun _ => rfl) y (Nat.zero_le _) (by omega)

end Cert.KernelIdeal.Cover

end
-- ==== Proof.TreeSpec.lean ====
/-
  The mathematics both programs compute: the mass that reaches each position of a complete binary tree of soft
  decisions, laid out as a heap.

  A tree of depth 10 has 1024 node slots (slot 0 is unused, slot 1 is the root, the children of node `n` are the
  positions `2 n` and `2 n + 1`). On an input `x` node `n` opens its gate `g n = logistic (x * w n + b n)`: the share
  `g n` of the mass that reaches it goes on to its left child and the share `1 - g n` to its right child. The result
  row of an input lists, for every heap position `c < 2048`, the mass that reaches it: `1` at positions 0 and 1, and
  at `c ≥ 2` the mass at its parent `c / 2` times the parent's share for child `c % 2`. Every operation is the exact
  one on the extended reals; no law beyond the recursion itself is used, so nothing here asks the inputs to be finite.
-/
import Idealize.ShloMosaic.PureOps.Ideal
import Idealize.ShloMosaic.Lib.ValueIdx

noncomputable section

namespace Cert.SoftTree

open Idealize.ShloMosaic Idealize.ShloMosaic.ValueIdx

/-- The float pattern of `1.0` denotes the extended real `1`. -/
theorem ofBits_one : Ideal.ofBits .f32 0x3F800000#32 = 1 := by
  simp [Ideal.ofBits, Ideal.ieee, -EReal.coe_mul]; norm_num

/-- The share of a node's mass that goes to its child `s`: the gate `g` to the left child (`s = 0`), `1 - g` to the
    right child. -/
def branch (g : EReal) (s : ℕ) : EReal := if s = 0 then g else 1 - g

/-- The mass reaching heap position `c` when node `n` has gate `gate n`: `1` at positions 0 and 1, and at `c ≥ 2` the
    mass at the parent `c / 2` times the parent's share for child `c % 2`. -/
def reach (gate : ℕ → EReal) (c : ℕ) : EReal :=
  if h : c < 2 then 1 else reach gate (c / 2) * branch (gate (c / 2)) (c % 2)
termination_by c
decreasing_by omega

theorem reach_of_lt {gate : ℕ → EReal} {c : ℕ} (h : c < 2) : reach gate c = 1 := by
  rw [reach, dif_pos h]

theorem reach_of_le {gate : ℕ → EReal} {c : ℕ} (h : 2 ≤ c) :
    reach gate c = reach gate (c / 2) * branch (gate (c / 2)) (c % 2) := by
  rw [reach, dif_neg (by omega)]

/-- Node `n`'s gate on the input `x`, from the nodes' weights and biases. -/
def gate (x : EReal) (w b : ℕ → EReal) (n : ℕ) : EReal := Ideal.logistic (x * w n + b n)

/-- A vector of the 1024 nodes' parameters read at a natural number (`0` past its end, where no position looks). -/
def param (v : Fin 1024 → EReal) (n : ℕ) : EReal := if h : n < 1024 then v ⟨n, h⟩ else 0

theorem param_of_lt (v : Fin 1024 → EReal) {n : ℕ} (h : n < 1024) : param v n = v ⟨n, h⟩ := dif_pos h

/-- THE RESULT, as one function of the three argument arrays: row `r`, position `c` holds the mass reaching position
    `c` on the input `X (r, 0)`. -/
def result (X : (⟨2, ![65536, 1]⟩ : Shape).Idx → EReal) (W : (⟨3, ![1024, 1, 1]⟩ : Shape).Idx → EReal)
    (B : (⟨2, ![1024, 1]⟩ : Shape).Idx → EReal) : (⟨2, ![65536, 2048]⟩ : Shape).Idx → EReal :=
  fun i => reach (gate (X (ix2 (⟨(i 0).val, idx2_lt0 i⟩ : Fin 65536) (0 : Fin 1)))
    (param fun n => W (ix3 n (0 : Fin 1) (0 : Fin 1))) (param fun n => B (ix2 n (0 : Fin 1)))) (i 1).val

/-- The same for one block of 256 rows, from the block of inputs and the two rows of node parameters as a kernel
    body finds them. -/
def blockResult (x : (⟨2, ![256, 1]⟩ : Shape).Idx → EReal) (w b : (⟨2, ![1, 1024]⟩ : Shape).Idx → EReal) :
    (⟨2, ![256, 2048]⟩ : Shape).Idx → EReal :=
  fun i => reach (gate (x (ix2 (⟨(i 0).val, idx2_lt0 i⟩ : Fin 256) (0 : Fin 1)))
    (param fun n => w (ix2 (0 : Fin 1) n)) (param fun n => b (ix2 (0 : Fin 1) n))) (i 1).val

end Cert.SoftTree

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibInterleave.lean ====
/-
  Two arrays interleaved lane by lane, and a soft gate read at an index: general layout lemmas.

  `jnp.stack([A, B], axis = 2).reshape(a, 2 b)` of two `[a, b]` arrays is spelt: each array given a unit axis
  (`[a, b] → [a, b, 1]`), the two joined along that axis (`[a, b, 2]`), and the pairs flattened (`[a, 2 b]`). At
  `(p, q)` the result reads `A (p, q / 2)` when `q` is even and `B (p, q / 2)` when `q` is odd. The sizes are
  variables, with `w = 2 b` a hypothesis, so that one proof serves every width.

  The gate: a column `[a, 1]` times a row `[1, b]` plus a row `[1, b]`, each broadcast to `[a, b]`, under the
  logistic function, read at `(p, q)` at the exact extended reals.
-/
import Idealize.ShloMosaic.PureOps.Ideal
import Idealize.ShloMosaic.Lib.Pipeline.Value
import Idealize.ShloMosaic.Lib.ValueIdx
import Idealize.ShloMosaic.Lib.ValueLayout
import proofs.«174314_j83193516523595_2_alg».proof.Proof.LibRank3Layout
import proofs.«174314_j83193516523595_2_alg».proof.Proof.LibColumnBroadcast

noncomputable section

namespace Cert.Interleave

open Idealize.ShloMosaic Idealize.ShloMosaic.ValueIdx

variable {α : Type}

/-- `[a, b, 2]` viewed `[a, w]` with `w = 2 b`: entry `(p, q)` is entry `(p, q / 2, q % 2)`. -/
theorem shapeCast_pairs_apply {a b w : ℕ} (hw : w = 2 * b) (x : (⟨3, ![a, b, 2]⟩ : Shape).Idx → α)
    (h : (⟨3, ![a, b, 2]⟩ : Shape).ShapeCasts ⟨2, ![a, w]⟩) (p : Fin a) (q : Fin w) (q' : Fin b) (s : Fin 2)
    (hq' : q'.val = q.val / 2) (hs : s.val = q.val % 2) :
    shapeCast ⟨2, ![a, w]⟩ x h (ix2 p q) = x (ix3 p q' s) := by
  refine shapeCast_apply x h _ _ ?_
  rw [Shape.rowMajor_val_two, Shape.rowMajor_val_three]
  show (p.val * b + q'.val) * 2 + s.val = p.val * w + q.val
  have : p.val * w = 2 * (p.val * b) := by subst hw; ring
  omega

/-- Two `[a, b, 1]` arrays joined along the unit axis: entry `(p, q, s)` is the first array's `(p, q, 0)` for `s = 0`
    and the second's for `s = 1`. -/
theorem concatenate_lanes_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ 2) (p : Fin a) (q : Fin b) (s : Fin 2) :
    concatenate ⟨3, ![a, b, 2]⟩ 2 [⟨⟨3, ![a, b, 1]⟩, x₁⟩, ⟨⟨3, ![a, b, 1]⟩, x₂⟩] h (ix3 p q s)
      = if s.val = 0 then x₁ (ix3 p q (0 : Fin 1)) else x₂ (ix3 p q (0 : Fin 1)) := by
  split_ifs with hs
  · refine concatenate_pair_apply_left 2 x₁ x₂ h _ rfl (ix3 p q (0 : Fin 1)) fun d => ?_
    match d with
    | ⟨0, _⟩ => rfl
    | ⟨1, _⟩ => rfl
    | ⟨2, _⟩ => exact hs.symm
  · refine concatenate_pair_apply_right 2 x₁ x₂ h _ rfl rfl (ix3 p q (0 : Fin 1)) (fun d hd => ?_) ?_
    · match d with
      | ⟨0, _⟩ => rfl
      | ⟨1, _⟩ => rfl
      | ⟨2, _⟩ => exact absurd (Fin.ext rfl) hd
    · show 0 + 1 = s.val
      have := s.isLt
      omega

/-- THE INTERLEAVE of two `[a, b]` arrays into `[a, w]`, `w = 2 b`: at `(p, q)` the first array at `(p, q / 2)` for
    even `q`, the second for odd `q`. -/
theorem interleave_apply {a b w : ℕ} (hw : w = 2 * b) (A B : (⟨2, ![a, b]⟩ : Shape).Idx → α)
    (h1 h1' : (⟨2, ![a, b]⟩ : Shape).ShapeCasts ⟨3, ![a, b, 1]⟩)
    (hc : Shape.Concatenates [(⟨3, ![a, b, 1]⟩ : Shape), ⟨3, ![a, b, 1]⟩] ⟨3, ![a, b, 2]⟩ 2)
    (h2 : (⟨3, ![a, b, 2]⟩ : Shape).ShapeCasts ⟨2, ![a, w]⟩) (p : Fin a) (q : Fin w) (q' : Fin b)
    (hq' : q'.val = q.val / 2) :
    shapeCast ⟨2, ![a, w]⟩ (concatenate ⟨3, ![a, b, 2]⟩ 2
        [⟨⟨3, ![a, b, 1]⟩, shapeCast ⟨3, ![a, b, 1]⟩ A h1⟩, ⟨⟨3, ![a, b, 1]⟩, shapeCast ⟨3, ![a, b, 1]⟩ B h1'⟩] hc) h2 (ix2 p q)
      = if q.val % 2 = 0 then A (ix2 p q') else B (ix2 p q') := by
  refine (shapeCast_pairs_apply hw _ h2 p q q' ⟨q.val % 2, Nat.mod_lt _ (by norm_num)⟩ hq' rfl).trans ?_
  refine (concatenate_lanes_apply _ _ hc p q' _).trans ?_
  show (if q.val % 2 = 0 then _ else _) = _
  rw [Cert.LibRank3.shapeCast_keepdim_apply A h1 p q' 0, Cert.LibRank3.shapeCast_keepdim_apply B h1' p q' 0]

/-- THE GATE of a column of inputs against a row of weights and a row of biases, at `(p, q)`: the logistic function of
    input `p` times weight `q` plus bias `q`. -/
theorem gate_apply {a b : ℕ} (x : FVec Ideal ⟨2, ![a, 1]⟩ .f32) (wv bv : FVec Ideal ⟨2, ![1, b]⟩ .f32)
    (hx : (⟨2, ![a, 1]⟩ : Shape).Broadcasts ⟨2, ![a, b]⟩) (hr hr' : (⟨2, ![1, b]⟩ : Shape).Broadcasts ⟨2, ![a, b]⟩)
    (p : Fin a) (q : Fin b) :
    logistic (addf (mulf (broadcastTo ⟨2, ![a, b]⟩ x hx) (broadcastTo ⟨2, ![a, b]⟩ wv hr)) (broadcastTo ⟨2, ![a, b]⟩ bv hr')) (ix2 p q)
      = Ideal.logistic (x (ix2 p (0 : Fin 1)) * wv (ix2 (0 : Fin 1) q) + bv (ix2 (0 : Fin 1) q)) := by
  show Ideal.logistic (broadcastTo ⟨2, ![a, b]⟩ x hx (ix2 p q) * broadcastTo ⟨2, ![a, b]⟩ wv hr (ix2 p q)
    + broadcastTo ⟨2, ![a, b]⟩ bv hr' (ix2 p q)) = _
  rw [Cert.Layout.broadcastTo_a1_ab_apply x hx p q, broadcastTo_1b_ab_apply wv hr p q, broadcastTo_1b_ab_apply bv hr' p q]

end Cert.Interleave

end
-- ==== Proof.TreeLevel.lean ====
/-
  One level of the tree scan, as a kernel body computes it, is the tree recursion one step on.

  A level of `b` nodes (the nodes `b, …, 2 b - 1`) takes the masses `cur` at its nodes, opens the nodes' gates on the
  block's inputs, and writes for each node the pair (mass · gate, mass · (1 - gate)), the pairs side by side: `w = 2 b`
  entries, which are the masses at the heap positions `w, …, 2 w - 1`. Position `w + q` has parent `(w + q) / 2 = b + q / 2`
  and is its child number `(w + q) % 2 = q % 2`, so the level's entry `q` is the recursion's value at `w + q`.
-/
import proofs.«174314_j83193516523595_2_alg».proof.Proof.TreeSpec
import proofs.«174314_j83193516523595_2_alg».proof.Proof.LibInterleave

noncomputable section

namespace Cert.SoftTree

open Idealize.ShloMosaic Idealize.ShloMosaic.ValueIdx

/-- The recursion one step on: if `cur` holds the masses at the positions `b + j` and `g` the gates of those nodes,
    the interleaved products hold the masses at the positions `w + q`, `w = 2 b`. -/
theorem reach_level {b w : ℕ} (hw : w = 2 * b) (hb : 1 ≤ b) (gt : ℕ → EReal) (cur g : Fin b → EReal)
    (hcur : ∀ j : Fin b, cur j = reach gt (b + j.val)) (hg : ∀ j : Fin b, g j = gt (b + j.val))
    (q : Fin w) (q' : Fin b) (hq' : q'.val = q.val / 2) :
    (if q.val % 2 = 0 then cur q' * g q' else cur q' * (1 - g q')) = reach gt (w + q.val) := by
  have hpar : (w + q.val) / 2 = b + q'.val := by omega
  have hchild : (w + q.val) % 2 = q.val % 2 := by omega
  rw [reach_of_le (by omega : 2 ≤ w + q.val), hpar, hchild, ← hcur q', ← hg q']
  unfold branch
  split_ifs <;> rfl

/-- A LEVEL'S PAYLOAD at `(p, q)`: the masses `cur` of the level's nodes, the gates of the block's inputs `x` against
    the level's weights `wl` and biases `bl` (which are the nodes' parameters `wN`, `bN` from node `b` on), the two
    products interleaved — is the mass at position `w + q` on input `p`. -/
theorem payload_level {b w : ℕ} (hw : w = 2 * b) (hb : 1 ≤ b)
    (x : FVec Ideal ⟨2, ![256, 1]⟩ .f32) (wl bl : (⟨2, ![1, b]⟩ : Shape).Idx → Ideal .f32) (wN bN : ℕ → EReal)
    (hwl : ∀ j : Fin b, wl (ix2 (0 : Fin 1) j) = wN (b + j.val)) (hbl : ∀ j : Fin b, bl (ix2 (0 : Fin 1) j) = bN (b + j.val))
    (cur : FVec Ideal ⟨2, ![256, b]⟩ .f32)
    (hcur : ∀ (p : Fin 256) (j : Fin b), cur (ix2 p j) = reach (gate (x (ix2 p (0 : Fin 1))) wN bN) (b + j.val))
    (hs hs' : (⟨2, ![1, b]⟩ : Shape).ShapeCasts ⟨2, ![1, b]⟩)
    (hx : (⟨2, ![256, 1]⟩ : Shape).Broadcasts ⟨2, ![256, b]⟩) (hr hr' : (⟨2, ![1, b]⟩ : Shape).Broadcasts ⟨2, ![256, b]⟩)
    (h1 h1' : (⟨2, ![256, b]⟩ : Shape).ShapeCasts ⟨3, ![256, b, 1]⟩)
    (hc : Shape.Concatenates [(⟨3, ![256, b, 1]⟩ : Shape), ⟨3, ![256, b, 1]⟩] ⟨3, ![256, b, 2]⟩ 2)
    (h2 : (⟨3, ![256, b, 2]⟩ : Shape).ShapeCasts ⟨2, ![256, w]⟩) (p : Fin 256) (q : Fin w) :
    shapeCast ⟨2, ![256, w]⟩ (concatenate ⟨3, ![256, b, 2]⟩ 2
        [⟨⟨3, ![256, b, 1]⟩, shapeCast ⟨3, ![256, b, 1]⟩
          (mulf cur (logistic (addf (mulf (broadcastTo ⟨2, ![256, b]⟩ x hx) (broadcastTo ⟨2, ![256, b]⟩ (shapeCast ⟨2, ![1, b]⟩ wl hs) hr))
            (broadcastTo ⟨2, ![256, b]⟩ (shapeCast ⟨2, ![1, b]⟩ bl hs') hr')))) h1⟩,
         ⟨⟨3, ![256, b, 1]⟩, shapeCast ⟨3, ![256, b, 1]⟩
          (mulf cur (subf (broadcast ⟨2, ![256, b]⟩ (Scalar.ofBits (F := Ideal) .f32 0x3F800000#32))
            (logistic (addf (mulf (broadcastTo ⟨2, ![256, b]⟩ x hx) (broadcastTo ⟨2, ![256, b]⟩ (shapeCast ⟨2, ![1, b]⟩ wl hs) hr))
              (broadcastTo ⟨2, ![256, b]⟩ (shapeCast ⟨2, ![1, b]⟩ bl hs') hr'))))) h1'⟩] hc) h2 (ix2 p q)
      = reach (gate (x (ix2 p (0 : Fin 1))) wN bN) (w + q.val) := by
  have hq' : q.val / 2 < b := by have := q.isLt; omega
  refine (Cert.Interleave.interleave_apply hw _ _ h1 h1' hc h2 p q ⟨q.val / 2, hq'⟩ rfl).trans ?_
  rw [shapeCast_self wl hs, shapeCast_self bl hs']
  have hgate : ∀ j : Fin b, logistic (addf (mulf (broadcastTo ⟨2, ![256, b]⟩ x hx) (broadcastTo ⟨2, ![256, b]⟩ wl hr))
      (broadcastTo ⟨2, ![256, b]⟩ bl hr')) (ix2 p j) = gate (x (ix2 p (0 : Fin 1))) wN bN (b + j.val) := fun j => by
    rw [Cert.Interleave.gate_apply x wl bl hx hr hr' p j, hwl j, hbl j]
    rfl
  have hone : (Scalar.ofBits (F := Ideal) .f32 0x3F800000#32 : EReal) = 1 := ofBits_one
  show (if q.val % 2 = 0 then cur (ix2 p ⟨q.val / 2, hq'⟩) * _ else cur (ix2 p ⟨q.val / 2, hq'⟩) * (_ - _)) = _
  rw [hgate ⟨q.val / 2, hq'⟩, hone]
  exact reach_level hw hb (gate (x (ix2 p (0 : Fin 1))) wN bN) (fun j => cur (ix2 p j)) (fun j => gate (x (ix2 p (0 : Fin 1))) wN bN (b + j.val))
    (fun j => hcur p j) (fun _ => rfl) q ⟨q.val / 2, hq'⟩ rfl

/-- THE ROOT'S PAYLOAD (the level of the one node 1, whose mass is `1`): at `(p, q)`, `q < 2`, the mass at position
    `2 + q`. Here the inputs' column meets a one-entry row, so nothing but the row is broadcast. -/
theorem payload_root (x : FVec Ideal ⟨2, ![256, 1]⟩ .f32) (wl bl : (⟨2, ![1, 1]⟩ : Shape).Idx → Ideal .f32) (wN bN : ℕ → EReal)
    (hwl : wl (ix2 (0 : Fin 1) (0 : Fin 1)) = wN 1) (hbl : bl (ix2 (0 : Fin 1) (0 : Fin 1)) = bN 1)
    (hs hs' : (⟨2, ![1, 1]⟩ : Shape).ShapeCasts ⟨2, ![1, 1]⟩)
    (hr hr' : (⟨2, ![1, 1]⟩ : Shape).Broadcasts ⟨2, ![256, 1]⟩)
    (h1 h1' : (⟨2, ![256, 1]⟩ : Shape).ShapeCasts ⟨3, ![256, 1, 1]⟩)
    (hc : Shape.Concatenates [(⟨3, ![256, 1, 1]⟩ : Shape), ⟨3, ![256, 1, 1]⟩] ⟨3, ![256, 1, 2]⟩ 2)
    (h2 : (⟨3, ![256, 1, 2]⟩ : Shape).ShapeCasts ⟨2, ![256, 2]⟩) (p : Fin 256) (q : Fin 2) :
    shapeCast ⟨2, ![256, 2]⟩ (concatenate ⟨3, ![256, 1, 2]⟩ 2
        [⟨⟨3, ![256, 1, 1]⟩, shapeCast ⟨3, ![256, 1, 1]⟩
          (mulf (broadcast ⟨2, ![256, 1]⟩ (Scalar.ofBits (F := Ideal) .f32 0x3F800000#32))
            (logistic (addf (mulf x (broadcastTo ⟨2, ![256, 1]⟩ (shapeCast ⟨2, ![1, 1]⟩ wl hs) hr))
              (broadcastTo ⟨2, ![256, 1]⟩ (shapeCast ⟨2, ![1, 1]⟩ bl hs') hr')))) h1⟩,
         ⟨⟨3, ![256, 1, 1]⟩, shapeCast ⟨3, ![256, 1, 1]⟩
          (mulf (broadcast ⟨2, ![256, 1]⟩ (Scalar.ofBits (F := Ideal) .f32 0x3F800000#32))
            (subf (broadcast ⟨2, ![256, 1]⟩ (Scalar.ofBits (F := Ideal) .f32 0x3F800000#32))
              (logistic (addf (mulf x (broadcastTo ⟨2, ![256, 1]⟩ (shapeCast ⟨2, ![1, 1]⟩ wl hs) hr))
                (broadcastTo ⟨2, ![256, 1]⟩ (shapeCast ⟨2, ![1, 1]⟩ bl hs') hr'))))) h1'⟩] hc) h2 (ix2 p q)
      = reach (gate (x (ix2 p (0 : Fin 1))) wN bN) (2 + q.val) := by
  have hq' : q.val / 2 < 1 := by have := q.isLt; omega
  refine (Cert.Interleave.interleave_apply (by norm_num : 2 = 2 * 1) _ _ h1 h1' hc h2 p q ⟨q.val / 2, hq'⟩ rfl).trans ?_
  rw [shapeCast_self wl hs, shapeCast_self bl hs']
  have h0 : (⟨q.val / 2, hq'⟩ : Fin 1) = 0 := Subsingleton.elim _ _
  rw [h0]
  have hgate : logistic (addf (mulf x (broadcastTo ⟨2, ![256, 1]⟩ wl hr)) (broadcastTo ⟨2, ![256, 1]⟩ bl hr')) (ix2 p (0 : Fin 1))
      = gate (x (ix2 p (0 : Fin 1))) wN bN 1 := by
    show Ideal.logistic (x (ix2 p (0 : Fin 1)) * broadcastTo ⟨2, ![256, 1]⟩ wl hr (ix2 p (0 : Fin 1))
      + broadcastTo ⟨2, ![256, 1]⟩ bl hr' (ix2 p (0 : Fin 1))) = _
    rw [broadcastTo_1b_ab_apply wl hr p (0 : Fin 1), broadcastTo_1b_ab_apply bl hr' p (0 : Fin 1), hwl, hbl]
    rfl
  have hone : (Scalar.ofBits (F := Ideal) .f32 0x3F800000#32 : EReal) = 1 := ofBits_one
  show (if q.val % 2 = 0 then (Scalar.ofBits (F := Ideal) .f32 0x3F800000#32 : EReal) * _
    else (Scalar.ofBits (F := Ideal) .f32 0x3F800000#32 : EReal) * ((Scalar.ofBits (F := Ideal) .f32 0x3F800000#32 : EReal) - _)) = _
  rw [hgate, hone]
  exact reach_level (b := 1) (w := 2) rfl le_rfl (gate (x (ix2 p (0 : Fin 1))) wN bN) (fun _ => 1) (fun _ => gate (x (ix2 p (0 : Fin 1))) wN bN 1)
    (fun j => by rw [show j.val = 0 from by have := j.isLt; omega]; exact (reach_of_lt (by norm_num)).symm)
    (fun j => by rw [show j.val = 0 from by have := j.isLt; omega]) q 0 (by have := q.isLt; omega)

end Cert.SoftTree

end
-- ==== Proof.KernelLevels.lean ====
/-
  The twelve stores of the kernel body, one by one: each stored value, at `(p, q)`, is the mass the tree recursion
  puts at the store's heap position on input `p`.

  The body stores the constant `1` at positions 0 and 1, and then for the levels of 1, 2, 4, …, 512 nodes the
  interleaved products of the level before (`Cert.SoftTree.payload_root`, `payload_level`): the level of `b` nodes
  is stored at the positions `2 b, …, 4 b - 1`. The level's weights and biases are `b` consecutive entries of the two
  parameter rows, from entry `b` on (`hw…`, `hb…` below: stated of whatever the body loaded, so that these lemmas know
  nothing of where the loads come from). Each lemma takes what the level before holds as its hypothesis.
-/
import proofs.«174314_j83193516523595_2_alg».proof.Proof.Gen.KernelIdeal.Skeleton
import proofs.«174314_j83193516523595_2_alg».proof.Proof.TreeLevel

noncomputable section

namespace Cert.KernelIdeal.Levels

open Cert.KernelIdeal Cert.KernelIdeal.Gen Cert.SoftTree Idealize.ShloMosaic Idealize.ShloMosaic.ValueIdx

variable (x : Vec Ideal S256x1 .f32) (wN bN : ℕ → EReal)

/-- The mass at heap position `c` on the block's input `p`. -/
abbrev mass (p : Fin 256) (c : ℕ) : EReal := reach (gate (x (ix2 p (0 : Fin 1))) wN bN) c

/-- Positions 0 and 1: the constant `1`. -/
theorem ones_apply (p : Fin 256) (q : Fin 1) (c : ℕ) (hc : c < 2) : k0_pay3 (F := Ideal) (ix2 p q) = mass x wN bN p c := by
  show (Scalar.ofBits (F := Ideal) .f32 0x3F800000#32 : EReal) = _
  rw [show (Scalar.ofBits (F := Ideal) .f32 0x3F800000#32 : EReal) = 1 from ofBits_one]
  exact (reach_of_lt hc).symm

/-- The root's level, stored at positions 2 and 3. -/
theorem level1 (v4 v6 : Vec Ideal S1x1 .f32) (hw : v4 (ix2 (0 : Fin 1) (0 : Fin 1)) = wN 1) (hb : v6 (ix2 (0 : Fin 1) (0 : Fin 1)) = bN 1)
    (p : Fin 256) (q : Fin 2) : k0_pay4 x v4 v6 (ix2 p q) = mass x wN bN p (2 + q.val) :=
  payload_root x v4 v6 wN bN hw hb _ _ _ _ _ _ _ _ p q

/-- The level of 2 nodes, stored at positions 4 … 7. -/
theorem level2 (v4 v6 : Vec Ideal S1x1 .f32) (v22 v24 : Vec Ideal S1x2 .f32)
    (hw : ∀ j : Fin 2, v22 (ix2 (0 : Fin 1) j) = wN (2 + j.val)) (hb : ∀ j : Fin 2, v24 (ix2 (0 : Fin 1) j) = bN (2 + j.val))
    (hcur : ∀ (p : Fin 256) (j : Fin 2), k0_pay4 x v4 v6 (ix2 p j) = mass x wN bN p (2 + j.val))
    (p : Fin 256) (q : Fin 4) :
    k0_pay8 (k0_pay6 x v4 v6 v22 v24) (k0_pay7 x v4 v6 v22 v24) (ix2 p q) = mass x wN bN p (4 + q.val) :=
  payload_level (b := 2) (w := 4) rfl (by norm_num) x v22 v24 wN bN hw hb (k0_pay4 x v4 v6) hcur _ _ _ _ _ _ _ _ _ p q

/-- The level of 4 nodes, stored at positions 8 … 15. -/
theorem level4 (v35 : FVec Ideal S256x2 .f32) (v36 : FVec Ideal S256x2x1 .f32) (v41 v43 : Vec Ideal S1x4 .f32)
    (hw : ∀ j : Fin 4, v41 (ix2 (0 : Fin 1) j) = wN (4 + j.val)) (hb : ∀ j : Fin 4, v43 (ix2 (0 : Fin 1) j) = bN (4 + j.val))
    (hcur : ∀ (p : Fin 256) (j : Fin 4), k0_pay8 v35 v36 (ix2 p j) = mass x wN bN p (4 + j.val))
    (p : Fin 256) (q : Fin 8) : k0_pay9 x v35 v36 v41 v43 (ix2 p q) = mass x wN bN p (8 + q.val) :=
  payload_level (b := 4) (w := 8) rfl (by norm_num) x v41 v43 wN bN hw hb (k0_pay8 v35 v36) hcur _ _ _ _ _ _ _ _ _ p q

/-- The level of 8 nodes, stored at positions 16 … 31. -/
theorem level8 (v35 : FVec Ideal S256x2 .f32) (v36 : FVec Ideal S256x2x1 .f32) (v41 v43 : Vec Ideal S1x4 .f32) (v60 v62 : Vec Ideal S1x8 .f32)
    (hw : ∀ j : Fin 8, v60 (ix2 (0 : Fin 1) j) = wN (8 + j.val)) (hb : ∀ j : Fin 8, v62 (ix2 (0 : Fin 1) j) = bN (8 + j.val))
    (hcur : ∀ (p : Fin 256) (j : Fin 8), k0_pay9 x v35 v36 v41 v43 (ix2 p j) = mass x wN bN p (8 + j.val))
    (p : Fin 256) (q : Fin 16) : k0_pay10 x v35 v36 v41 v43 v60 v62 (ix2 p q) = mass x wN bN p (16 + q.val) :=
  payload_level (b := 8) (w := 16) rfl (by norm_num) x v60 v62 wN bN hw hb (k0_pay9 x v35 v36 v41 v43) hcur _ _ _ _ _ _ _ _ _ p q

/-- The level of 16 nodes, stored at positions 32 … 63. -/
theorem level16 (v77 : FVec Ideal S256x16 .f32) (v79 v81 : Vec Ideal S1x16 .f32)
    (hw : ∀ j : Fin 16, v79 (ix2 (0 : Fin 1) j) = wN (16 + j.val)) (hb : ∀ j : Fin 16, v81 (ix2 (0 : Fin 1) j) = bN (16 + j.val))
    (hcur : ∀ (p : Fin 256) (j : Fin 16), v77 (ix2 p j) = mass x wN bN p (16 + j.val))
    (p : Fin 256) (q : Fin 32) : k0_pay11 x v77 v79 v81 (ix2 p q) = mass x wN bN p (32 + q.val) :=
  payload_level (b := 16) (w := 32) rfl (by norm_num) x v79 v81 wN bN hw hb v77 hcur _ _ _ _ _ _ _ _ _ p q

/-- The level of 32 nodes, stored at positions 64 … 127. -/
theorem level32 (v77 : FVec Ideal S256x16 .f32) (v79 v81 : Vec Ideal S1x16 .f32) (v98 v100 : Vec Ideal S1x32 .f32)
    (hw : ∀ j : Fin 32, v98 (ix2 (0 : Fin 1) j) = wN (32 + j.val)) (hb : ∀ j : Fin 32, v100 (ix2 (0 : Fin 1) j) = bN (32 + j.val))
    (hcur : ∀ (p : Fin 256) (j : Fin 32), k0_pay11 x v77 v79 v81 (ix2 p j) = mass x wN bN p (32 + j.val))
    (p : Fin 256) (q : Fin 64) : k0_pay12 x v77 v79 v81 v98 v100 (ix2 p q) = mass x wN bN p (64 + q.val) :=
  payload_level (b := 32) (w := 64) rfl (by norm_num) x v98 v100 wN bN hw hb (k0_pay11 x v77 v79 v81) hcur _ _ _ _ _ _ _ _ _ p q

/-- The level of 64 nodes, stored at positions 128 … 255. -/
theorem level64 (v115 : FVec Ideal S256x64 .f32) (v117 v119 : Vec Ideal S1x64 .f32)
    (hw : ∀ j : Fin 64, v117 (ix2 (0 : Fin 1) j) = wN (64 + j.val)) (hb : ∀ j : Fin 64, v119 (ix2 (0 : Fin 1) j) = bN (64 + j.val))
    (hcur : ∀ (p : Fin 256) (j : Fin 64), v115 (ix2 p j) = mass x wN bN p (64 + j.val))
    (p : Fin 256) (q : Fin 128) : k0_pay14 x v115 (k0_pay13 v117) v119 (ix2 p q) = mass x wN bN p (128 + q.val) :=
  payload_level (b := 64) (w := 128) rfl (by norm_num) x v117 v119 wN bN hw hb v115 hcur _ _ _ _ _ _ _ _ _ p q

/-- The level of 128 nodes, stored at positions 256 … 511. -/
theorem level128 (v115 : FVec Ideal S256x64 .f32) (v118 : FVec Ideal S1x64 .f32) (v119 : Vec Ideal S1x64 .f32) (v136 v138 : Vec Ideal S1x128 .f32)
    (hw : ∀ j : Fin 128, v136 (ix2 (0 : Fin 1) j) = wN (128 + j.val)) (hb : ∀ j : Fin 128, v138 (ix2 (0 : Fin 1) j) = bN (128 + j.val))
    (hcur : ∀ (p : Fin 256) (j : Fin 128), k0_pay14 x v115 v118 v119 (ix2 p j) = mass x wN bN p (128 + j.val))
    (p : Fin 256) (q : Fin 256) : k0_pay15 x v115 v118 v119 v136 v138 (ix2 p q) = mass x wN bN p (256 + q.val) :=
  payload_level (b := 128) (w := 256) rfl (by norm_num) x v136 v138 wN bN hw hb (k0_pay14 x v115 v118 v119) hcur _ _ _ _ _ _ _ _ _ p q

/-- The level of 256 nodes, stored at positions 512 … 1023. -/
theorem level256 (v153 : FVec Ideal S256x256 .f32) (v155 v157 : Vec Ideal S1x256 .f32)
    (hw : ∀ j : Fin 256, v155 (ix2 (0 : Fin 1) j) = wN (256 + j.val)) (hb : ∀ j : Fin 256, v157 (ix2 (0 : Fin 1) j) = bN (256 + j.val))
    (hcur : ∀ (p : Fin 256) (j : Fin 256), v153 (ix2 p j) = mass x wN bN p (256 + j.val))
    (p : Fin 256) (q : Fin 512) : k0_pay1 v153 (k0_pay16 v157) (k0_pay17 x v155) (ix2 p q) = mass x wN bN p (512 + q.val) :=
  payload_level (b := 256) (w := 512) rfl (by norm_num) x v155 v157 wN bN hw hb v153 hcur _ _ _ _ _ _ _ _ _ p q

/-- The level of 512 nodes, stored at positions 1024 … 2047. -/
theorem level512 (v153 : FVec Ideal S256x256 .f32) (v158 : FVec Ideal S1x256 .f32) (v161 : FVec Ideal S256x256 .f32) (v174 v176 : Vec Ideal S1x512 .f32)
    (hw : ∀ j : Fin 512, v174 (ix2 (0 : Fin 1) j) = wN (512 + j.val)) (hb : ∀ j : Fin 512, v176 (ix2 (0 : Fin 1) j) = bN (512 + j.val))
    (hcur : ∀ (p : Fin 256) (j : Fin 512), k0_pay1 v153 v158 v161 (ix2 p j) = mass x wN bN p (512 + j.val))
    (p : Fin 256) (q : Fin 1024) : k0_pay2 x v153 v158 v161 v174 v176 (ix2 p q) = mass x wN bN p (1024 + q.val) :=
  payload_level (b := 512) (w := 1024) rfl (by norm_num) x v174 v176 wN bN hw hb (k0_pay1 v153 v158 v161) hcur _ _ _ _ _ _ _ _ _ p q

end Cert.KernelIdeal.Levels

end
-- ==== Proof.TreeBlock.lean ====
/-
  The block's specification read where a store writes, and a parameter row read where a load reads.

  A store of a `[256, w]` value at column offset `o` of the `[256, 2048]` block puts its entry `(p, q)` at the block's
  entry `(p, o + q)`; the specification there is the mass at heap position `o + q` on input `p`. A load of `b`
  consecutive entries of a `[1, 1024]` parameter row from entry `o` reads, at `j`, the row's entry `o + j`.
-/
import proofs.«174314_j83193516523595_2_alg».proof.Proof.TreeSpec
import Idealize.ShloMosaic.Lib.Pipeline.FrameBody
import Idealize.ShloMosaic.Lib.Pipeline.Value

noncomputable section

namespace Cert.SoftTree

open Idealize.ShloMosaic Idealize.ShloMosaic.ValueIdx

/-- The block's specification at the place a store's rectangle (`[256, w]` at offsets `(0, o)`) puts its entry `(p, q)`. -/
theorem blockResult_emb {w o : ℕ} (x : (⟨2, ![256, 1]⟩ : Shape).Idx → EReal) (wr br : (⟨2, ![1, 1024]⟩ : Shape).Idx → EReal)
    (inb : ∀ a, (![0, o] : Fin 2 → ℕ) a + (![256, w] : Fin 2 → ℕ) a ≤ (⟨2, ![256, 2048]⟩ : Shape).size a)
    (p : Fin 256) (q : Fin w) :
    blockResult x wr br ((Rect.unit (s := ⟨2, ![256, 2048]⟩) ![0, o] ![256, w] inb).emb (ix2 p q))
      = reach (gate (x (ix2 p (0 : Fin 1))) (param fun n => wr (ix2 (0 : Fin 1) n)) (param fun n => br (ix2 (0 : Fin 1) n))) (o + q.val) := by
  unfold blockResult
  have e0 : (⟨(((Rect.unit (s := ⟨2, ![256, 2048]⟩) ![0, o] ![256, w] inb).emb (ix2 p q)) 0).val,
      idx2_lt0 _⟩ : Fin 256) = p := Fin.ext (by show 0 + 1 * p.val = p.val; omega)
  have e1 : (((Rect.unit (s := ⟨2, ![256, 2048]⟩) ![0, o] ![256, w] inb).emb (ix2 p q)) 1).val = o + q.val := by
    show o + 1 * q.val = o + q.val; omega
  rw [e0, e1]

/-- A load of `b` entries of a parameter row from entry `o`, at `j`: the row's entry `o + j`. -/
theorem ld_row {b o : ℕ} (X : (⟨2, ![1, 1024]⟩ : Shape).Idx → EReal)
    (inb : ∀ a, (![0, o] : Fin 2 → ℕ) a + (![1, b] : Fin 2 → ℕ) a ≤ (⟨2, ![1, 1024]⟩ : Shape).size a) (j : Fin b) :
    View.ld (Val := Elt Ideal) (e' := .f32) X (Rect.unit (s := ⟨2, ![1, 1024]⟩) ![0, o] ![1, b] inb) (ix2 (0 : Fin 1) j)
      = param (fun n => X (ix2 (0 : Fin 1) n)) (o + j.val) := by
  have h : o + j.val < 1024 := by
    have h1 := inb 1
    have hj := j.isLt
    change o + b ≤ 1024 at h1
    omega
  rw [param_of_lt _ h]
  show X _ = X _
  refine congrArg X (funext fun a => Fin.ext ?_)
  match a with
  | ⟨0, _⟩ => show 0 + 1 * 0 = 0; rfl
  | ⟨1, _⟩ => show o + 1 * j.val = o + j.val; omega

/-- A column of `n` single entries `[n, 1, 1]` laid out as one row `[1, n]`: entry `(0, k)` is entry `(k, 0, 0)`. -/
theorem shapeCast_col3_row_apply {α : Type} {n : ℕ} (W : (⟨3, ![n, 1, 1]⟩ : Shape).Idx → α)
    (h : (⟨3, ![n, 1, 1]⟩ : Shape).ShapeCasts ⟨2, ![1, n]⟩) (k : Fin n) :
    shapeCast ⟨2, ![1, n]⟩ W h (ix2 (0 : Fin 1) k) = W (ix3 k (0 : Fin 1) (0 : Fin 1)) := by
  refine shapeCast_apply W h _ _ ?_
  rw [Shape.rowMajor_val_three, Shape.rowMajor_val_two]
  show (k.val * 1 + 0) * 1 + 0 = 0 * n + k.val
  omega

/-- A column `[n, 1]` laid out as one row `[1, n]`: entry `(0, k)` is entry `(k, 0)`. -/
theorem shapeCast_col_row_apply {α : Type} {n : ℕ} (B : (⟨2, ![n, 1]⟩ : Shape).Idx → α)
    (h : (⟨2, ![n, 1]⟩ : Shape).ShapeCasts ⟨2, ![1, n]⟩) (k : Fin n) :
    shapeCast ⟨2, ![1, n]⟩ B h (ix2 (0 : Fin 1) k) = B (ix2 k (0 : Fin 1)) := by
  refine shapeCast_apply B h _ _ ?_
  rw [Shape.rowMajor_val_two, Shape.rowMajor_val_two]
  show k.val * 1 + 0 = 0 * n + k.val
  omega

/-- THE BLOCK IS A BLOCK OF THE WHOLE: where the block's inputs are the rows of the whole input column, its two parameter
    rows the nodes' weights and biases, and the position the same, the block's specification is the whole array's. -/
theorem blockResult_eq_result (x : (⟨2, ![256, 1]⟩ : Shape).Idx → EReal) (wr br : (⟨2, ![1, 1024]⟩ : Shape).Idx → EReal)
    (X : (⟨2, ![65536, 1]⟩ : Shape).Idx → EReal) (W : (⟨3, ![1024, 1, 1]⟩ : Shape).Idx → EReal)
    (B : (⟨2, ![1024, 1]⟩ : Shape).Idx → EReal) (j : (⟨2, ![256, 2048]⟩ : Shape).Idx) (i : (⟨2, ![65536, 2048]⟩ : Shape).Idx)
    (hx : x (ix2 (⟨(j 0).val, idx2_lt0 j⟩ : Fin 256) (0 : Fin 1)) = X (ix2 (⟨(i 0).val, idx2_lt0 i⟩ : Fin 65536) (0 : Fin 1)))
    (hw : ∀ n : Fin 1024, wr (ix2 (0 : Fin 1) n) = W (ix3 n (0 : Fin 1) (0 : Fin 1)))
    (hb : ∀ n : Fin 1024, br (ix2 (0 : Fin 1) n) = B (ix2 n (0 : Fin 1))) (hc : (j 1).val = (i 1).val) :
    blockResult x wr br j = result X W B i := by
  unfold blockResult result
  rw [hx, hc, show (fun n : Fin 1024 => wr (ix2 (0 : Fin 1) n)) = fun n => W (ix3 n (0 : Fin 1) (0 : Fin 1)) from funext hw,
    show (fun n : Fin 1024 => br (ix2 (0 : Fin 1) n)) = fun n => B (ix2 n (0 : Fin 1)) from funext hb]

end Cert.SoftTree

end
-- ==== Proof.KernelBlock.lean ====
/-
  What the kernel body leaves in its output block: the tree's masses on the block's inputs.

  The body's run ends with the output block written by twelve stores. Each stored value is, entry by entry, the
  specification `Cert.SoftTree.blockResult` of the three input blocks at the place the store puts the entry: the constant
  `1` at positions 0 and 1, and level after level the masses of the next heap positions (`Cert.KernelIdeal.Levels`),
  each level's weights and biases being the entries of the two parameter rows from the level's first node on
  (`Cert.SoftTree.ld_row`). The stores cover the block, so the block read back is that one function.
-/
import proofs.«174314_j83193516523595_2_alg».proof.Proof.KernelIdealFrame
import proofs.«174314_j83193516523595_2_alg».proof.Proof.KernelLevels
import proofs.«174314_j83193516523595_2_alg».proof.Proof.TreeBlock

set_option maxRecDepth 16384

noncomputable section

namespace Cert.KernelIdeal.Block

open Cert.KernelIdeal Cert.KernelIdeal.Gen Cert.KernelIdeal.GenP Cert.KernelIdeal.Levels Cert.SoftTree
open Idealize.ShloMosaic Idealize.ShloMosaic.TcCoe Idealize.ShloMosaic.Tactic Idealize.ShloMosaic.ValueIdx

/-- The zero offsets of a load of a whole block, as the function the library's lemma asks for. -/
theorem hz : (![0, 0] : Fin 2 → Nat) = fun _ => 0 := funext fun a => by fin_cases a <;> rfl

/-- EVERY STORE of the body's run holds the block's specification at the place it writes. -/
theorem pieces_spec (c : Dev nD) (i : grid0.Coords) (arg1 : Memref sig .tc .vmem S256x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x2048 .f32) (harg4 : arg4.IsWhole)
    (x0 : Vec Ideal S256x1 .f32) (x1 : Vec Ideal S1x1024 .f32) (x2 : Vec Ideal S1x1024 .f32) :
    ∀ pc ∈ (kernelRun0_A (F := Ideal) c i arg1 harg1 arg2 harg2 arg3 harg3 arg4 harg4 x0 x1 x2).1,
      ∀ y : pc.1.shape.Idx, pc.2 y = blockResult x0 x1 x2 (pc.1.emb y) := by
  unfold kernelRun0_A
  dsimp only
  sl_unfold_words
  simp only [View.readAt_eq_ld, harg1.read_unread, harg2.read_unread, harg3.read_unread, View.ld_unit_zero (S := S256x1) hz]
  -- the ten levels, each from the one before: the level of `b` nodes reads the parameter rows from entry `b` on
  have h1 := level1 x0 (param fun n => x1 (ix2 (0 : Fin 1) n)) (param fun n => x2 (ix2 (0 : Fin 1) n)) (View.ld x1 (Rect.unit ![0, 1] ![1, 1] inb_S1x1024_S1x1_0_1)) (View.ld x2 (Rect.unit ![0, 1] ![1, 1] inb_S1x1024_S1x1_0_1))
    (ld_row x1 inb_S1x1024_S1x1_0_1 0) (ld_row x2 inb_S1x1024_S1x1_0_1 0)
  have h2 := level2 x0 _ _ _ _ (View.ld x1 (Rect.unit ![0, 2] ![1, 2] inb_S1x1024_S1x2_0_2)) (View.ld x2 (Rect.unit ![0, 2] ![1, 2] inb_S1x1024_S1x2_0_2)) (fun j => ld_row x1 inb_S1x1024_S1x2_0_2 j) (fun j => ld_row x2 inb_S1x1024_S1x2_0_2 j) h1
  have h4 := level4 x0 _ _ _ _ (View.ld x1 (Rect.unit ![0, 4] ![1, 4] inb_S1x1024_S1x4_0_4)) (View.ld x2 (Rect.unit ![0, 4] ![1, 4] inb_S1x1024_S1x4_0_4)) (fun j => ld_row x1 inb_S1x1024_S1x4_0_4 j) (fun j => ld_row x2 inb_S1x1024_S1x4_0_4 j) h2
  have h8 := level8 x0 _ _ _ _ _ _ (View.ld x1 (Rect.unit ![0, 8] ![1, 8] inb_S1x1024_S1x8_0_8)) (View.ld x2 (Rect.unit ![0, 8] ![1, 8] inb_S1x1024_S1x8_0_8)) (fun j => ld_row x1 inb_S1x1024_S1x8_0_8 j) (fun j => ld_row x2 inb_S1x1024_S1x8_0_8 j) h4
  have h16 := level16 x0 _ _ _ (View.ld x1 (Rect.unit ![0, 16] ![1, 16] inb_S1x1024_S1x16_0_16)) (View.ld x2 (Rect.unit ![0, 16] ![1, 16] inb_S1x1024_S1x16_0_16)) (fun j => ld_row x1 inb_S1x1024_S1x16_0_16 j) (fun j => ld_row x2 inb_S1x1024_S1x16_0_16 j) h8
  have h32 := level32 x0 _ _ _ _ _ (View.ld x1 (Rect.unit ![0, 32] ![1, 32] inb_S1x1024_S1x32_0_32)) (View.ld x2 (Rect.unit ![0, 32] ![1, 32] inb_S1x1024_S1x32_0_32)) (fun j => ld_row x1 inb_S1x1024_S1x32_0_32 j) (fun j => ld_row x2 inb_S1x1024_S1x32_0_32 j) h16
  have h64 := level64 x0 _ _ _ (View.ld x1 (Rect.unit ![0, 64] ![1, 64] inb_S1x1024_S1x64_0_64)) (View.ld x2 (Rect.unit ![0, 64] ![1, 64] inb_S1x1024_S1x64_0_64)) (fun j => ld_row x1 inb_S1x1024_S1x64_0_64 j) (fun j => ld_row x2 inb_S1x1024_S1x64_0_64 j) h32
  have h128 := level128 x0 _ _ _ _ _ (View.ld x1 (Rect.unit ![0, 128] ![1, 128] inb_S1x1024_S1x128_0_128)) (View.ld x2 (Rect.unit ![0, 128] ![1, 128] inb_S1x1024_S1x128_0_128)) (fun j => ld_row x1 inb_S1x1024_S1x128_0_128 j) (fun j => ld_row x2 inb_S1x1024_S1x128_0_128 j) h64
  have h256 := level256 x0 _ _ _ (View.ld x1 (Rect.unit ![0, 256] ![1, 256] inb_S1x1024_S1x256_0_256)) (View.ld x2 (Rect.unit ![0, 256] ![1, 256] inb_S1x1024_S1x256_0_256)) (fun j => ld_row x1 inb_S1x1024_S1x256_0_256 j) (fun j => ld_row x2 inb_S1x1024_S1x256_0_256 j) h128
  have h512 := level512 x0 _ _ _ _ _ (View.ld x1 (Rect.unit ![0, 512] ![1, 512] inb_S1x1024_S1x512_0_512)) (View.ld x2 (Rect.unit ![0, 512] ![1, 512] inb_S1x1024_S1x512_0_512)) (fun j => ld_row x1 inb_S1x1024_S1x512_0_512 j) (fun j => ld_row x2 inb_S1x1024_S1x512_0_512 j) h256
  intro pc hpc
  simp only [List.mem_cons, List.not_mem_nil, or_false] at hpc
  rcases hpc with rfl | rfl | rfl | rfl | rfl | rfl | rfl | rfl | rfl | rfl | rfl | rfl
  · intro y
    obtain ⟨p, q, rfl⟩ : ∃ (p : Fin 256) (q : Fin 1024), y = ix2 p q := ⟨y 0, y 1, eq_ix2 y⟩
    exact (h512 p q).trans (blockResult_emb x0 x1 x2 inb_S256x2048_S256x1024_0_1024 p q).symm
  · intro y
    obtain ⟨p, q, rfl⟩ : ∃ (p : Fin 256) (q : Fin 512), y = ix2 p q := ⟨y 0, y 1, eq_ix2 y⟩
    exact (h256 p q).trans (blockResult_emb x0 x1 x2 inb_S256x2048_S256x512_0_512 p q).symm
  · intro y
    obtain ⟨p, q, rfl⟩ : ∃ (p : Fin 256) (q : Fin 256), y = ix2 p q := ⟨y 0, y 1, eq_ix2 y⟩
    exact (h128 p q).trans (blockResult_emb x0 x1 x2 inb_S256x2048_S256x256_0_256 p q).symm
  · intro y
    obtain ⟨p, q, rfl⟩ : ∃ (p : Fin 256) (q : Fin 128), y = ix2 p q := ⟨y 0, y 1, eq_ix2 y⟩
    exact (h64 p q).trans (blockResult_emb x0 x1 x2 inb_S256x2048_S256x128_0_128 p q).symm
  · intro y
    obtain ⟨p, q, rfl⟩ : ∃ (p : Fin 256) (q : Fin 64), y = ix2 p q := ⟨y 0, y 1, eq_ix2 y⟩
    exact (h32 p q).trans (blockResult_emb x0 x1 x2 inb_S256x2048_S256x64_0_64 p q).symm
  · intro y
    obtain ⟨p, q, rfl⟩ : ∃ (p : Fin 256) (q : Fin 32), y = ix2 p q := ⟨y 0, y 1, eq_ix2 y⟩
    exact (h16 p q).trans (blockResult_emb x0 x1 x2 inb_S256x2048_S256x32_0_32 p q).symm
  · intro y
    obtain ⟨p, q, rfl⟩ : ∃ (p : Fin 256) (q : Fin 16), y = ix2 p q := ⟨y 0, y 1, eq_ix2 y⟩
    exact (h8 p q).trans (blockResult_emb x0 x1 x2 inb_S256x2048_S256x16_0_16 p q).symm
  · intro y
    obtain ⟨p, q, rfl⟩ : ∃ (p : Fin 256) (q : Fin 8), y = ix2 p q := ⟨y 0, y 1, eq_ix2 y⟩
    exact (h4 p q).trans (blockResult_emb x0 x1 x2 inb_S256x2048_S256x8_0_8 p q).symm
  · intro y
    obtain ⟨p, q, rfl⟩ : ∃ (p : Fin 256) (q : Fin 4), y = ix2 p q := ⟨y 0, y 1, eq_ix2 y⟩
    exact (h2 p q).trans (blockResult_emb x0 x1 x2 inb_S256x2048_S256x4_0_4 p q).symm
  · intro y
    obtain ⟨p, q, rfl⟩ : ∃ (p : Fin 256) (q : Fin 2), y = ix2 p q := ⟨y 0, y 1, eq_ix2 y⟩
    exact (h1 p q).trans (blockResult_emb x0 x1 x2 inb_S256x2048_S256x2_0_2 p q).symm
  · intro y
    obtain ⟨p, q, rfl⟩ : ∃ (p : Fin 256) (q : Fin 1), y = ix2 p q := ⟨y 0, y 1, eq_ix2 y⟩
    exact (ones_apply x0 _ _ p q (1 + q.val) (by have := q.isLt; omega)).trans (blockResult_emb x0 x1 x2 inb_S256x2048_S256x1_0_1 p q).symm
  · intro y
    obtain ⟨p, q, rfl⟩ : ∃ (p : Fin 256) (q : Fin 1), y = ix2 p q := ⟨y 0, y 1, eq_ix2 y⟩
    exact (ones_apply x0 _ _ p q (0 + q.val) (by have := q.isLt; omega)).trans (blockResult_emb x0 x1 x2 inb_S256x2048_S256x1_0_0 p q).symm

/-- THE BLOCK the body leaves is the specification of its three input blocks. -/
theorem out_eq (c : Dev nD) (i : grid0.Coords) (arg1 : Memref sig .tc .vmem S256x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x2048 .f32) (harg4 : arg4.IsWhole)
    (x0 : Vec Ideal S256x1 .f32) (x1 : Vec Ideal S1x1024 .f32) (x2 : Vec Ideal S1x1024 .f32) :
    out0_A_3 (F := Ideal) c i arg1 harg1 arg2 harg2 arg3 harg3 arg4 harg4 x0 x1 x2 = blockResult x0 x1 x2 := by
  unfold out0_A_3
  rw [View.read_writes_eq_canon _ _ _ (cover0_A_3 c i arg1 harg1 arg2 harg2 arg3 harg3 arg4 harg4 x0 x1 x2)]
  funext y
  exact View.canon_apply_of_pieces (blockResult x0 x1 x2) _ (pieces_spec c i arg1 harg1 arg2 harg2 arg3 harg3 arg4 harg4 x0 x1 x2) y (cover0_A_3 c i arg1 harg1 arg2 harg2 arg3 harg3 arg4 harg4 x0 x1 x2 y)

end Cert.KernelIdeal.Block

end
-- ==== Proof.KernelValue.lean ====
/-
  The kernel's result array after the run: the tree's masses of every input row, as one function of the three
  argument arrays.

  Grid point `t` stages rows `256 t … 256 t + 255` of the input column and the whole of the two parameter rows (the
  nodes' weights and biases, laid out as rows `[1, 1024]` by the two reshapes before the call), and writes back block
  `t` of the result: 256 rows, all 2048 positions. What it writes is the block's specification of what it staged
  (`Cert.KernelIdeal.Block.out_eq`), which is the whole array's specification `Cert.SoftTree.result` read through the
  block; the 256 blocks tile the array, so the array ends holding that function.
-/
import proofs.«174314_j83193516523595_2_alg».proof.Proof.KernelBlock
import Idealize.ShloMosaic.Lib.StableHlo.Run

set_option maxRecDepth 16384

noncomputable section

namespace Cert.KernelIdeal.Whole

open Cert.KernelIdeal Cert.KernelIdeal.Gen Cert.KernelIdeal.GenP Cert.SoftTree
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps, decided over the 256 grid points: the input column's and the result's block index is the
    point's number on the rows, the parameter rows are always block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The weights' row as the call finds it: the weights' array reshaped. -/
theorem V_weights (c : Dev nD) : (V m c main_v0 : S1x1024.Idx → EReal)
    = shapeCast S1x1024 (m ((c : Thread nD τ).loc main_arg1)) shapeCasts_S1024x1x1_S1x1024 := by
  dsimp only [Gen.V, Gen.hostOps0]; after_results; rfl

/-- The biases' row as the call finds it: the biases' array reshaped. -/
theorem V_biases (c : Dev nD) : (V m c main_v1 : S1x1024.Idx → EReal)
    = shapeCast S1x1024 (m ((c : Thread nD τ).loc main_arg2)) shapeCasts_S1024x1_S1x1024 := by
  dsimp only [Gen.V, Gen.hostOps0]; after_results; rfl

/-- WHAT POINT `t` WRITES BACK is block `t` of the specification of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold outsAt0
  rw [Block.out_eq]
  obtain ⟨e00, e01, e10, e11, e20, e21, e30, e31⟩ := idx_facts t
  funext j
  show blockResult (iblk m c 0 t) (iblk m c 1 t) (iblk m c 2 t) j
    = result (m ((c : Thread nD τ).loc main_arg0)) (m ((c : Thread nD τ).loc main_arg1)) (m ((c : Thread nD τ).loc main_arg2))
        (((cfg0.win 3).blk t).view.emb j)
  refine blockResult_eq_result (iblk m c 0 t) (iblk m c 1 t) (iblk m c 2 t) (m ((c : Thread nD τ).loc main_arg0))
    (m ((c : Thread nD τ).loc main_arg1)) (m ((c : Thread nD τ).loc main_arg2)) j (((cfg0.win 3).blk t).view.emb j) ?_ ?_ ?_ ?_
  · show V m c main_arg0 (((cfg0.win 0).blk t).view.emb (ix2 (⟨(j 0).val, idx2_lt0 j⟩ : Fin 256) (0 : Fin 1))) = _
    rw [V_main_arg0]
    refine congrArg _ (funext fun a => Fin.ext ?_)
    match a with
    | ⟨0, _⟩ =>
      show win0_0.index t (0 : Fin 2) * 256 + 1 * (j 0).val = win0_3.index t (0 : Fin 2) * 256 + 1 * (j 0).val
      omega
    | ⟨1, _⟩ =>
      show win0_0.index t (1 : Fin 2) * 1 + 1 * 0 = 0
      omega
  · intro n
    show V m c main_v0 (((cfg0.win 1).blk t).view.emb (ix2 (0 : Fin 1) n)) = _
    have e : ((cfg0.win 1).blk t).view.emb (ix2 (0 : Fin 1) n) = ix2 (0 : Fin 1) n := by
      funext a; apply Fin.ext
      match a with
      | ⟨0, _⟩ => show win0_1.index t (0 : Fin 2) * 1 + 1 * 0 = 0; omega
      | ⟨1, _⟩ => show win0_1.index t (1 : Fin 2) * 1024 + 1 * n.val = n.val; omega
    rw [e, V_weights]
    exact shapeCast_col3_row_apply _ _ n
  · intro n
    show V m c main_v1 (((cfg0.win 2).blk t).view.emb (ix2 (0 : Fin 1) n)) = _
    have e : ((cfg0.win 2).blk t).view.emb (ix2 (0 : Fin 1) n) = ix2 (0 : Fin 1) n := by
      funext a; apply Fin.ext
      match a with
      | ⟨0, _⟩ => show win0_2.index t (0 : Fin 2) * 1 + 1 * 0 = 0; omega
      | ⟨1, _⟩ => show win0_2.index t (1 : Fin 2) * 1024 + 1 * n.val = n.val; omega
    rw [e, V_biases]
    exact shapeCast_col_row_apply _ _ n
  · show (j 1).val = win0_3.index t (1 : Fin 2) * 2048 + 1 * (j 1).val
    omega

/-- An index of the result array is in point `t`'s block iff each coordinate is in the block's range on its axis. -/
theorem mem_blk (t : Fin cfg0.N) (i : S65536x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v2).slice (win0_3.rect t)).set ↔ _
  rw [View.set_slice_whole, Rect.mem_set_unit]
  exact Iff.rfl

/-- The 256 blocks tile the result array: row `r` is in the block of point `r / 256`. -/
theorem cover (i : S65536x2048.Idx) :
    ∃ t : Fin cfg0.N, (cfg0.win 3).flush t = true ∧ i ∈ ((cfg0.win 3).blk t).view.set := by
  have hN : grid0.N = 256 := N_0
  have hi0 : (i 0).val < 65536 := idx2_lt0 i
  have hi1 : (i 1).val < 2048 := idx2_lt1 i
  let t : Fin cfg0.N := ⟨(i 0).val / 256, by show (i 0).val / 256 < grid0.N; omega⟩
  obtain ⟨-, -, -, -, -, -, e30, e31⟩ := idx_facts t
  have e30' : win0_3.index t (0 : Fin 2) = (i 0).val / 256 := e30
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 2048 ≤ (i 1).val ∧ (i 1).val < win0_3.index t (1 : Fin 2) * 2048 + 2048
    omega

/-- THE RESULT ARRAY after the run is the specification of the argument arrays. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) cover

/-- THE RUN, re-posted: the result array at the specification, the three arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Whole

end
-- ==== Proof.RefRun.lean ====
/-
  The reference program's straight line of host operations folded a segment at a time.

  The contents after the whole line are the fold of the operations' results over the launch contents. Folding all
  ninety-three at once builds the result's term fully expanded — every level of the tree written out over the level
  before, ten doublings deep. Here the line is cut where the tree's levels begin: after each segment only a few buffers
  matter (the decision array, the current row, the three arguments), and each is named by a short term of the
  arguments. A segment's seven operations are folded over ARBITRARY contents `W` at those buffers; the facts about `W`
  then turn the result into the next named array. The result buffer's term comes out over the named arrays, never
  expanded.
-/
import proofs.«174314_j83193516523595_2_alg».proof.Proof.RefRunBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The line cut into segments

The first eighteen operations compute the gate and decision arrays and the starting row; then each level of the tree
is seven operations (the slice of the row, its two broadcasts, the slice of the decision array, the product, the
reshape, the concatenation); the last five write ones into column 0. -/

/-- Segment `pre` of the line. -/
abbrev pre : List (HloOp τ sig (Elt F)) :=
  [ binary main_arg0 main_arg1 main_v0 ((fun l r => Host.dotGeneral dot_S65536x1_S1024x1x1_S65536x1024x1_1_2_0_01_n_n none l r) : (⟨S65536x1, .f32⟩ : BufTy).Contents (Elt F) → (⟨S1024x1x1, .f32⟩ : BufTy).Contents (Elt F) → (⟨S65536x1024x1, .f32⟩ : BufTy).Contents (Elt F)),
    unary main_arg2 main_v1 (broadcastInDim S1x1024x1 ![1, 2] bcast_S1024x1_S1x1024x1_1_2 : (⟨S1024x1, .f32⟩ : BufTy).Contents (Elt F) → (⟨S1x1024x1, .f32⟩ : BufTy).Contents (Elt F)),
    unary main_v1 main_v2 (broadcastInDim S65536x1024x1 ![0, 1, 2] bcast_S1x1024x1_S65536x1024x1_0_1_2 : (⟨S1x1024x1, .f32⟩ : BufTy).Contents (Elt F) → (⟨S65536x1024x1, .f32⟩ : BufTy).Contents (Elt F)),
    binary main_v0 main_v2 main_v3 (addf : (⟨S65536x1024x1, .f32⟩ : BufTy).Contents (Elt F) → (⟨S65536x1024x1, .f32⟩ : BufTy).Contents (Elt F) → (⟨S65536x1024x1, .f32⟩ : BufTy).Contents (Elt F)),
    unary main_v3 main_v4 (Host.negf : (⟨S65536x1024x1, .f32⟩ : BufTy).Contents (Elt F) → (⟨S65536x1024x1, .f32⟩ : BufTy).Contents (Elt F)),
    unary main_v4 main_v5 (Host.exp : (⟨S65536x1024x1, .f32⟩ : BufTy).Contents (Elt F) → (⟨S65536x1024x1, .f32⟩ : BufTy).Contents (Elt F)),
    nullary main_cst (constant S_ .f32 0x3F800000#32),
    unary main_cst main_v6 (broadcastInDim S65536x1024x1 ![] bcast_S_S65536x1024x1 : (⟨S_, .f32⟩ : BufTy).Contents (Elt F) → (⟨S65536x1024x1, .f32⟩ : BufTy).Contents (Elt F)),
    binary main_v6 main_v5 main_v7 (addf : (⟨S65536x1024x1, .f32⟩ : BufTy).Contents (Elt F) → (⟨S65536x1024x1, .f32⟩ : BufTy).Contents (Elt F) → (⟨S65536x1024x1, .f32⟩ : BufTy).Contents (Elt F)),
    nullary main_cst_0 (constant S_ .f32 0x3F800000#32),
    unary main_cst_0 main_v8 (broadcastInDim S65536x1024x1 ![] bcast_S_S65536x1024x1 : (⟨S_, .f32⟩ : BufTy).Contents (Elt F) → (⟨S65536x1024x1, .f32⟩ : BufTy).Contents (Elt F)),
    binary main_v8 main_v7 main_v9 (Host.divf : (⟨S65536x1024x1, .f32⟩ : BufTy).Contents (Elt F) → (⟨S65536x1024x1, .f32⟩ : BufTy).Contents (Elt F) → (⟨S65536x1024x1, .f32⟩ : BufTy).Contents (Elt F)),
    nullary main_cst_1 (constant S_ .f32 0x3F800000#32),
    unary main_cst_1 main_v10 (broadcastInDim S65536x1024x1 ![] bcast_S_S65536x1024x1 : (⟨S_, .f32⟩ : BufTy).Contents (Elt F) → (⟨S65536x1024x1, .f32⟩ : BufTy).Contents (Elt F)),
    binary main_v10 main_v9 main_v11 (subf : (⟨S65536x1024x1, .f32⟩ : BufTy).Contents (Elt F) → (⟨S65536x1024x1, .f32⟩ : BufTy).Contents (Elt F) → (⟨S65536x1024x1, .f32⟩ : BufTy).Contents (Elt F)),
    binary main_v9 main_v11 main_v12 ((fun a b => concatenate S65536x1024x2 2 [⟨S65536x1024x1, a⟩, ⟨S65536x1024x1, b⟩] concatenates_S65536x1024x1_S65536x1024x1_S65536x1024x2_d2) : (⟨S65536x1024x1, .f32⟩ : BufTy).Contents (Elt F) → (⟨S65536x1024x1, .f32⟩ : BufTy).Contents (Elt F) → (⟨S65536x1024x2, .f32⟩ : BufTy).Contents (Elt F)),
    nullary main_cst_2 (constant S_ .f32 0x3F800000#32),
    unary main_cst_2 main_v13 (broadcastInDim S65536x2 ![] bcast_S_S65536x2 : (⟨S_, .f32⟩ : BufTy).Contents (Elt F) → (⟨S65536x2, .f32⟩ : BufTy).Contents (Elt F)) ]

/-- Segment `lvl1` of the line. -/
abbrev lvl1 : List (HloOp τ sig (Elt F)) :=
  [ unary main_v13 main_v14 ((extractStridedSlice S65536x1 ![0, 1] · slices_S65536x2_S65536x1_0_1) : (⟨S65536x2, .f32⟩ : BufTy).Contents (Elt F) → (⟨S65536x1, .f32⟩ : BufTy).Contents (Elt F)),
    unary main_v14 main_v15 (broadcastInDim S65536x1x1 ![0, 1] bcast_S65536x1_S65536x1x1_0_1 : (⟨S65536x1, .f32⟩ : BufTy).Contents (Elt F) → (⟨S65536x1x1, .f32⟩ : BufTy).Contents (Elt F)),
    unary main_v12 main_v16 ((extractStridedSlice S65536x1x2 ![0, 1, 0] · slices_S65536x1024x2_S65536x1x2_0_1_0) : (⟨S65536x1024x2, .f32⟩ : BufTy).Contents (Elt F) → (⟨S65536x1x2, .f32⟩ : BufTy).Contents (Elt F)),
    unary main_v15 main_v17 (broadcastInDim S65536x1x2 ![0, 1, 2] bcast_S65536x1x1_S65536x1x2_0_1_2 : (⟨S65536x1x1, .f32⟩ : BufTy).Contents (Elt F) → (⟨S65536x1x2, .f32⟩ : BufTy).Contents (Elt F)),
    binary main_v17 main_v16 main_v18 (mulf : (⟨S65536x1x2, .f32⟩ : BufTy).Contents (Elt F) → (⟨S65536x1x2, .f32⟩ : BufTy).Contents (Elt F) → (⟨S65536x1x2, .f32⟩ : BufTy).Contents (Elt F)),
    reshape main_v18 main_v19 rfl shapeCasts_S65536x1x2_S65536x2,
    binary main_v13 main_v19 main_v20 ((fun a b => concatenate S65536x4 1 [⟨S65536x2, a⟩, ⟨S65536x2, b⟩] concatenates_S65536x2_S65536x2_S65536x4_d1) : (⟨S65536x2, .f32⟩ : BufTy).Contents (Elt F) → (⟨S65536x2, .f32⟩ : BufTy).Contents (Elt F) → (⟨S65536x4, .f32⟩ : BufTy).Contents (Elt F)) ]

/-- Segment `lvl2` of the line. -/
abbrev lvl2 : List (HloOp τ sig (Elt F)) :=
  [ unary main_v20 main_v21 ((extractStridedSlice S65536x2 ![0, 2] · slices_S65536x4_S65536x2_0_2) : (⟨S65536x4, .f32⟩ : BufTy).Contents (Elt F) → (⟨S65536x2, .f32⟩ : BufTy).Contents (Elt F)),
    unary main_v21 main_v22 (broadcastInDim S65536x2x1 ![0, 1] bcast_S65536x2_S65536x2x1_0_1 : (⟨S65536x2, .f32⟩ : BufTy).Contents (Elt F) → (⟨S65536x2x1, .f32⟩ : BufTy).Contents (Elt F)),
    unary main_v12 main_v23 ((extractStridedSlice S65536x2x2 ![0, 2, 0] · slices_S65536x1024x2_S65536x2x2_0_2_0) : (⟨S65536x1024x2, .f32⟩ : BufTy).Contents (Elt F) → (⟨S65536x2x2, .f32⟩ : BufTy).Contents (Elt F)),
    unary main_v22 main_v24 (broadcastInDim S65536x2x2 ![0, 1, 2] bcast_S65536x2x1_S65536x2x2_0_1_2 : (⟨S65536x2x1, .f32⟩ : BufTy).Contents (Elt F) → (⟨S65536x2x2, .f32⟩ : BufTy).Contents (Elt F)),
    binary main_v24 main_v23 main_v25 (mulf : (⟨S65536x2x2, .f32⟩ : BufTy).Contents (Elt F) → (⟨S65536x2x2, .f32⟩ : BufTy).Contents (Elt F) → (⟨S65536x2x2, .f32⟩ : BufTy).Contents (Elt F)),
    reshape main_v25 main_v26 rfl shapeCasts_S65536x2x2_S65536x4,
    binary main_v20 main_v26 main_v27 ((fun a b => concatenate S65536x8 1 [⟨S65536x4, a⟩, ⟨S65536x4, b⟩] concatenates_S65536x4_S65536x4_S65536x8_d1) : (⟨S65536x4, .f32⟩ : BufTy).Contents (Elt F) → (⟨S65536x4, .f32⟩ : BufTy).Contents (Elt F) → (⟨S65536x8, .f32⟩ : BufTy).Contents (Elt F)) ]

/-- Segment `lvl3` of the line. -/
abbrev lvl3 : List (HloOp τ sig (Elt F)) :=
  [ unary main_v27 main_v28 ((extractStridedSlice S65536x4 ![0, 4] · slices_S65536x8_S65536x4_0_4) : (⟨S65536x8, .f32⟩ : BufTy).Contents (Elt F) → (⟨S65536x4, .f32⟩ : BufTy).Contents (Elt F)),
    unary main_v28 main_v29 (broadcastInDim S65536x4x1 ![0, 1] bcast_S65536x4_S65536x4x1_0_1 : (⟨S65536x4, .f32⟩ : BufTy).Contents (Elt F) → (⟨S65536x4x1, .f32⟩ : BufTy).Contents (Elt F)),
    unary main_v12 main_v30 ((extractStridedSlice S65536x4x2 ![0, 4, 0] · slices_S65536x1024x2_S65536x4x2_0_4_0) : (⟨S65536x1024x2, .f32⟩ : BufTy).Contents (Elt F) → (⟨S65536x4x2, .f32⟩ : BufTy).Contents (Elt F)),
    unary main_v29 main_v31 (broadcastInDim S65536x4x2 ![0, 1, 2] bcast_S65536x4x1_S65536x4x2_0_1_2 : (⟨S65536x4x1, .f32⟩ : BufTy).Contents (Elt F) → (⟨S65536x4x2, .f32⟩ : BufTy).Contents (Elt F)),
    binary main_v31 main_v30 main_v32 (mulf : (⟨S65536x4x2, .f32⟩ : BufTy).Contents (Elt F) → (⟨S65536x4x2, .f32⟩ : BufTy).Contents (Elt F) → (⟨S65536x4x2, .f32⟩ : BufTy).Contents (Elt F)),
    reshape main_v32 main_v33 rfl shapeCasts_S65536x4x2_S65536x8,
    binary main_v27 main_v33 main_v34 ((fun a b => concatenate S65536x16 1 [⟨S65536x8, a⟩, ⟨S65536x8, b⟩] concatenates_S65536x8_S65536x8_S65536x16_d1) : (⟨S65536x8, .f32⟩ : BufTy).Contents (Elt F) → (⟨S65536x8, .f32⟩ : BufTy).Contents (Elt F) → (⟨S65536x16, .f32⟩ : BufTy).Contents (Elt F)) ]

/-- Segment `lvl4` of the line. -/
abbrev lvl4 : List (HloOp τ sig (Elt F)) :=
  [ unary main_v34 main_v35 ((extractStridedSlice S65536x8 ![0, 8] · slices_S65536x16_S65536x8_0_8) : (⟨S65536x16, .f32⟩ : BufTy).Contents (Elt F) → (⟨S65536x8, .f32⟩ : BufTy).Contents (Elt F)),
    unary main_v35 main_v36 (broadcastInDim S65536x8x1 ![0, 1] bcast_S65536x8_S65536x8x1_0_1 : (⟨S65536x8, .f32⟩ : BufTy).Contents (Elt F) → (⟨S65536x8x1, .f32⟩ : BufTy).Contents (Elt F)),
    unary main_v12 main_v37 ((extractStridedSlice S65536x8x2 ![0, 8, 0] · slices_S65536x1024x2_S65536x8x2_0_8_0) : (⟨S65536x1024x2, .f32⟩ : BufTy).Contents (Elt F) → (⟨S65536x8x2, .f32⟩ : BufTy).Contents (Elt F)),
    unary main_v36 main_v38 (broadcastInDim S65536x8x2 ![0, 1, 2] bcast_S65536x8x1_S65536x8x2_0_1_2 : (⟨S65536x8x1, .f32⟩ : BufTy).Contents (Elt F) → (⟨S65536x8x2, .f32⟩ : BufTy).Contents (Elt F)),
    binary main_v38 main_v37 main_v39 (mulf : (⟨S65536x8x2, .f32⟩ : BufTy).Contents (Elt F) → (⟨S65536x8x2, .f32⟩ : BufTy).Contents (Elt F) → (⟨S65536x8x2, .f32⟩ : BufTy).Contents (Elt F)),
    reshape main_v39 main_v40 rfl shapeCasts_S65536x8x2_S65536x16,
    binary main_v34 main_v40 main_v41 ((fun a b => concatenate S65536x32 1 [⟨S65536x16, a⟩, ⟨S65536x16, b⟩] concatenates_S65536x16_S65536x16_S65536x32_d1) : (⟨S65536x16, .f32⟩ : BufTy).Contents (Elt F) → (⟨S65536x16, .f32⟩ : BufTy).Contents (Elt F) → (⟨S65536x32, .f32⟩ : BufTy).Contents (Elt F)) ]

/-- Segment `lvl5` of the line. -/
abbrev lvl5 : List (HloOp τ sig (Elt F)) :=
  [ unary main_v41 main_v42 ((extractStridedSlice S65536x16 ![0, 16] · slices_S65536x32_S65536x16_0_16) : (⟨S65536x32, .f32⟩ : BufTy).Contents (Elt F) → (⟨S65536x16, .f32⟩ : BufTy).Contents (Elt F)),
    unary main_v42 main_v43 (broadcastInDim S65536x16x1 ![0, 1] bcast_S65536x16_S65536x16x1_0_1 : (⟨S65536x16, .f32⟩ : BufTy).Contents (Elt F) → (⟨S65536x16x1, .f32⟩ : BufTy).Contents (Elt F)),
    unary main_v12 main_v44 ((extractStridedSlice S65536x16x2 ![0, 16, 0] · slices_S65536x1024x2_S65536x16x2_0_16_0) : (⟨S65536x1024x2, .f32⟩ : BufTy).Contents (Elt F) → (⟨S65536x16x2, .f32⟩ : BufTy).Contents (Elt F)),
    unary main_v43 main_v45 (broadcastInDim S65536x16x2 ![0, 1, 2] bcast_S65536x16x1_S65536x16x2_0_1_2 : (⟨S65536x16x1, .f32⟩ : BufTy).Contents (Elt F) → (⟨S65536x16x2, .f32⟩ : BufTy).Contents (Elt F)),
    binary main_v45 main_v44 main_v46 (mulf : (⟨S65536x16x2, .f32⟩ : BufTy).Contents (Elt F) → (⟨S65536x16x2, .f32⟩ : BufTy).Contents (Elt F) → (⟨S65536x16x2, .f32⟩ : BufTy).Contents (Elt F)),
    reshape main_v46 main_v47 rfl shapeCasts_S65536x16x2_S65536x32,
    binary main_v41 main_v47 main_v48 ((fun a b => concatenate S65536x64 1 [⟨S65536x32, a⟩, ⟨S65536x32, b⟩] concatenates_S65536x32_S65536x32_S65536x64_d1) : (⟨S65536x32, .f32⟩ : BufTy).Contents (Elt F) → (⟨S65536x32, .f32⟩ : BufTy).Contents (Elt F) → (⟨S65536x64, .f32⟩ : BufTy).Contents (Elt F)) ]

/-- Segment `lvl6` of the line. -/
abbrev lvl6 : List (HloOp τ sig (Elt F)) :=
  [ unary main_v48 main_v49 ((extractStridedSlice S65536x32 ![0, 32] · slices_S65536x64_S65536x32_0_32) : (⟨S65536x64, .f32⟩ : BufTy).Contents (Elt F) → (⟨S65536x32, .f32⟩ : BufTy).Contents (Elt F)),
    unary main_v49 main_v50 (broadcastInDim S65536x32x1 ![0, 1] bcast_S65536x32_S65536x32x1_0_1 : (⟨S65536x32, .f32⟩ : BufTy).Contents (Elt F) → (⟨S65536x32x1, .f32⟩ : BufTy).Contents (Elt F)),
    unary main_v12 main_v51 ((extractStridedSlice S65536x32x2 ![0, 32, 0] · slices_S65536x1024x2_S65536x32x2_0_32_0) : (⟨S65536x1024x2, .f32⟩ : BufTy).Contents (Elt F) → (⟨S65536x32x2, .f32⟩ : BufTy).Contents (Elt F)),
    unary main_v50 main_v52 (broadcastInDim S65536x32x2 ![0, 1, 2] bcast_S65536x32x1_S65536x32x2_0_1_2 : (⟨S65536x32x1, .f32⟩ : BufTy).Contents (Elt F) → (⟨S65536x32x2, .f32⟩ : BufTy).Contents (Elt F)),
    binary main_v52 main_v51 main_v53 (mulf : (⟨S65536x32x2, .f32⟩ : BufTy).Contents (Elt F) → (⟨S65536x32x2, .f32⟩ : BufTy).Contents (Elt F) → (⟨S65536x32x2, .f32⟩ : BufTy).Contents (Elt F)),
    reshape main_v53 main_v54 rfl shapeCasts_S65536x32x2_S65536x64,
    binary main_v48 main_v54 main_v55 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)) ]

/-- Segment `lvl7` of the line. -/
abbrev lvl7 : List (HloOp τ sig (Elt F)) :=
  [ unary main_v55 main_v56 ((extractStridedSlice S65536x64 ![0, 64] · slices_S65536x128_S65536x64_0_64) : (⟨S65536x128, .f32⟩ : BufTy).Contents (Elt F) → (⟨S65536x64, .f32⟩ : BufTy).Contents (Elt F)),
    unary main_v56 main_v57 (broadcastInDim S65536x64x1 ![0, 1] bcast_S65536x64_S65536x64x1_0_1 : (⟨S65536x64, .f32⟩ : BufTy).Contents (Elt F) → (⟨S65536x64x1, .f32⟩ : BufTy).Contents (Elt F)),
    unary main_v12 main_v58 ((extractStridedSlice S65536x64x2 ![0, 64, 0] · slices_S65536x1024x2_S65536x64x2_0_64_0) : (⟨S65536x1024x2, .f32⟩ : BufTy).Contents (Elt F) → (⟨S65536x64x2, .f32⟩ : BufTy).Contents (Elt F)),
    unary main_v57 main_v59 (broadcastInDim S65536x64x2 ![0, 1, 2] bcast_S65536x64x1_S65536x64x2_0_1_2 : (⟨S65536x64x1, .f32⟩ : BufTy).Contents (Elt F) → (⟨S65536x64x2, .f32⟩ : BufTy).Contents (Elt F)),
    binary main_v59 main_v58 main_v60 (mulf : (⟨S65536x64x2, .f32⟩ : BufTy).Contents (Elt F) → (⟨S65536x64x2, .f32⟩ : BufTy).Contents (Elt F) → (⟨S65536x64x2, .f32⟩ : BufTy).Contents (Elt F)),
    reshape main_v60 main_v61 rfl shapeCasts_S65536x64x2_S65536x128,
    binary main_v55 main_v61 main_v62 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) ]

/-- Segment `lvl8` of the line. -/
abbrev lvl8 : List (HloOp τ sig (Elt F)) :=
  [ unary main_v62 main_v63 ((extractStridedSlice S65536x128 ![0, 128] · slices_S65536x256_S65536x128_0_128) : (⟨S65536x256, .f32⟩ : BufTy).Contents (Elt F) → (⟨S65536x128, .f32⟩ : BufTy).Contents (Elt F)),
    unary main_v63 main_v64 (broadcastInDim S65536x128x1 ![0, 1] bcast_S65536x128_S65536x128x1_0_1 : (⟨S65536x128, .f32⟩ : BufTy).Contents (Elt F) → (⟨S65536x128x1, .f32⟩ : BufTy).Contents (Elt F)),
    unary main_v12 main_v65 ((extractStridedSlice S65536x128x2 ![0, 128, 0] · slices_S65536x1024x2_S65536x128x2_0_128_0) : (⟨S65536x1024x2, .f32⟩ : BufTy).Contents (Elt F) → (⟨S65536x128x2, .f32⟩ : BufTy).Contents (Elt F)),
    unary main_v64 main_v66 (broadcastInDim S65536x128x2 ![0, 1, 2] bcast_S65536x128x1_S65536x128x2_0_1_2 : (⟨S65536x128x1, .f32⟩ : BufTy).Contents (Elt F) → (⟨S65536x128x2, .f32⟩ : BufTy).Contents (Elt F)),
    binary main_v66 main_v65 main_v67 (mulf : (⟨S65536x128x2, .f32⟩ : BufTy).Contents (Elt F) → (⟨S65536x128x2, .f32⟩ : BufTy).Contents (Elt F) → (⟨S65536x128x2, .f32⟩ : BufTy).Contents (Elt F)),
    reshape main_v67 main_v68 rfl shapeCasts_S65536x128x2_S65536x256,
    binary main_v62 main_v68 main_v69 ((fun a b => concatenate S65536x512 1 [⟨S65536x256, a⟩, ⟨S65536x256, b⟩] concatenates_S65536x256_S65536x256_S65536x512_d1) : (⟨S65536x256, .f32⟩ : BufTy).Contents (Elt F) → (⟨S65536x256, .f32⟩ : BufTy).Contents (Elt F) → (⟨S65536x512, .f32⟩ : BufTy).Contents (Elt F)) ]

/-- Segment `lvl9` of the line. -/
abbrev lvl9 : List (HloOp τ sig (Elt F)) :=
  [ unary main_v69 main_v70 ((extractStridedSlice S65536x256 ![0, 256] · slices_S65536x512_S65536x256_0_256) : (⟨S65536x512, .f32⟩ : BufTy).Contents (Elt F) → (⟨S65536x256, .f32⟩ : BufTy).Contents (Elt F)),
    unary main_v70 main_v71 (broadcastInDim S65536x256x1 ![0, 1] bcast_S65536x256_S65536x256x1_0_1 : (⟨S65536x256, .f32⟩ : BufTy).Contents (Elt F) → (⟨S65536x256x1, .f32⟩ : BufTy).Contents (Elt F)),
    unary main_v12 main_v72 ((extractStridedSlice S65536x256x2 ![0, 256, 0] · slices_S65536x1024x2_S65536x256x2_0_256_0) : (⟨S65536x1024x2, .f32⟩ : BufTy).Contents (Elt F) → (⟨S65536x256x2, .f32⟩ : BufTy).Contents (Elt F)),
    unary main_v71 main_v73 (broadcastInDim S65536x256x2 ![0, 1, 2] bcast_S65536x256x1_S65536x256x2_0_1_2 : (⟨S65536x256x1, .f32⟩ : BufTy).Contents (Elt F) → (⟨S65536x256x2, .f32⟩ : BufTy).Contents (Elt F)),
    binary main_v73 main_v72 main_v74 (mulf : (⟨S65536x256x2, .f32⟩ : BufTy).Contents (Elt F) → (⟨S65536x256x2, .f32⟩ : BufTy).Contents (Elt F) → (⟨S65536x256x2, .f32⟩ : BufTy).Contents (Elt F)),
    reshape main_v74 main_v75 rfl shapeCasts_S65536x256x2_S65536x512,
    binary main_v69 main_v75 main_v76 ((fun a b => concatenate S65536x1024 1 [⟨S65536x512, a⟩, ⟨S65536x512, b⟩] concatenates_S65536x512_S65536x512_S65536x1024_d1) : (⟨S65536x512, .f32⟩ : BufTy).Contents (Elt F) → (⟨S65536x512, .f32⟩ : BufTy).Contents (Elt F) → (⟨S65536x1024, .f32⟩ : BufTy).Contents (Elt F)) ]

/-- Segment `lvl10` of the line. -/
abbrev lvl10 : List (HloOp τ sig (Elt F)) :=
  [ unary main_v76 main_v77 ((extractStridedSlice S65536x512 ![0, 512] · slices_S65536x1024_S65536x512_0_512) : (⟨S65536x1024, .f32⟩ : BufTy).Contents (Elt F) → (⟨S65536x512, .f32⟩ : BufTy).Contents (Elt F)),
    unary main_v77 main_v78 (broadcastInDim S65536x512x1 ![0, 1] bcast_S65536x512_S65536x512x1_0_1 : (⟨S65536x512, .f32⟩ : BufTy).Contents (Elt F) → (⟨S65536x512x1, .f32⟩ : BufTy).Contents (Elt F)),
    unary main_v12 main_v79 ((extractStridedSlice S65536x512x2 ![0, 512, 0] · slices_S65536x1024x2_S65536x512x2_0_512_0) : (⟨S65536x1024x2, .f32⟩ : BufTy).Contents (Elt F) → (⟨S65536x512x2, .f32⟩ : BufTy).Contents (Elt F)),
    unary main_v78 main_v80 (broadcastInDim S65536x512x2 ![0, 1, 2] bcast_S65536x512x1_S65536x512x2_0_1_2 : (⟨S65536x512x1, .f32⟩ : BufTy).Contents (Elt F) → (⟨S65536x512x2, .f32⟩ : BufTy).Contents (Elt F)),
    binary main_v80 main_v79 main_v81 (mulf : (⟨S65536x512x2, .f32⟩ : BufTy).Contents (Elt F) → (⟨S65536x512x2, .f32⟩ : BufTy).Contents (Elt F) → (⟨S65536x512x2, .f32⟩ : BufTy).Contents (Elt F)),
    reshape main_v81 main_v82 rfl shapeCasts_S65536x512x2_S65536x1024,
    binary main_v76 main_v82 main_v83 ((fun a b => concatenate S65536x2048 1 [⟨S65536x1024, a⟩, ⟨S65536x1024, b⟩] concatenates_S65536x1024_S65536x1024_S65536x2048_d1) : (⟨S65536x1024, .f32⟩ : BufTy).Contents (Elt F) → (⟨S65536x1024, .f32⟩ : BufTy).Contents (Elt F) → (⟨S65536x2048, .f32⟩ : BufTy).Contents (Elt F)) ]

/-- Segment `tail` of the line. -/
abbrev tail : List (HloOp τ sig (Elt F)) :=
  [ nullary main_c (constantI S_ 32 0#32),
    unary main_c main_v84 (broadcastInDim S1 ![] bcast_S_S1 : (⟨S_, .i32⟩ : BufTy).Contents (Elt F) → (⟨S1, .i32⟩ : BufTy).Contents (Elt F)),
    nullary main_cst_3 (constant S_ .f32 0x3F800000#32),
    unary main_cst_3 main_v85 (broadcastInDim S65536 ![] bcast_S_S65536 : (⟨S_, .f32⟩ : BufTy).Contents (Elt F) → (⟨S65536, .f32⟩ : BufTy).Contents (Elt F)),
    ternary main_v83 main_v84 main_v85 main_v86 ((fun x i u => Host.scatter scatter_S65536x2048_S1_S65536_0_1_1_0 (fun _ b => b) x i u) : (⟨S65536x2048, .f32⟩ : BufTy).Contents (Elt F) → (⟨S1, .i32⟩ : BufTy).Contents (Elt F) → (⟨S65536, .f32⟩ : BufTy).Contents (Elt F) → (⟨S65536x2048, .f32⟩ : BufTy).Contents (Elt F)) ]

/-- The line is its segments, in order. -/
theorem ops_eq : (ops : List (HloOp τ sig (Elt F))) = pre ++ (lvl1 ++ (lvl2 ++ (lvl3 ++ (lvl4 ++ (lvl5 ++ (lvl6 ++ (lvl7 ++ (lvl8 ++ (lvl9 ++ (lvl10 ++ (tail))))))))))) := rfl

/-- So the contents after the line are the segments' results composed. -/
theorem after_ops (V : Valuation τ sig (Elt F)) :
    after ops V = after tail (after lvl10 (after lvl9 (after lvl8 (after lvl7 (after lvl6 (after lvl5 (after lvl4 (after lvl3 (after lvl2 (after lvl1 (after pre V))))))))))) := by
  rw [ops_eq]
  simp only [after_append]

/-! ## What every segment keeps

Through the whole line the decision array and the three arguments stay what they were after the first segment. -/

/-- The contents `W` hold the decision array of the arguments `V` and the arguments themselves. -/
structure Inv (V W : Valuation τ sig (Elt F)) : Prop where
  v12 : W (Proc.devRef .tc main_v12) = res_main_v12 V
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)

/-- The first segment: the decision array, the starting row, the arguments untouched. -/
theorem pre_step (V : Valuation τ sig (Elt F)) :
    Inv V (after pre V) ∧ after pre V (Proc.devRef .tc main_v13) = res_main_v13 V := by
  refine ⟨⟨?_, ?_, ?_, ?_⟩, ?_⟩
  · after_results_simp <;> rfl
  · after_results_simp
  · after_results_simp
  · after_results_simp
  · after_results_simp <;> rfl

/-- Level 1: from the row `main_v13` to the row `main_v20`. -/
theorem lvl1_step (V W : Valuation τ sig (Elt F)) (h : Inv V W) (hp : W (Proc.devRef .tc main_v13) = res_main_v13 V) :
    Inv V (after lvl1 W) ∧ after lvl1 W (Proc.devRef .tc main_v20) = res_main_v20 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v20
    rw [← hp, ← h.v12]
    after_results_simp <;> rfl

/-- Level 2: from the row `main_v20` to the row `main_v27`. -/
theorem lvl2_step (V W : Valuation τ sig (Elt F)) (h : Inv V W) (hp : W (Proc.devRef .tc main_v20) = res_main_v20 V) :
    Inv V (after lvl2 W) ∧ after lvl2 W (Proc.devRef .tc main_v27) = res_main_v27 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v27
    rw [← hp, ← h.v12]
    after_results_simp <;> rfl

/-- Level 3: from the row `main_v27` to the row `main_v34`. -/
theorem lvl3_step (V W : Valuation τ sig (Elt F)) (h : Inv V W) (hp : W (Proc.devRef .tc main_v27) = res_main_v27 V) :
    Inv V (after lvl3 W) ∧ after lvl3 W (Proc.devRef .tc main_v34) = res_main_v34 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v34
    rw [← hp, ← h.v12]
    after_results_simp <;> rfl

/-- Level 4: from the row `main_v34` to the row `main_v41`. -/
theorem lvl4_step (V W : Valuation τ sig (Elt F)) (h : Inv V W) (hp : W (Proc.devRef .tc main_v34) = res_main_v34 V) :
    Inv V (after lvl4 W) ∧ after lvl4 W (Proc.devRef .tc main_v41) = res_main_v41 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v41
    rw [← hp, ← h.v12]
    after_results_simp <;> rfl

/-- Level 5: from the row `main_v41` to the row `main_v48`. -/
theorem lvl5_step (V W : Valuation τ sig (Elt F)) (h : Inv V W) (hp : W (Proc.devRef .tc main_v41) = res_main_v41 V) :
    Inv V (after lvl5 W) ∧ after lvl5 W (Proc.devRef .tc main_v48) = res_main_v48 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v48
    rw [← hp, ← h.v12]
    after_results_simp <;> rfl

/-- Level 6: from the row `main_v48` to the row `main_v55`. -/
theorem lvl6_step (V W : Valuation τ sig (Elt F)) (h : Inv V W) (hp : W (Proc.devRef .tc main_v48) = res_main_v48 V) :
    Inv V (after lvl6 W) ∧ after lvl6 W (Proc.devRef .tc main_v55) = res_main_v55 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v55
    rw [← hp, ← h.v12]
    after_results_simp <;> rfl

/-- Level 7: from the row `main_v55` to the row `main_v62`. -/
theorem lvl7_step (V W : Valuation τ sig (Elt F)) (h : Inv V W) (hp : W (Proc.devRef .tc main_v55) = res_main_v55 V) :
    Inv V (after lvl7 W) ∧ after lvl7 W (Proc.devRef .tc main_v62) = res_main_v62 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v62
    rw [← hp, ← h.v12]
    after_results_simp <;> rfl

/-- Level 8: from the row `main_v62` to the row `main_v69`. -/
theorem lvl8_step (V W : Valuation τ sig (Elt F)) (h : Inv V W) (hp : W (Proc.devRef .tc main_v62) = res_main_v62 V) :
    Inv V (after lvl8 W) ∧ after lvl8 W (Proc.devRef .tc main_v69) = res_main_v69 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v69
    rw [← hp, ← h.v12]
    after_results_simp <;> rfl

/-- Level 9: from the row `main_v69` to the row `main_v76`. -/
theorem lvl9_step (V W : Valuation τ sig (Elt F)) (h : Inv V W) (hp : W (Proc.devRef .tc main_v69) = res_main_v69 V) :
    Inv V (after lvl9 W) ∧ after lvl9 W (Proc.devRef .tc main_v76) = res_main_v76 V := by
  refine ⟨⟨?_, ?_, ?_, ?_⟩, ?_⟩
  · rw [← h.v12]; after_results_simp
  · rw [← h.a0]; after_results_simp
  · rw [← h.a1]; after_results_simp
  · rw [← h.a2]; after_results_simp
  ·
    unfold res_main_v76
    rw [← hp, ← h.v12]
    after_results_simp <;> rfl

/-- Level 10: from the row `main_v76` to the row `main_v83`. -/
theorem lvl10_step (V W : Valuation τ sig (Elt F)) (h : Inv V W) (hp : W (Proc.devRef .tc main_v76) = res_main_v76 V) :
    Inv V (after lvl10 W) ∧ after lvl10 W (Proc.devRef .tc main_v83) = (concatenate S65536x2048 1 [⟨S65536x1024, (res_main_v76 V)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V) slices_S65536x1024_S65536x512_0_512))) (extractStridedSlice S65536x512x2 ![0, 512, 0] (res_main_v12 V) slices_S65536x1024x2_S65536x512x2_0_512_0)) shapeCasts_S65536x512x2_S65536x1024)⟩] concatenates_S65536x1024_S65536x1024_S65536x2048_d1) := by
  refine ⟨⟨?_, ?_, ?_, ?_⟩, ?_⟩
  · rw [← h.v12]; after_results_simp
  · rw [← h.a0]; after_results_simp
  · rw [← h.a1]; after_results_simp
  · rw [← h.a2]; after_results_simp
  ·
    rw [← hp, ← h.v12]
    after_results_simp <;> rfl

/-! ## The segments composed -/

theorem stage0 (V : Valuation τ sig (Elt F)) : Inv V (after pre V) ∧ after pre V (Proc.devRef .tc main_v13) = res_main_v13 V := pre_step V

theorem stage1 (V : Valuation τ sig (Elt F)) : Inv V (after lvl1 (after pre V)) ∧ after lvl1 (after pre V) (Proc.devRef .tc main_v20) = res_main_v20 V :=
  lvl1_step V _ (stage0 V).1 (stage0 V).2

theorem stage2 (V : Valuation τ sig (Elt F)) : Inv V (after lvl2 (after lvl1 (after pre V))) ∧ after lvl2 (after lvl1 (after pre V)) (Proc.devRef .tc main_v27) = res_main_v27 V :=
  lvl2_step V _ (stage1 V).1 (stage1 V).2

theorem stage3 (V : Valuation τ sig (Elt F)) : Inv V (after lvl3 (after lvl2 (after lvl1 (after pre V)))) ∧ after lvl3 (after lvl2 (after lvl1 (after pre V))) (Proc.devRef .tc main_v34) = res_main_v34 V :=
  lvl3_step V _ (stage2 V).1 (stage2 V).2

theorem stage4 (V : Valuation τ sig (Elt F)) : Inv V (after lvl4 (after lvl3 (after lvl2 (after lvl1 (after pre V))))) ∧ after lvl4 (after lvl3 (after lvl2 (after lvl1 (after pre V)))) (Proc.devRef .tc main_v41) = res_main_v41 V :=
  lvl4_step V _ (stage3 V).1 (stage3 V).2

theorem stage5 (V : Valuation τ sig (Elt F)) : Inv V (after lvl5 (after lvl4 (after lvl3 (after lvl2 (after lvl1 (after pre V)))))) ∧ after lvl5 (after lvl4 (after lvl3 (after lvl2 (after lvl1 (after pre V))))) (Proc.devRef .tc main_v48) = res_main_v48 V :=
  lvl5_step V _ (stage4 V).1 (stage4 V).2

theorem stage6 (V : Valuation τ sig (Elt F)) : Inv V (after lvl6 (after lvl5 (after lvl4 (after lvl3 (after lvl2 (after lvl1 (after pre V))))))) ∧ after lvl6 (after lvl5 (after lvl4 (after lvl3 (after lvl2 (after lvl1 (after pre V)))))) (Proc.devRef .tc main_v55) = res_main_v55 V :=
  lvl6_step V _ (stage5 V).1 (stage5 V).2

theorem stage7 (V : Valuation τ sig (Elt F)) : Inv V (after lvl7 (after lvl6 (after lvl5 (after lvl4 (after lvl3 (after lvl2 (after lvl1 (after pre V)))))))) ∧ after lvl7 (after lvl6 (after lvl5 (after lvl4 (after lvl3 (after lvl2 (after lvl1 (after pre V))))))) (Proc.devRef .tc main_v62) = res_main_v62 V :=
  lvl7_step V _ (stage6 V).1 (stage6 V).2

theorem stage8 (V : Valuation τ sig (Elt F)) : Inv V (after lvl8 (after lvl7 (after lvl6 (after lvl5 (after lvl4 (after lvl3 (after lvl2 (after lvl1 (after pre V))))))))) ∧ after lvl8 (after lvl7 (after lvl6 (after lvl5 (after lvl4 (after lvl3 (after lvl2 (after lvl1 (after pre V)))))))) (Proc.devRef .tc main_v69) = res_main_v69 V :=
  lvl8_step V _ (stage7 V).1 (stage7 V).2

theorem stage9 (V : Valuation τ sig (Elt F)) : Inv V (after lvl9 (after lvl8 (after lvl7 (after lvl6 (after lvl5 (after lvl4 (after lvl3 (after lvl2 (after lvl1 (after pre V)))))))))) ∧ after lvl9 (after lvl8 (after lvl7 (after lvl6 (after lvl5 (after lvl4 (after lvl3 (after lvl2 (after lvl1 (after pre V))))))))) (Proc.devRef .tc main_v76) = res_main_v76 V :=
  lvl9_step V _ (stage8 V).1 (stage8 V).2

theorem stage10 (V : Valuation τ sig (Elt F)) : Inv V (after lvl10 (after lvl9 (after lvl8 (after lvl7 (after lvl6 (after lvl5 (after lvl4 (after lvl3 (after lvl2 (after lvl1 (after pre V))))))))))) ∧ after lvl10 (after lvl9 (after lvl8 (after lvl7 (after lvl6 (after lvl5 (after lvl4 (after lvl3 (after lvl2 (after lvl1 (after pre V)))))))))) (Proc.devRef .tc main_v83) = (concatenate S65536x2048 1 [⟨S65536x1024, (res_main_v76 V)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V) slices_S65536x1024_S65536x512_0_512))) (extractStridedSlice S65536x512x2 ![0, 512, 0] (res_main_v12 V) slices_S65536x1024x2_S65536x512x2_0_512_0)) shapeCasts_S65536x512x2_S65536x1024)⟩] concatenates_S65536x1024_S65536x1024_S65536x2048_d1) :=
  lvl10_step V _ (stage9 V).1 (stage9 V).2

/-- The last segment: the scatter of ones into column 0 of the last row. -/
theorem tail_step (V W : Valuation τ sig (Elt F)) (h : Inv V W) (hp : W (Proc.devRef .tc main_v83) = (concatenate S65536x2048 1 [⟨S65536x1024, (res_main_v76 V)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V) slices_S65536x1024_S65536x512_0_512))) (extractStridedSlice S65536x512x2 ![0, 512, 0] (res_main_v12 V) slices_S65536x1024x2_S65536x512x2_0_512_0)) shapeCasts_S65536x512x2_S65536x1024)⟩] concatenates_S65536x1024_S65536x1024_S65536x2048_d1)) :
    Inv V (after tail W) ∧ after tail W (Proc.devRef .tc main_v86) = Host.scatter scatter_S65536x2048_S1_S65536_0_1_1_0 (fun _ b => b) (concatenate S65536x2048 1 [⟨S65536x1024, (res_main_v76 V)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V) slices_S65536x1024_S65536x512_0_512))) (extractStridedSlice S65536x512x2 ![0, 512, 0] (res_main_v12 V) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant S_ .f32 0x3F800000#32)) := by
  refine ⟨⟨?_, ?_, ?_, ?_⟩, ?_⟩
  · rw [← h.v12]; after_results_simp
  · rw [← h.a0]; after_results_simp
  · rw [← h.a1]; after_results_simp
  · rw [← h.a2]; after_results_simp
  · rw [← hp]
    after_results_simp <;> rfl

/-! ## The line's results -/

/-- The result buffer after the line: the composed term of the arguments, over the named level arrays. -/
theorem after_v86 (V : Valuation τ sig (Elt F)) :
    after ops V (Proc.devRef .tc main_v86) = Host.scatter scatter_S65536x2048_S1_S65536_0_1_1_0 (fun _ b => b) (concatenate S65536x2048 1 [⟨S65536x1024, (res_main_v76 V)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V) slices_S65536x1024_S65536x512_0_512))) (extractStridedSlice S65536x512x2 ![0, 512, 0] (res_main_v12 V) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant S_ .f32 0x3F800000#32)) := by
  rw [after_ops]
  exact (tail_step V _ (stage10 V).1 (stage10 V).2).2

/-- The arguments after the line: unchanged. -/
theorem after_arg0 (V : Valuation τ sig (Elt F)) : after ops V (Proc.devRef .tc main_arg0) = V (Proc.devRef .tc main_arg0) := by
  rw [after_ops]
  exact (tail_step V _ (stage10 V).1 (stage10 V).2).1.a0
theorem after_arg1 (V : Valuation τ sig (Elt F)) : after ops V (Proc.devRef .tc main_arg1) = V (Proc.devRef .tc main_arg1) := by
  rw [after_ops]
  exact (tail_step V _ (stage10 V).1 (stage10 V).2).1.a1
theorem after_arg2 (V : Valuation τ sig (Elt F)) : after ops V (Proc.devRef .tc main_arg2) = V (Proc.devRef .tc main_arg2) := by
  rw [after_ops]
  exact (tail_step V _ (stage10 V).1 (stage10 V).2).1.a2

end Cert.ReferenceIdeal.HandRun

end
-- ==== Proof.LibHeapLayout.lean ====
/-
  Heap-layout reads. A complete binary tree stored as a heap keeps the nodes of depth `k` at the positions
  `2^k … 2^(k+1) - 1`. Growing the heap by one level appends, after the `w` positions already there, the `w` children
  of the last `h = w / 2` positions: child `s` of position `h + q` lands at position `w + 2 q + s`, that is at
  `2 (h + q) + s`. The lemmas here read such a grown row at a position: a position below `w` is an old one, and a
  position `c ≥ w` holds the parent `c / 2` times the decision entry `(c / 2, c % 2)`.

  Last, a scatter that replaces elements by updates which equal what is already there changes nothing.
-/
import Idealize.ShloMosaic.PureOps.Ideal
import Idealize.ShloMosaic.Lib.ValueIdx
import Idealize.ShloMosaic.Lib.ValueLayout
import Idealize.ShloMosaic.Lib.Pipeline.Value

noncomputable section

namespace Cert.HeapLayout

open Idealize.ShloMosaic Idealize.ShloMosaic.ValueIdx

/-- A `[B, h]` array given a trailing unit axis and then stretched along it to `[B, h, 2]` reads, at `(r, q, s)`, the
    array at `(r, q)`. -/
theorem broadcast_pair_apply {α : Type} {B h : ℕ} (x : (⟨2, ![B, h]⟩ : Shape).Idx → α)
    (hb1 : (⟨2, ![B, h]⟩ : Shape).BroadcastsInDim ⟨3, ![B, h, 1]⟩ ![0, 1])
    (hb2 : (⟨3, ![B, h, 1]⟩ : Shape).BroadcastsInDim ⟨3, ![B, h, 2]⟩ ![0, 1, 2])
    (r : Fin B) (q : Fin h) (s : Fin 2) :
    broadcastInDim ⟨3, ![B, h, 2]⟩ ![0, 1, 2] hb2 (broadcastInDim ⟨3, ![B, h, 1]⟩ ![0, 1] hb1 x) (ix3 r q s)
      = x (ix2 r q) := by
  refine (broadcastInDim_apply _ hb2 _ (ix3 r q s) (ix3 r q (0 : Fin 1)) fun a => ?_).trans ?_
  · match a with
    | ⟨0, _⟩ =>
      show r.val = if B = 1 then 0 else r.val
      split_ifs with h1
      · have := r.isLt; omega
      · rfl
    | ⟨1, _⟩ =>
      show q.val = if h = 1 then 0 else q.val
      split_ifs with h1
      · have := q.isLt; omega
      · rfl
    | ⟨2, _⟩ =>
      show (0 : ℕ) = if (1 : ℕ) = 1 then 0 else s.val
      rw [if_pos rfl]
  · refine broadcastInDim_apply _ hb1 _ (ix3 r q (0 : Fin 1)) (ix2 r q) fun a => ?_
    match a with
    | ⟨0, _⟩ =>
      show r.val = if B = 1 then 0 else r.val
      split_ifs with h1
      · have := r.isLt; omega
      · rfl
    | ⟨1, _⟩ =>
      show q.val = if h = 1 then 0 else q.val
      split_ifs with h1
      · have := q.isLt; omega
      · rfl

/-- The block of children: the last `h` positions of a `[B, w]` row (`w = 2 h`), each paired with the two decision
    entries of its node, flattened to `[B, w]`. At `(r, c)` it holds the row at the parent `h + c / 2` times the
    decision entry `(h + c / 2, c % 2)`. -/
theorem children_apply {B h w N : ℕ} (hw : w = 2 * h)
    (prev : FVec Ideal ⟨2, ![B, w]⟩ .f32) (D : FVec Ideal ⟨3, ![B, N, 2]⟩ .f32)
    (hs1 : (⟨2, ![B, w]⟩ : Shape).Slices ![0, h] ⟨2, ![B, h]⟩)
    (hb1 : (⟨2, ![B, h]⟩ : Shape).BroadcastsInDim ⟨3, ![B, h, 1]⟩ ![0, 1])
    (hb2 : (⟨3, ![B, h, 1]⟩ : Shape).BroadcastsInDim ⟨3, ![B, h, 2]⟩ ![0, 1, 2])
    (hs2 : (⟨3, ![B, N, 2]⟩ : Shape).Slices ![0, h, 0] ⟨3, ![B, h, 2]⟩)
    (hc : (⟨3, ![B, h, 2]⟩ : Shape).ShapeCasts ⟨2, ![B, w]⟩)
    (r : Fin B) (c : Fin w) (p : Fin w) (n : Fin N) (s : Fin 2)
    (hp : p.val = h + c.val / 2) (hn : n.val = h + c.val / 2) (hs : s.val = c.val % 2) :
    shapeCast ⟨2, ![B, w]⟩ (mulf
        (broadcastInDim ⟨3, ![B, h, 2]⟩ ![0, 1, 2] hb2 (broadcastInDim ⟨3, ![B, h, 1]⟩ ![0, 1] hb1
          (extractStridedSlice ⟨2, ![B, h]⟩ ![0, h] prev hs1)))
        (extractStridedSlice ⟨3, ![B, h, 2]⟩ ![0, h, 0] D hs2)) hc (ix2 r c)
      = prev (ix2 r p) * D (ix3 r n s) := by
  have hq : c.val / 2 < h := by have := c.isLt; omega
  refine (shapeCast_apply _ hc (ix2 r c) (ix3 r ⟨c.val / 2, hq⟩ s) ?_).trans ?_
  · rw [Shape.rowMajor_val_two, Shape.rowMajor_val_three]
    show (r.val * h + c.val / 2) * 2 + s.val = r.val * w + c.val
    have h1 : r.val * w = 2 * (r.val * h) := by subst hw; ring
    omega
  · rw [mulf_apply]
    congr 1
    · refine (broadcast_pair_apply _ hb1 hb2 r ⟨c.val / 2, hq⟩ s).trans ?_
      exact slice2_axis1_apply h prev hs1 r ⟨c.val / 2, hq⟩ p hp
    · exact slice3_axis1_apply h D hs2 r ⟨c.val / 2, hq⟩ s n hn

/-- THE GROWN ROW AT AN OLD POSITION: below `w` it is the row it grew from. -/
theorem level_apply_lt {B h w ww N : ℕ}
    (prev : FVec Ideal ⟨2, ![B, w]⟩ .f32) (D : FVec Ideal ⟨3, ![B, N, 2]⟩ .f32)
    (hs1 : (⟨2, ![B, w]⟩ : Shape).Slices ![0, h] ⟨2, ![B, h]⟩)
    (hb1 : (⟨2, ![B, h]⟩ : Shape).BroadcastsInDim ⟨3, ![B, h, 1]⟩ ![0, 1])
    (hb2 : (⟨3, ![B, h, 1]⟩ : Shape).BroadcastsInDim ⟨3, ![B, h, 2]⟩ ![0, 1, 2])
    (hs2 : (⟨3, ![B, N, 2]⟩ : Shape).Slices ![0, h, 0] ⟨3, ![B, h, 2]⟩)
    (hc : (⟨3, ![B, h, 2]⟩ : Shape).ShapeCasts ⟨2, ![B, w]⟩)
    (hcat : Shape.Concatenates [(⟨2, ![B, w]⟩ : Shape), ⟨2, ![B, w]⟩] ⟨2, ![B, ww]⟩ 1)
    (r : Fin B) (c : Fin ww) (p : Fin w) (hp : p.val = c.val) :
    concatenate ⟨2, ![B, ww]⟩ 1 [⟨⟨2, ![B, w]⟩, prev⟩, ⟨⟨2, ![B, w]⟩, shapeCast ⟨2, ![B, w]⟩ (mulf
        (broadcastInDim ⟨3, ![B, h, 2]⟩ ![0, 1, 2] hb2 (broadcastInDim ⟨3, ![B, h, 1]⟩ ![0, 1] hb1
          (extractStridedSlice ⟨2, ![B, h]⟩ ![0, h] prev hs1)))
        (extractStridedSlice ⟨3, ![B, h, 2]⟩ ![0, h, 0] D hs2)) hc⟩] hcat (ix2 r c)
      = prev (ix2 r p) := by
  refine concatenate_pair_apply_left (1 : Fin 2) prev _ hcat (ix2 r c) rfl (ix2 r p) fun b => ?_
  match b with
  | ⟨0, _⟩ => rfl
  | ⟨1, _⟩ => exact hp

/-- THE GROWN ROW AT A NEW POSITION `c ≥ w`: the row at the parent `c / 2` times the decision entry `(c / 2, c % 2)`. -/
theorem level_apply_ge {B h w ww N : ℕ} (hw : w = 2 * h)
    (prev : FVec Ideal ⟨2, ![B, w]⟩ .f32) (D : FVec Ideal ⟨3, ![B, N, 2]⟩ .f32)
    (hs1 : (⟨2, ![B, w]⟩ : Shape).Slices ![0, h] ⟨2, ![B, h]⟩)
    (hb1 : (⟨2, ![B, h]⟩ : Shape).BroadcastsInDim ⟨3, ![B, h, 1]⟩ ![0, 1])
    (hb2 : (⟨3, ![B, h, 1]⟩ : Shape).BroadcastsInDim ⟨3, ![B, h, 2]⟩ ![0, 1, 2])
    (hs2 : (⟨3, ![B, N, 2]⟩ : Shape).Slices ![0, h, 0] ⟨3, ![B, h, 2]⟩)
    (hc : (⟨3, ![B, h, 2]⟩ : Shape).ShapeCasts ⟨2, ![B, w]⟩)
    (hcat : Shape.Concatenates [(⟨2, ![B, w]⟩ : Shape), ⟨2, ![B, w]⟩] ⟨2, ![B, ww]⟩ 1)
    (r : Fin B) (c : Fin ww) (hwc : w ≤ c.val) (hcw : c.val < 2 * w) (p : Fin w) (n : Fin N) (s : Fin 2)
    (hp : p.val = c.val / 2) (hn : n.val = c.val / 2) (hs : s.val = c.val % 2) :
    concatenate ⟨2, ![B, ww]⟩ 1 [⟨⟨2, ![B, w]⟩, prev⟩, ⟨⟨2, ![B, w]⟩, shapeCast ⟨2, ![B, w]⟩ (mulf
        (broadcastInDim ⟨3, ![B, h, 2]⟩ ![0, 1, 2] hb2 (broadcastInDim ⟨3, ![B, h, 1]⟩ ![0, 1] hb1
          (extractStridedSlice ⟨2, ![B, h]⟩ ![0, h] prev hs1)))
        (extractStridedSlice ⟨3, ![B, h, 2]⟩ ![0, h, 0] D hs2)) hc⟩] hcat (ix2 r c)
      = prev (ix2 r p) * D (ix3 r n s) := by
  have hcw' : c.val - w < w := by omega
  refine (concatenate_pair_apply_right (s₁ := ⟨2, ![B, w]⟩) (s₂ := ⟨2, ![B, w]⟩) (1 : Fin 2) prev _ hcat (ix2 r c) rfl rfl
    (ix2 r (⟨c.val - w, hcw'⟩ : Fin w)) (fun b hb => ?_) ?_).trans ?_
  · match b with
    | ⟨0, _⟩ => rfl
    | ⟨1, _⟩ => exact absurd rfl hb
  · show c.val - w + w = c.val
    omega
  · refine children_apply hw prev D hs1 hb1 hb2 hs2 hc r ⟨c.val - w, hcw'⟩ p n s ?_ ?_ ?_
    · show p.val = h + (c.val - w) / 2
      omega
    · show n.val = h + (c.val - w) / 2
      omega
    · show s.val = (c.val - w) % 2
      omega

/-- A scatter whose body keeps the update, with every update equal to the element it replaces, returns its operand. -/
theorem scatter_keep_eq_self {α : Type} {s si u : Shape} {w : ℕ} (d : ScatterDims s si u) (x : s.Idx → α)
    (idx : IVec si w) (upd : u.Idx → α) (h : ∀ j i, d.resultIdx? j idx = some i → upd j = x i) :
    Host.scatter d (fun _ b => b) x idx upd = x := by
  unfold Host.scatter
  generalize List.finRange u.numel = l
  induction l with
  | nil => rfl
  | cons n l ih =>
    rw [List.foldl_cons]
    refine Eq.trans (congrArg (fun y => List.foldl _ y l) ?_) ih
    dsimp only
    split
    · next i hres =>
      funext i'
      split_ifs with he
      · rw [he]; exact h _ _ hres
      · rfl
    · rfl

/-- A scatter of one row of updates into column 0 — every start index the zero word, the column axis the inserted
    one — whose updates all equal a value `v` that column 0 already holds returns its operand. -/
theorem scatter_column_zero_eq_self {α : Type} {B C w : ℕ} (d : ScatterDims ⟨2, ![B, C]⟩ ⟨1, ![1]⟩ ⟨1, ![B]⟩)
    (h1 : d.updateWindowDims = [0]) (h2 : d.insertedWindowDims = [1]) (h3 : d.scatterDimsToOperandDims = [1])
    (x : (⟨2, ![B, C]⟩ : Shape).Idx → α) (v : α) (hx : ∀ (r : Fin B) (c : Fin C), c.val = 0 → x (ix2 r c) = v) :
    Host.scatter d (fun _ b => b) x (fun _ => (0 : BitVec w)) (fun _ => v) = x := by
  refine scatter_keep_eq_self d x _ _ fun j i hres => ?_
  obtain ⟨uw, iw, sd, iv, wf⟩ := d
  dsimp only at h1 h2 h3
  subst h1 h2 h3
  unfold ScatterDims.resultIdx? at hres
  split at hres
  · injection hres with hi
    subst hi
    rw [eq_ix2 (fun a => _)]
    refine (hx _ _ ?_).symm
    show (ScatterDims.start _ j (fun _ => (0 : BitVec w)) 1 + (ScatterDims.window _ j 1 : ℤ)).toNat = 0
    have hstart : ScatterDims.start (ScatterDims.mk (s := ⟨2, ![B, C]⟩) (si := ⟨1, ![1]⟩) (u := ⟨1, ![B]⟩) [0] [1] [1] iv wf) j
        (fun _ => (0 : BitVec w)) 1 = 0 := by
      unfold ScatterDims.start
      split <;> simp
    have hwin : ScatterDims.window (ScatterDims.mk (s := ⟨2, ![B, C]⟩) (si := ⟨1, ![1]⟩) (u := ⟨1, ![B]⟩) [0] [1] [1] iv wf) j 1 = 0 := by
      unfold ScatterDims.window
      have hmem : (1 : Fin 2) ∉ (⟨2, ![B, C]⟩ : Shape).kept [(1 : Fin 2)] := by simp [Shape.kept]
      rw [dif_neg hmem]
    rw [hstart, hwin]
    rfl
  · exact absurd hres (by simp)

end Cert.HeapLayout

end
-- ==== Proof.LibHeapReach.lean ====
/-
  Growing a heap row by one level keeps it equal to the tree's reach function.
-/
import proofs.«174314_j83193516523595_2_alg».proof.Proof.TreeSpec
import proofs.«174314_j83193516523595_2_alg».proof.Proof.LibHeapLayout

noncomputable section

namespace Cert.HeapReach

open Idealize.ShloMosaic Idealize.ShloMosaic.ValueIdx Cert.SoftTree Cert.HeapLayout

/-- If a row of width `w ≥ 2` holds `reach` at every position and the decision array holds each node's two shares,
    the row grown by one level holds `reach` at every position below `2 w`: an old position is unchanged, and a new
    position `c ≥ w ≥ 2` holds the parent's mass times the parent's share for child `c % 2`, which is `reach`'s own
    recursion. -/
theorem level_reach {B h w ww N : ℕ} (hw : w = 2 * h) (hww : ww = 2 * w) (h2 : 2 ≤ w) (hN : w ≤ N)
    (g : Fin B → ℕ → EReal) (prev : FVec Ideal ⟨2, ![B, w]⟩ .f32) (D : FVec Ideal ⟨3, ![B, N, 2]⟩ .f32)
    (hs1 : (⟨2, ![B, w]⟩ : Shape).Slices ![0, h] ⟨2, ![B, h]⟩)
    (hb1 : (⟨2, ![B, h]⟩ : Shape).BroadcastsInDim ⟨3, ![B, h, 1]⟩ ![0, 1])
    (hb2 : (⟨3, ![B, h, 1]⟩ : Shape).BroadcastsInDim ⟨3, ![B, h, 2]⟩ ![0, 1, 2])
    (hs2 : (⟨3, ![B, N, 2]⟩ : Shape).Slices ![0, h, 0] ⟨3, ![B, h, 2]⟩)
    (hc : (⟨3, ![B, h, 2]⟩ : Shape).ShapeCasts ⟨2, ![B, w]⟩)
    (hcat : Shape.Concatenates [(⟨2, ![B, w]⟩ : Shape), ⟨2, ![B, w]⟩] ⟨2, ![B, ww]⟩ 1)
    (hprev : ∀ (r : Fin B) (c : Fin w), prev (ix2 r c) = reach (g r) c.val)
    (hD : ∀ (r : Fin B) (n : Fin N) (s : Fin 2), D (ix3 r n s) = branch (g r n.val) s.val)
    (r : Fin B) (c : Fin ww) :
    concatenate ⟨2, ![B, ww]⟩ 1 [⟨⟨2, ![B, w]⟩, prev⟩, ⟨⟨2, ![B, w]⟩, shapeCast ⟨2, ![B, w]⟩ (mulf
        (broadcastInDim ⟨3, ![B, h, 2]⟩ ![0, 1, 2] hb2 (broadcastInDim ⟨3, ![B, h, 1]⟩ ![0, 1] hb1
          (extractStridedSlice ⟨2, ![B, h]⟩ ![0, h] prev hs1)))
        (extractStridedSlice ⟨3, ![B, h, 2]⟩ ![0, h, 0] D hs2)) hc⟩] hcat (ix2 r c)
      = reach (g r) c.val := by
  have hcl := c.isLt
  by_cases hc' : c.val < w
  · exact (level_apply_lt prev D hs1 hb1 hb2 hs2 hc hcat r c ⟨c.val, hc'⟩ rfl).trans (hprev r _)
  · have hp : c.val / 2 < w := by omega
    have hn : c.val / 2 < N := by omega
    refine (level_apply_ge hw prev D hs1 hb1 hb2 hs2 hc hcat r c (by omega) (by omega) ⟨c.val / 2, hp⟩ ⟨c.val / 2, hn⟩
      ⟨c.val % 2, Nat.mod_lt _ (by norm_num)⟩ rfl rfl rfl).trans ?_
    rw [hprev, hD, reach_of_le (by omega : 2 ≤ c.val)]

end Cert.HeapReach

end
-- ==== Proof.LibNodeGate.lean ====
/-
  A bank of one-feature linear nodes read at an index. Each of `N` nodes holds one weight and one bias; on the batch of
  `B` one-feature inputs the bank's pre-activation at `(r, n)` is `x r * w n + b n`: a contraction over a single axis
  of extent one, which is the one product, plus the bias row stretched over the batch. The logistic function of it,
  written out as `1 / (1 + exp (-·))`, is the node's gate; the gate and its complement laid side by side along a last
  axis of extent two form the decision array.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.NodeGate

open Idealize.ShloMosaic Idealize.ShloMosaic.ValueIdx

/-- The contraction of `[B, 1]` inputs with `[N, 1, 1]` weights over the one-element feature axis is, at `(r, n, ·)`,
    the single product `x r * w n`. -/
theorem dot_single_apply {B N : ℕ} (d : DotDims ⟨2, ![B, 1]⟩ ⟨3, ![N, 1, 1]⟩ ⟨3, ![B, N, 1]⟩)
    (h1 : d.lhsContracting = [1]) (h2 : d.rhsContracting = [2]) (h3 : d.lhsNonContracting = [0])
    (h4 : d.rhsNonContracting = [0, 1]) (h5 : d.lhsBatch = []) (h6 : d.rhsBatch = [])
    (prec : Option ContractPrecision) (x : FVec Ideal ⟨2, ![B, 1]⟩ .f32) (W : FVec Ideal ⟨3, ![N, 1, 1]⟩ .f32)
    (r : Fin B) (n : Fin N) (z : Fin 1) :
    Host.dotGeneral d prec x W (ix3 r n z) = x (ix2 r (0 : Fin 1)) * W (ix3 n (0 : Fin 1) (0 : Fin 1)) := by
  obtain ⟨lc, rc, ln, rn, lb, rb, wf⟩ := d
  dsimp only at h1 h2 h3 h4 h5 h6
  subst h1 h2 h3 h4 h5 h6
  show FloatOps.dotGeneral _ prec .single x W (ix3 r n z) = _
  rw [Ideal.dotGeneral_apply]
  have hr : (DotDims.mk (sl := ⟨2, ![B, 1]⟩) (sr := ⟨3, ![N, 1, 1]⟩) (so := ⟨3, ![B, N, 1]⟩) [1] [2] [0] [0, 1] [] [] wf).contr.rank = 1 := rfl
  have hs : (DotDims.mk (sl := ⟨2, ![B, 1]⟩) (sr := ⟨3, ![N, 1, 1]⟩) (so := ⟨3, ![B, N, 1]⟩) [1] [2] [0] [0, 1] [] [] wf).contr.size ⟨0, by omega⟩ = 1 := rfl
  rw [← Equiv.sum_comp (contrEquiv1 _ 1 hr hs).symm, Fin.sum_univ_one]
  congr 1
  · congr 1
    funext a
    match a with
    | ⟨0, _⟩ => exact Fin.ext rfl
    | ⟨1, _⟩ => show (_ : Fin 1) = _; exact Subsingleton.elim _ _
  · congr 1
    funext a
    match a with
    | ⟨0, _⟩ => exact Fin.ext rfl
    | ⟨1, _⟩ => show (_ : Fin 1) = _; exact Subsingleton.elim _ _
    | ⟨2, _⟩ => show (_ : Fin 1) = _; exact Subsingleton.elim _ _

/-- The bias column `[N, 1]` given a leading unit axis and stretched over the batch reads, at `(r, n, ·)`, bias `n`. -/
theorem bias_apply {α : Type} {B N : ℕ} (b : (⟨2, ![N, 1]⟩ : Shape).Idx → α)
    (hb1 : (⟨2, ![N, 1]⟩ : Shape).BroadcastsInDim ⟨3, ![1, N, 1]⟩ ![1, 2])
    (hb2 : (⟨3, ![1, N, 1]⟩ : Shape).BroadcastsInDim ⟨3, ![B, N, 1]⟩ ![0, 1, 2])
    (r : Fin B) (n : Fin N) (z : Fin 1) :
    broadcastInDim ⟨3, ![B, N, 1]⟩ ![0, 1, 2] hb2 (broadcastInDim ⟨3, ![1, N, 1]⟩ ![1, 2] hb1 b) (ix3 r n z)
      = b (ix2 n (0 : Fin 1)) := by
  refine (broadcastInDim_apply _ hb2 _ (ix3 r n z) (ix3 (0 : Fin 1) n (0 : Fin 1)) fun a => ?_).trans ?_
  · match a with
    | ⟨0, _⟩ =>
      show (0 : ℕ) = if (1 : ℕ) = 1 then 0 else r.val
      rw [if_pos rfl]
    | ⟨1, _⟩ =>
      show n.val = if N = 1 then 0 else n.val
      split_ifs with h1
      · have := n.isLt; omega
      · rfl
    | ⟨2, _⟩ =>
      show (0 : ℕ) = if (1 : ℕ) = 1 then 0 else z.val
      rw [if_pos rfl]
  · refine broadcastInDim_apply _ hb1 _ (ix3 (0 : Fin 1) n (0 : Fin 1)) (ix2 n (0 : Fin 1)) fun a => ?_
    match a with
    | ⟨0, _⟩ =>
      show n.val = if N = 1 then 0 else n.val
      split_ifs with h1
      · have := n.isLt; omega
      · rfl
    | ⟨1, _⟩ =>
      show (0 : ℕ) = if (1 : ℕ) = 1 then 0 else 0
      rw [if_pos rfl]

/-- THE GATE ARRAY AT AN INDEX: `1 / (1 + exp (-(x · w + b)))`, the two ones splat constants of a pattern denoting `1`,
    is at `(r, n, ·)` the logistic function of `x r * w n + b n`. -/
theorem gate_apply {B N : ℕ} (d : DotDims ⟨2, ![B, 1]⟩ ⟨3, ![N, 1, 1]⟩ ⟨3, ![B, N, 1]⟩)
    (h1 : d.lhsContracting = [1]) (h2 : d.rhsContracting = [2]) (h3 : d.lhsNonContracting = [0])
    (h4 : d.rhsNonContracting = [0, 1]) (h5 : d.lhsBatch = []) (h6 : d.rhsBatch = [])
    (prec : Option ContractPrecision) (one : BitVec 32) (hone : Ideal.ofBits .f32 one = 1)
    (x : FVec Ideal ⟨2, ![B, 1]⟩ .f32) (W : FVec Ideal ⟨3, ![N, 1, 1]⟩ .f32) (b : FVec Ideal ⟨2, ![N, 1]⟩ .f32)
    (hc : (⟨0, ![]⟩ : Shape).BroadcastsInDim ⟨3, ![B, N, 1]⟩ ![])
    (hb1 : (⟨2, ![N, 1]⟩ : Shape).BroadcastsInDim ⟨3, ![1, N, 1]⟩ ![1, 2])
    (hb2 : (⟨3, ![1, N, 1]⟩ : Shape).BroadcastsInDim ⟨3, ![B, N, 1]⟩ ![0, 1, 2])
    (r : Fin B) (n : Fin N) (z : Fin 1) :
    Host.divf (broadcastInDim ⟨3, ![B, N, 1]⟩ ![] hc (constant (F := Ideal) ⟨0, ![]⟩ .f32 one))
        (addf (broadcastInDim ⟨3, ![B, N, 1]⟩ ![] hc (constant (F := Ideal) ⟨0, ![]⟩ .f32 one))
          (Host.exp (Host.negf (addf (Host.dotGeneral d prec x W)
            (broadcastInDim ⟨3, ![B, N, 1]⟩ ![0, 1, 2] hb2 (broadcastInDim ⟨3, ![1, N, 1]⟩ ![1, 2] hb1 b))))))
        (ix3 r n z)
      = Ideal.logistic (x (ix2 r (0 : Fin 1)) * W (ix3 n (0 : Fin 1) (0 : Fin 1)) + b (ix2 n (0 : Fin 1))) := by
  show Ideal.div (Ideal.ofBits .f32 one) (Ideal.ofBits .f32 one + Ideal.exp (-(Host.dotGeneral d prec x W (ix3 r n z)
      + broadcastInDim ⟨3, ![B, N, 1]⟩ ![0, 1, 2] hb2 (broadcastInDim ⟨3, ![1, N, 1]⟩ ![1, 2] hb1 b) (ix3 r n z)))) = _
  rw [hone, dot_single_apply d h1 h2 h3 h4 h5 h6, bias_apply b hb1 hb2]
  rfl

/-- THE DECISION ARRAY AT AN INDEX: a `[B, N, 1]` array `g` and `1 - g` laid side by side along the last axis read, at
    `(r, n, s)`, `g (r, n)` for `s = 0` and `1 - g (r, n)` otherwise. -/
theorem decision_apply {B N : ℕ} (one : BitVec 32) (hone : Ideal.ofBits .f32 one = 1)
    (g : FVec Ideal ⟨3, ![B, N, 1]⟩ .f32)
    (hc : (⟨0, ![]⟩ : Shape).BroadcastsInDim ⟨3, ![B, N, 1]⟩ ![])
    (hcat : Shape.Concatenates [(⟨3, ![B, N, 1]⟩ : Shape), ⟨3, ![B, N, 1]⟩] ⟨3, ![B, N, 2]⟩ 2)
    (r : Fin B) (n : Fin N) (s : Fin 2) :
    concatenate ⟨3, ![B, N, 2]⟩ 2 [⟨⟨3, ![B, N, 1]⟩, g⟩, ⟨⟨3, ![B, N, 1]⟩,
        subf (broadcastInDim ⟨3, ![B, N, 1]⟩ ![] hc (constant (F := Ideal) ⟨0, ![]⟩ .f32 one)) g⟩] hcat (ix3 r n s)
      = if s.val = 0 then g (ix3 r n (0 : Fin 1)) else 1 - g (ix3 r n (0 : Fin 1)) := by
  by_cases hs : s.val = 0
  · rw [if_pos hs]
    refine concatenate_pair_apply_left (s₁ := ⟨3, ![B, N, 1]⟩) (s₂ := ⟨3, ![B, N, 1]⟩) (2 : Fin 3) g _ hcat (ix3 r n s) rfl
      (ix3 r n (0 : Fin 1)) fun a => ?_
    match a with
    | ⟨0, _⟩ => rfl
    | ⟨1, _⟩ => rfl
    | ⟨2, _⟩ => exact hs.symm
  · rw [if_neg hs]
    refine (concatenate_pair_apply_right (s₁ := ⟨3, ![B, N, 1]⟩) (s₂ := ⟨3, ![B, N, 1]⟩) (2 : Fin 3) g _ hcat (ix3 r n s) rfl rfl
      (ix3 r n (0 : Fin 1)) (fun a ha => ?_) ?_).trans ?_
    · match a with
      | ⟨0, _⟩ => rfl
      | ⟨1, _⟩ => rfl
      | ⟨2, _⟩ => exact absurd rfl ha
    · show 0 + 1 = s.val
      have := s.isLt
      omega
    · show Ideal.ofBits .f32 one - g (ix3 r n (0 : Fin 1)) = _
      rw [hone]

end Cert.NodeGate

end
-- ==== Proof.RefValue.lean ====
/-
  The reference program's result array is the soft decision tree's: row `r`, position `c` holds the mass that reaches
  heap position `c` on input `r`.

  The program computes every node's gate on every input (`logistic (x * w + b)`, written out with `exp`), lays each gate
  beside its complement (the decision array), starts every row as `[1, 1]`, and ten times appends to a row of width `w`
  the children of its last `w / 2` positions — parent times decision —, doubling it; a final scatter writes `1` into
  column 0, which already holds `1`. Read position by position, a row of width `w` holds `reach` at every position
  below `w`: by induction over the ten levels, each one instance of one growth lemma.
-/
import proofs.«174314_j83193516523595_2_alg».proof.Proof.RefRun
import proofs.«174314_j83193516523595_2_alg».proof.Proof.TreeSpec
import proofs.«174314_j83193516523595_2_alg».proof.Proof.LibHeapLayout
import proofs.«174314_j83193516523595_2_alg».proof.Proof.LibHeapReach
import proofs.«174314_j83193516523595_2_alg».proof.Proof.LibNodeGate

noncomputable section

open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.HandRun Cert.SoftTree Cert.HeapLayout Cert.HeapReach Cert.NodeGate

/-! ## The program's arrays, position by position -/

section Arrays
variable (V0 : Valuation τ sig (Elt Ideal))

/-- Row `r`'s gates: node `n`'s gate on the input `x r`, from the weight and bias arrays. -/
def rowGate (r : Fin 65536) : ℕ → EReal :=
  gate ((V0 (Proc.devRef .tc main_arg0) : FVec Ideal S65536x1 .f32) (ix2 r (0 : Fin 1)))
    (param fun n => (V0 (Proc.devRef .tc main_arg1) : FVec Ideal S1024x1x1 .f32) (ix3 n (0 : Fin 1) (0 : Fin 1)))
    (param fun n => (V0 (Proc.devRef .tc main_arg2) : FVec Ideal S1024x1 .f32) (ix2 n (0 : Fin 1)))

/-- The gate array at `(r, n, ·)` is node `n`'s gate on input `r`. -/
theorem v9_apply (r : Fin 65536) (n : Fin 1024) (z : Fin 1) : res_main_v9 V0 (ix3 r n z) = rowGate V0 r n.val := by
  refine (gate_apply dot_S65536x1_S1024x1x1_S65536x1024x1_1_2_0_01_n_n rfl rfl rfl rfl rfl rfl none 0x3F800000#32 ofBits_one
    (V0 (Proc.devRef .tc main_arg0)) (V0 (Proc.devRef .tc main_arg1)) (V0 (Proc.devRef .tc main_arg2))
    bcast_S_S65536x1024x1 bcast_S1024x1_S1x1024x1_1_2 bcast_S1x1024x1_S65536x1024x1_0_1_2 r n z).trans ?_
  unfold rowGate gate
  rw [param_of_lt _ n.isLt, param_of_lt _ n.isLt]

/-- The decision array at `(r, n, s)` is node `n`'s share for child `s` on input `r`. -/
theorem v12_apply (r : Fin 65536) (n : Fin 1024) (s : Fin 2) :
    res_main_v12 V0 (ix3 r n s) = branch (rowGate V0 r n.val) s.val := by
  refine (decision_apply 0x3F800000#32 ofBits_one (res_main_v9 V0) bcast_S_S65536x1024x1
    concatenates_S65536x1024x1_S65536x1024x1_S65536x1024x2_d2 r n s).trans ?_
  rw [v9_apply]
  rfl

/-- The starting row `[1, 1]`: positions 0 and 1. -/
theorem v13_apply (r : Fin 65536) (c : Fin 2) : res_main_v13 V0 (ix2 r c) = reach (rowGate V0 r) c.val := by
  rw [reach_of_lt c.isLt]
  exact ofBits_one

/-- The row after the level of depth 1: positions below 4. -/
theorem v20_apply (r : Fin 65536) (c : Fin 4) : res_main_v20 V0 (ix2 r c) = reach (rowGate V0 r) c.val :=
  level_reach (h := 1) (w := 2) (ww := 4) (N := 1024) (by norm_num) (by norm_num) (by norm_num) (by norm_num) (rowGate V0)
    (res_main_v13 V0) (res_main_v12 V0)
    slices_S65536x2_S65536x1_0_1 bcast_S65536x1_S65536x1x1_0_1 bcast_S65536x1x1_S65536x1x2_0_1_2
    slices_S65536x1024x2_S65536x1x2_0_1_0 shapeCasts_S65536x1x2_S65536x2 concatenates_S65536x2_S65536x2_S65536x4_d1
    (v13_apply V0) (v12_apply V0) r c

/-- The row after the level of depth 2: positions below 8. -/
theorem v27_apply (r : Fin 65536) (c : Fin 8) : res_main_v27 V0 (ix2 r c) = reach (rowGate V0 r) c.val :=
  level_reach (h := 2) (w := 4) (ww := 8) (N := 1024) (by norm_num) (by norm_num) (by norm_num) (by norm_num) (rowGate V0)
    (res_main_v20 V0) (res_main_v12 V0)
    slices_S65536x4_S65536x2_0_2 bcast_S65536x2_S65536x2x1_0_1 bcast_S65536x2x1_S65536x2x2_0_1_2
    slices_S65536x1024x2_S65536x2x2_0_2_0 shapeCasts_S65536x2x2_S65536x4 concatenates_S65536x4_S65536x4_S65536x8_d1
    (v20_apply V0) (v12_apply V0) r c

/-- The row after the level of depth 3: positions below 16. -/
theorem v34_apply (r : Fin 65536) (c : Fin 16) : res_main_v34 V0 (ix2 r c) = reach (rowGate V0 r) c.val :=
  level_reach (h := 4) (w := 8) (ww := 16) (N := 1024) (by norm_num) (by norm_num) (by norm_num) (by norm_num) (rowGate V0)
    (res_main_v27 V0) (res_main_v12 V0)
    slices_S65536x8_S65536x4_0_4 bcast_S65536x4_S65536x4x1_0_1 bcast_S65536x4x1_S65536x4x2_0_1_2
    slices_S65536x1024x2_S65536x4x2_0_4_0 shapeCasts_S65536x4x2_S65536x8 concatenates_S65536x8_S65536x8_S65536x16_d1
    (v27_apply V0) (v12_apply V0) r c

/-- The row after the level of depth 4: positions below 32. -/
theorem v41_apply (r : Fin 65536) (c : Fin 32) : res_main_v41 V0 (ix2 r c) = reach (rowGate V0 r) c.val :=
  level_reach (h := 8) (w := 16) (ww := 32) (N := 1024) (by norm_num) (by norm_num) (by norm_num) (by norm_num) (rowGate V0)
    (res_main_v34 V0) (res_main_v12 V0)
    slices_S65536x16_S65536x8_0_8 bcast_S65536x8_S65536x8x1_0_1 bcast_S65536x8x1_S65536x8x2_0_1_2
    slices_S65536x1024x2_S65536x8x2_0_8_0 shapeCasts_S65536x8x2_S65536x16 concatenates_S65536x16_S65536x16_S65536x32_d1
    (v34_apply V0) (v12_apply V0) r c

/-- The row after the level of depth 5: positions below 64. -/
theorem v48_apply (r : Fin 65536) (c : Fin 64) : res_main_v48 V0 (ix2 r c) = reach (rowGate V0 r) c.val :=
  level_reach (h := 16) (w := 32) (ww := 64) (N := 1024) (by norm_num) (by norm_num) (by norm_num) (by norm_num) (rowGate V0)
    (res_main_v41 V0) (res_main_v12 V0)
    slices_S65536x32_S65536x16_0_16 bcast_S65536x16_S65536x16x1_0_1 bcast_S65536x16x1_S65536x16x2_0_1_2
    slices_S65536x1024x2_S65536x16x2_0_16_0 shapeCasts_S65536x16x2_S65536x32 concatenates_S65536x32_S65536x32_S65536x64_d1
    (v41_apply V0) (v12_apply V0) r c

/-- The row after the level of depth 6: positions below 128. -/
theorem v55_apply (r : Fin 65536) (c : Fin 128) : res_main_v55 V0 (ix2 r c) = reach (rowGate V0 r) c.val :=
  level_reach (h := 32) (w := 64) (ww := 128) (N := 1024) (by norm_num) (by norm_num) (by norm_num) (by norm_num) (rowGate V0)
    (res_main_v48 V0) (res_main_v12 V0)
    slices_S65536x64_S65536x32_0_32 bcast_S65536x32_S65536x32x1_0_1 bcast_S65536x32x1_S65536x32x2_0_1_2
    slices_S65536x1024x2_S65536x32x2_0_32_0 shapeCasts_S65536x32x2_S65536x64 concatenates_S65536x64_S65536x64_S65536x128_d1
    (v48_apply V0) (v12_apply V0) r c

/-- The row after the level of depth 7: positions below 256. -/
theorem v62_apply (r : Fin 65536) (c : Fin 256) : res_main_v62 V0 (ix2 r c) = reach (rowGate V0 r) c.val :=
  level_reach (h := 64) (w := 128) (ww := 256) (N := 1024) (by norm_num) (by norm_num) (by norm_num) (by norm_num) (rowGate V0)
    (res_main_v55 V0) (res_main_v12 V0)
    slices_S65536x128_S65536x64_0_64 bcast_S65536x64_S65536x64x1_0_1 bcast_S65536x64x1_S65536x64x2_0_1_2
    slices_S65536x1024x2_S65536x64x2_0_64_0 shapeCasts_S65536x64x2_S65536x128 concatenates_S65536x128_S65536x128_S65536x256_d1
    (v55_apply V0) (v12_apply V0) r c

/-- The row after the level of depth 8: positions below 512. -/
theorem v69_apply (r : Fin 65536) (c : Fin 512) : res_main_v69 V0 (ix2 r c) = reach (rowGate V0 r) c.val :=
  level_reach (h := 128) (w := 256) (ww := 512) (N := 1024) (by norm_num) (by norm_num) (by norm_num) (by norm_num) (rowGate V0)
    (res_main_v62 V0) (res_main_v12 V0)
    slices_S65536x256_S65536x128_0_128 bcast_S65536x128_S65536x128x1_0_1 bcast_S65536x128x1_S65536x128x2_0_1_2
    slices_S65536x1024x2_S65536x128x2_0_128_0 shapeCasts_S65536x128x2_S65536x256 concatenates_S65536x256_S65536x256_S65536x512_d1
    (v62_apply V0) (v12_apply V0) r c

/-- The row after the level of depth 9: positions below 1024. -/
theorem v76_apply (r : Fin 65536) (c : Fin 1024) : res_main_v76 V0 (ix2 r c) = reach (rowGate V0 r) c.val :=
  level_reach (h := 256) (w := 512) (ww := 1024) (N := 1024) (by norm_num) (by norm_num) (by norm_num) (by norm_num) (rowGate V0)
    (res_main_v69 V0) (res_main_v12 V0)
    slices_S65536x512_S65536x256_0_256 bcast_S65536x256_S65536x256x1_0_1 bcast_S65536x256x1_S65536x256x2_0_1_2
    slices_S65536x1024x2_S65536x256x2_0_256_0 shapeCasts_S65536x256x2_S65536x512 concatenates_S65536x512_S65536x512_S65536x1024_d1
    (v69_apply V0) (v12_apply V0) r c

end Arrays

/-! ## The result -/

/-- The run's result term is the tree's result array of the three argument arrays: the last growth step gives `reach`
    below 2048, the scatter of ones into column 0 — where `reach` is `1` already — changes nothing. -/
theorem result_eq (V0 : Valuation τ sig (Elt Ideal)) :
    Host.scatter scatter_S65536x2048_S1_S65536_0_1_1_0 (fun _ b => b) (concatenate S65536x2048 1 [⟨S65536x1024, (res_main_v76 V0)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V0) slices_S65536x1024_S65536x512_0_512))) (extractStridedSlice S65536x512x2 ![0, 512, 0] (res_main_v12 V0) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant (F := Ideal) S_ .f32 0x3F800000#32))
      = Cert.SoftTree.result (V0 (Proc.devRef .tc main_arg0)) (V0 (Proc.devRef .tc main_arg1)) (V0 (Proc.devRef .tc main_arg2)) := by
  have hlast : ∀ (r : Fin 65536) (c : Fin 2048), (concatenate S65536x2048 1 [⟨S65536x1024, (res_main_v76 V0)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V0) slices_S65536x1024_S65536x512_0_512))) (extractStridedSlice S65536x512x2 ![0, 512, 0] (res_main_v12 V0) slices_S65536x1024x2_S65536x512x2_0_512_0)) shapeCasts_S65536x512x2_S65536x1024)⟩] concatenates_S65536x1024_S65536x1024_S65536x2048_d1 : FVec Ideal S65536x2048 .f32) (ix2 r c)
      = reach (rowGate V0 r) c.val :=
    level_reach (h := 512) (w := 1024) (ww := 2048) (N := 1024) (by norm_num) (by norm_num) (by norm_num) (by norm_num) (rowGate V0)
      (res_main_v76 V0) (res_main_v12 V0)
      slices_S65536x1024_S65536x512_0_512 bcast_S65536x512_S65536x512x1_0_1 bcast_S65536x512x1_S65536x512x2_0_1_2
    slices_S65536x1024x2_S65536x512x2_0_512_0 shapeCasts_S65536x512x2_S65536x1024 concatenates_S65536x1024_S65536x1024_S65536x2048_d1
      (v76_apply V0) (v12_apply V0)
  refine (scatter_column_zero_eq_self (w := 32) scatter_S65536x2048_S1_S65536_0_1_1_0 rfl rfl rfl _ (Ideal.ofBits .f32 0x3F800000#32)
    fun r c hc => ?_).trans ?_
  · rw [hlast, reach_of_lt (c := c.val) (by omega), ofBits_one]
  · funext i
    refine (congrArg _ (eq_ix2 (n0 := 65536) (n1 := 2048) i)).trans ((hlast _ _).trans ?_)
    rfl

/-! ## The run -/

/-- On every device every weakly fair execution of the reference program ends with the result buffer at the tree's
    result array of the three arguments as launched, and the arguments unchanged: every buffer ends at the fold of the
    line over the launch contents, which at the result buffer is the composed term over the named arrays, and that term
    is the tree's result. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v86) = Cert.SoftTree.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v86).trans ((after_v86 (launchContents m c)).trans (result_eq (launchContents m c))),
        (h c main_arg0).trans (after_arg0 (launchContents m c)),
        (h c main_arg1).trans (after_arg1 (launchContents m c)),
        (h c main_arg2).trans (after_arg2 (launchContents m c))⟩)
    (Cert.ReferenceIdeal.HandRun.run0 (F := Ideal) m ρ)

end Cert.ReferenceIdeal.RefValue

end
-- ==== Proof.lean ====
/-
  The certificate: a Pallas kernel and its jnp reference compute the same soft decision tree.

  Both programs take a column of 65536 inputs and the weights and biases of 1024 tree nodes, and return, for every
  input, the mass that reaches each of the 2048 heap positions of a complete binary tree of depth 10: `1` at positions
  0 and 1 (position 1 is the root), and at a position `c ≥ 2` the mass at its parent `c / 2` times the parent's share
  for that child — the parent's gate `logistic (x · w + b)` for the left child, one minus it for the right child
  (`Cert.SoftTree.result`, Proof/TreeSpec.lean).

  The kernel walks the tree level by level inside one block of 256 inputs, writing each level's interleaved pairs of
  products next to the level before (Proof/KernelLevels.lean, Proof/KernelBlock.lean); its 256 blocks tile the result
  (Proof/KernelValue.lean). The reference builds the same rows for all inputs at once, one concatenation per level, and
  ends by writing `1` into column 0, which holds `1` already (Proof/RefValue.lean). At the exact extended reals the
  kernel's one logistic operation and the reference's `1 / (1 + exp (-z))` are one function, the two programs multiply
  in the same order, and no law beyond the tree's own recursion joins them: the inputs' finiteness is never used.

  The frames: every program terminates without a fault and leaves its three arguments as they were — the two kernels' by
  their frame certificates (Proof/KernelFrame.lean, Proof/KernelIdealFrame.lean), the reference's by its run. The
  idealized kernel is the kernel's own text read at the extended reals: nothing was rewritten.
-/
import proofs.«174314_j83193516523595_2_alg».proof.Defs
import proofs.«174314_j83193516523595_2_alg».proof.Proof.Gen.Kernel
import proofs.«174314_j83193516523595_2_alg».proof.Proof.Gen.KernelIdeal
import proofs.«174314_j83193516523595_2_alg».proof.Proof.Gen.ReferenceIdeal
import proofs.«174314_j83193516523595_2_alg».proof.Proof.Gen.Pre_finite_inputs
import proofs.«174314_j83193516523595_2_alg».proof.Proof.KernelFrame
import proofs.«174314_j83193516523595_2_alg».proof.Proof.KernelValue
import proofs.«174314_j83193516523595_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.GenP.frame m ρ

theorem frame_kernelIdeal : Cert.frame_KernelIdeal :=
  fun m ρ _ => Cert.KernelIdeal.GenP.frame m ρ

/-- The reference's frame is its run with the result dropped. -/
theorem frame_reference : Cert.frame_ReferenceIdeal :=
  fun m ρ _ => (θ_run Cert.ReferenceIdeal.defs _ _).mono (fun _ h c => (h c).2) (Cert.ReferenceIdeal.RefValue.run m ρ)

/-- Both runs end with the result at the tree's masses of the argument arrays, which agree. -/
theorem algebraic : Cert.algebraic_KernelIdeal_ReferenceIdeal := by
  intro m ρ m' ρ' _ hagree
  refine ⟨fun c => Cert.SoftTree.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩) (Cert.ReferenceIdeal.RefValue.run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
